-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_31" .f32 0x3D042108#32 ((1 / 31 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v18_1)) (v3 : (c : Dev Cert.KernelIdeal.nD) → Buf (Elt Ideal) ((c.tc : Thread Cert.KernelIdeal.nD Cert.KernelIdeal.τ).loc Cert.KernelIdeal.main_v18_2)) (v4 : (c : Dev Cert.KernelIdeal.nD) → Buf (Elt Ideal) ((c.tc : Thread Cert.KernelIdeal.nD Cert.KernelIdeal.τ).loc Cert.KernelIdeal.main_v18_3)) (v5 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_v18_2) = v3 c
          ∧ r.2.mem ((c.tc : Thread Cert.KernelIdeal.nD Cert.KernelIdeal.τ).loc Cert.KernelIdeal.main_v18_3) = v4 c
          ∧ r.2.mem ((c.tc : Thread Cert.KernelIdeal.nD Cert.KernelIdeal.τ).loc Cert.KernelIdeal.main_v18_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1024x1024 : Shape := ⟨2, ![1024, 1024]⟩
abbrev S1536x1536 : Shape := ⟨2, ![1536, 1536]⟩
abbrev S1536 : Shape := ⟨1, ![1536]⟩
abbrev S8192 : Shape := ⟨1, ![8192]⟩
abbrev S8192x32 : Shape := ⟨2, ![8192, 32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  main_v23

def fn {F : FTy → Type} [FloatOps F] (main_arg0 : FVec F S100000x512 .f32) (main_arg1 : FVec F S1024x1024 .f32) (main_arg2 : FVec F S1536x1536 .f32) (main_arg3 : FVec F S1536 .f32) (main_arg4 : FVec F S1536 .f32) (main_arg5 : IVec S8192 32) (main_arg6 : IVec S8192x32 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1536x1536 .f32 := Host.absf main_arg2
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  let main_c_3 : IVec S_ 1 := constantI S_ 1 1#1
  let main_v12 : IVec S_ 1 := (fun x v => Host.reduce IntOp.andi x v reducesTo_S1536x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_v13 main_v16
-- ==== Kernel.lean ====
abbrev S100000x512 : Shape := ⟨2, ![100000, 512]⟩
abbrev S1024x1024 : Shape := ⟨2, ![1024, 1024]⟩
abbrev S1536x1536 : Shape := ⟨2, ![1536, 1536]⟩
abbrev S1536 : Shape := ⟨1, ![1536]⟩
abbrev S8192 : Shape := ⟨1, ![8192]⟩
abbrev S8192x32 : Shape := ⟨2, ![8192, 32]⟩
abbrev S_ : Shape := ⟨0, ![]⟩
abbrev S8192x1 : Shape := ⟨2, ![8192, 1]⟩
abbrev S8192x512 : Shape := ⟨2, ![8192, 512]⟩
abbrev S8192x32x1 : Shape := ⟨3, ![8192, 32, 1]⟩
abbrev S8192x32x512 : Shape := ⟨3, ![8192, 32, 512]⟩
abbrev S512x1024 : Shape := ⟨2, ![512, 1024]⟩
abbrev S8192x1024 : Shape := ⟨2, ![8192, 1024]⟩
abbrev S32x1x1536 : Shape := ⟨3, ![32, 1, 1536]⟩
abbrev S256x512 : Shape := ⟨2, ![256, 512]⟩
abbrev S256x32x512 : Shape := ⟨3, ![256, 32, 512]⟩
abbrev S256x1024 : Shape := ⟨2, ![256, 1024]⟩
abbrev S1x1x1536 : Shape := ⟨3, ![1, 1, 1536]⟩
abbrev S256x1x512 : Shape := ⟨3, ![256, 1, 512]⟩
abbrev S512 : Shape := ⟨1, ![512]⟩
abbrev S1x512 : Shape := ⟨2, ![1, 512]⟩
abbrev S1024 : Shape := ⟨1, ![1024]⟩
abbrev S1x1024 : Shape := ⟨2, ![1, 1024]⟩
abbrev S1x1536 : Shape := ⟨2, ![1, 1536]⟩
abbrev S32x1536 : Shape := ⟨2, ![32, 1536]⟩
abbrev S512x1536 : Shape := ⟨2, ![512, 1536]⟩
abbrev S1024x1536 : Shape := ⟨2, ![1024, 1536]⟩
abbrev S8192x1536 : Shape := ⟨2, ![8192, 1536]⟩
abbrev S1024x512 : Shape := ⟨2, ![1024, 512]⟩

abbrev nBuf : Space → Nat
  | .hbm => 69
  | .vmem => 36
  | .smem => 0
  | _ => 0

abbrev bufTy : (tb : Table) → Fin (tcTables nBuf tb) → BufTy
  | .hbm, ⟨0, _⟩ => ⟨S100000x512, .f32⟩
  | .hbm, ⟨1, _⟩ => ⟨S1024x1024, .f32⟩
  | .hbm, ⟨2, _⟩ => ⟨S1536x1536, .f32⟩
  | .hbm, ⟨3, _⟩ => ⟨S1536, .f32⟩
  | .hbm, ⟨4, _⟩ => ⟨S1536, .f32⟩
  | .hbm, ⟨5, _⟩ => ⟨S8192, .i32⟩
  | .hbm, ⟨6, _⟩ => ⟨S8192x32, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x512, .f32⟩
  | .hbm, ⟨16, _⟩ => ⟨S_, .i32⟩
  | .hbm, ⟨17, _⟩ => ⟨S8192x32, .i32⟩
  | .hbm, ⟨18, _⟩ => ⟨S8192x32, .i1⟩
  | .hbm, ⟨19, _⟩ => ⟨S_, .i32⟩
  | .hbm, ⟨20, _⟩ => ⟨S8192x32, .i32⟩
  | .hbm, ⟨21, _⟩ => ⟨S8192x32, .i32⟩
  | .hbm, ⟨22, _⟩ => ⟨S8192x32, .i32⟩
  | .hbm, ⟨23, _⟩ => ⟨S8192x32x1, .i32⟩
  | .hbm, ⟨24, _⟩ => ⟨S8192x32x512, .f32⟩
  | .hbm, ⟨25, _⟩ => ⟨S512x1024, .f32⟩
  | .hbm, ⟨26, _⟩ => ⟨S512x1024, .bf16⟩
  | .hbm, ⟨27, _⟩ => ⟨S512x1024, .f32⟩
  | .hbm, ⟨28, _⟩ => ⟨S512x1024, .bf16⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S32x1x1536, .f32⟩
  | .hbm, ⟨35, _⟩ => ⟨S32x1x1536, .f32⟩
  | .hbm, ⟨36, _⟩ => ⟨S32x1536, .f32⟩
  | .hbm, ⟨37, _⟩ => ⟨S_, .f32⟩
  | .hbm, ⟨38, _⟩ => ⟨S1536, .f32⟩
  | .hbm, ⟨39, _⟩ => ⟨S32x1536, .f32⟩
  | .hbm, ⟨40, _⟩ => ⟨S_, .f32⟩
  | .hbm, ⟨41, _⟩ => ⟨S1536, .f32⟩
  | .hbm, ⟨42, _⟩ => ⟨S_, .f32⟩
  | .hbm, ⟨43, _⟩ => ⟨S1536, .f32⟩
  | .hbm, ⟨44, _⟩ => ⟨S1536, .f32⟩
  | .hbm, ⟨45, _⟩ => ⟨S1x1536, .f32⟩
  | .hbm, ⟨46, _⟩ => ⟨S_, .f32⟩
  | .hbm, ⟨47, _⟩ => ⟨S1536, .f32⟩
  | .hbm, ⟨48, _⟩ => ⟨S1536, .f32⟩
  | .hbm, ⟨49, _⟩ => ⟨S1x1536, .f32⟩
  | .hbm, ⟨50, _⟩ => ⟨S1x1536, .f32⟩
  | .hbm, ⟨51, _⟩ => ⟨S1x1536, .f32⟩
  | .hbm, ⟨52, _⟩ => ⟨S512, .f32⟩
  | .hbm, ⟨53, _⟩ => ⟨S1x512, .f32⟩
  | .hbm, ⟨54, _⟩ => ⟨S1024, .f32⟩
  | .hbm, ⟨55, _⟩ => ⟨S1x1024, .f32⟩
  | .hbm, ⟨56, _⟩ => ⟨S512, .f32⟩
  | .hbm, ⟨57, _⟩ => ⟨S1x512, .f32⟩
  | .hbm, ⟨58, _⟩ => ⟨S1024, .f32⟩
  | .hbm, ⟨59, _⟩ => ⟨S1x1024, .f32⟩
  | .hbm, ⟨60, _⟩ => ⟨S1x512, .f32⟩
  | .hbm, ⟨61, _⟩ => ⟨S1x1024, .f32⟩
  | .hbm, ⟨62, _⟩ => ⟨S1x512, .f32⟩
  | .hbm, ⟨63, _⟩ => ⟨S1x1024, .f32⟩
  | .hbm, ⟨64, _⟩ => ⟨S512x1536, .f32⟩
  | .hbm, ⟨65, _⟩ => ⟨S512x1536, .bf16⟩
  | .hbm, ⟨66, _⟩ => ⟨S1024x1536, .f32⟩
  | .hbm, ⟨67, _⟩ => ⟨S1024x1536, .bf16⟩
  | .hbm, ⟨68, _⟩ => ⟨S8192x1536, .f32⟩
  | .local _ .vmem, ⟨0, _⟩ => ⟨S256x512, .f32⟩
  | .local _ .vmem, ⟨1, _⟩ => ⟨S256x512, .f32⟩
  | .local _ .vmem, ⟨2, _⟩ => ⟨S256x32x512, .f32⟩
  | .local _ .vmem, ⟨3, _⟩ => ⟨S256x32x512, .f32⟩
  | .local _ .vmem, ⟨4, _⟩ => ⟨S512x1024, .bf16⟩
  | .local _ .vmem, ⟨5, _⟩ => ⟨S512x1024, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1x1536, .f32⟩
  | .local _ .vmem, ⟨17, _⟩ => ⟨S1x1x1536, .f32⟩
  | .local _ .vmem, ⟨18, _⟩ => ⟨S1x1x1536, .f32⟩
  | .local _ .vmem, ⟨19, _⟩ => ⟨S1x1x1536, .f32⟩
  | .local _ .vmem, ⟨20, _⟩ => ⟨S1024x512, .f32⟩
  | .local _ .vmem, ⟨21, _⟩ => ⟨S1024x512, .f32⟩
  | .local _ .vmem, ⟨22, _⟩ => ⟨S1024x1024, .f32⟩
  | .local _ .vmem, ⟨23, _⟩ => ⟨S1024x1024, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S512x1536, .bf16⟩
  | .local _ .vmem, ⟨33, _⟩ => ⟨S1024x1536, .bf16⟩
  | .local _ .vmem, ⟨34, _⟩ => ⟨S1024x1536, .f32⟩
  | .local _ .vmem, ⟨35, _⟩ => ⟨S1024x1536, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg12_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem12_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x1536 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x1536 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x1536 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  slices_S1024x1024_S512x1024_0_0 : S1024x1024.Slices ![0, 0] S512x1024
  bitsLt_bf16_f32 : FTy.bits .bf16 < FTy.bits .f32
  slices_S1024x1024_S512x1024_512_0 : S1024x1024.Slices ![512, 0] S512x1024
  inb_S256x32x512_S256x32x512_0_0_0 : ∀ a, (![0, 0, 0] : Fin 3 → Nat) a + S256x32x512.size a ≤ S256x32x512.size a
  h_S256x32x512 : 0 < S256x32x512.numel
  shapeCasts_S256x32x512_S256x32x512 : S256x32x512.ShapeCasts S256x32x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x32x512_S256x512 : S256x32x512.Reduces [1] S256x512
  slices_S256x32x512_o0_0_0_S256x1x512 : S256x32x512.Slices ![0, 0, 0] S256x1x512
  shapeCasts_S256x1x512_S256x512 : S256x1x512.ShapeCasts S256x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  reduces_S256x512_S512 : S256x512.Reduces [0] S512
  shapeCasts_S512_S1x512 : S512.ShapeCasts S1x512
  reduces_S256x1024_S1024 : S256x1024.Reduces [0] S1024
  shapeCasts_S1024_S1x1024 : S1024.ShapeCasts S1x1024
  concatenates_S1x512_S1x1024_S1x1536_d1 : Shape.Concatenates [S1x512, S1x1024] S1x1536 1
  shapeCasts_S1x1536_S1x1x1536 : S1x1536.ShapeCasts S1x1x1536
  inb_S1x1x1536_S1x1x1536_0_0_0 : ∀ a, (![0, 0, 0] : Fin 3 → Nat) a + S1x1x1536.size a ≤ S1x1x1536.size a
  h_S1x1x1536 : 0 < S1x1x1536.numel
  shapeCasts_S32x1x1536_S32x1536 : S32x1x1536.ShapeCasts S32x1536
  reducesTo_S32x1536_S1536_d0 : S32x1536.ReducesTo [0] S1536
  h_S_ : 0 < S_.numel
  bcast_S_S1536 : S_.BroadcastsInDim S1536 (![] : Fin 0 → Fin S1536.rank)
  shapeCasts_S1536_S1x1536 : S1536.ShapeCasts S1x1536
  bcast_S1536_S1x1536_1 : S1536.BroadcastsInDim S1x1536 (![1] : Fin 1 → Fin S1x1536.rank)
  slices_S1536_S512_0 : S1536.Slices ![0] S512
  slices_S1536_S1024_512 : S1536.Slices ![512] S1024
  slices_S1x1536_S1x512_0_0 : S1x1536.Slices ![0, 0] S1x512
  slices_S1x1536_S1x1024_0_512 : S1x1536.Slices ![0, 512] S1x1024
  slices_S1536x1536_S512x1536_0_0 : S1536x1536.Slices ![0, 0] S512x1536
  slices_S1536x1536_S1024x1536_512_0 : S1536x1536.Slices ![512, 0] S1024x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x512_S1024x512 : S1x512.Broadcasts S1024x512
  broadcasts_S1x1024_S1024x1024 : S1x1024.Broadcasts S1024x1024
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  gather_S100000x512_S8192x1_S8192x512_1_0_n_n_0_1_1512_wf : GatherDims.WF S100000x512 S8192x1 S8192x512 [1] [0] [] [0] [] 1 ![1, 512]
  gather_S100000x512_S8192x32x1_S8192x32x512_2_0_n_n_0_2_1512_wf : GatherDims.WF S100000x512 S8192x32x1 S8192x32x512 [2] [0] [] [0] [] 2 ![1, 512]
  dot_S256x512_S512x1024_S256x1024_1_0_0_1_n_n_wf : DotDims.WF S256x512 S512x1024 S256x1024 [1] [0] [0] [1] [] []
  dot_S1024x512_S512x1536_S1024x1536_1_0_0_1_n_n_wf : DotDims.WF S1024x512 S512x1536 S1024x1536 [1] [0] [0] [1] [] []
  dot_S1024x1024_S1024x1536_S1024x1536_1_0_0_1_n_n_wf : DotDims.WF S1024x1024 S1024x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x512.size a ≤ S8192x32x512.size a
  hwx0_1 : ∀ i : grid0.Coords, EltTy.bits .f32 = 32 ∨ (Rect.block (s := S8192x32x512) S256x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1536.size a ≤ S32x1x1536.size a
  hwx0_9 : ∀ i : grid0.Coords, EltTy.bits .f32 = 32 ∨ (Rect.block (s := S32x1x1536) S1x1x1536.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1536.size a ≤ S32x1x1536.size a
  hwx0_10 : ∀ i : grid0.Coords, EltTy.bits .f32 = 32 ∨ (Rect.block (s := S32x1x1536) S1x1x1536.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x1536.size a ≤ S512x1536.size a
  hwx1_10 : ∀ i : grid1.Coords, EltTy.bits .bf16 = 32 ∨ (Rect.block (s := S512x1536) S512x1536.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x1536.size a ≤ S1024x1536.size a
  hwx1_11 : ∀ i : grid1.Coords, EltTy.bits .bf16 = 32 ∨ (Rect.block (s := S1024x1536) S1024x1536.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x1536.size a ≤ S8192x1536.size a
  hwx1_12 : ∀ i : grid1.Coords, EltTy.bits .f32 = 32 ∨ (Rect.block (s := S8192x1536) S1024x1536.size (cc1_transform_12 i) (hinb1_12 i)).WholeWords (EltTy.packing .f32)

variable [Facts₀]

def gather_S100000x512_S8192x1_S8192x512_1_0_n_n_0_1_1512 : GatherDims S100000x512 S8192x1 S8192x512 where
  offsetDims := [1]
  collapsedSliceDims := [0]
  operandBatchingDims := []
  startIndicesBatchingDims := []
  startIndexMap := [0]
  indexVectorDim := 1
  sliceSizes := ![1, 512]
  wf := gather_S100000x512_S8192x1_S8192x512_1_0_n_n_0_1_1512_wf
def gather_S100000x512_S8192x32x1_S8192x32x512_2_0_n_n_0_2_1512 : GatherDims S100000x512 S8192x32x1 S8192x32x512 where
  offsetDims := [2]
  collapsedSliceDims := [0]
  operandBatchingDims := []
  startIndicesBatchingDims := []
  startIndexMap := [0]
  indexVectorDim := 2
  sliceSizes := ![1, 512]
  wf := gather_S100000x512_S8192x32x1_S8192x32x512_2_0_n_n_0_2_1512_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x1024_S1024x1536_S1024x1536_1_0_0_1_n_n : DotDims S1024x1024 S1024x1536 S1024x1536 where
  lhsContracting := [1]
  rhsContracting := [0]
  lhsNonContracting := [0]
  rhsNonContracting := [1]
  lhsBatch := []
  rhsBatch := []
  wf := dot_S1024x1024_S1024x1536_S1024x1536_1_0_0_1_n_n_wf

abbrev win0_0 : Pipeline.Window sig grid0 :=
  Pipeline.Window.ofSpec (Memref.whole main_v6) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_3) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_4) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_5) S1x1x1536.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18_6) S1x1x1536.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v18_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S512x1536.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1024x1536.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v47) S1024x1536.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x512 : Shape := ⟨2, ![100000, 512]⟩
abbrev S1024x1024 : Shape := ⟨2, ![1024, 1024]⟩
abbrev S1536x1536 : Shape := ⟨2, ![1536, 1536]⟩
abbrev S1536 : Shape := ⟨1, ![1536]⟩
abbrev S8192 : Shape := ⟨1, ![8192]⟩
abbrev S8192x32 : Shape := ⟨2, ![8192, 32]⟩
abbrev S_ : Shape := ⟨0, ![]⟩
abbrev S8192x1 : Shape := ⟨2, ![8192, 1]⟩
abbrev S8192x512 : Shape := ⟨2, ![8192, 512]⟩
abbrev S8192x32x1 : Shape := ⟨3, ![8192, 32, 1]⟩
abbrev S8192x32x512 : Shape := ⟨3, ![8192, 32, 512]⟩
abbrev S8192x1024 : Shape := ⟨2, ![8192, 1024]⟩
abbrev S8192x31x512 : Shape := ⟨3, ![8192, 31, 512]⟩
abbrev S8192x1536 : Shape := ⟨2, ![8192, 1536]⟩
abbrev S1x1536 : Shape := ⟨2, ![1, 1536]⟩

abbrev nBuf : Space → Nat
  | .hbm => 97
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1024x1024, .f32⟩
  | .hbm, ⟨2, _⟩ => ⟨S1536x1536, .f32⟩
  | .hbm, ⟨3, _⟩ => ⟨S1536, .f32⟩
  | .hbm, ⟨4, _⟩ => ⟨S1536, .f32⟩
  | .hbm, ⟨5, _⟩ => ⟨S8192, .i32⟩
  | .hbm, ⟨6, _⟩ => ⟨S8192x32, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x512, .f32⟩
  | .hbm, ⟨16, _⟩ => ⟨S_, .i32⟩
  | .hbm, ⟨17, _⟩ => ⟨S8192x32, .i32⟩
  | .hbm, ⟨18, _⟩ => ⟨S8192x32, .i1⟩
  | .hbm, ⟨19, _⟩ => ⟨S_, .i32⟩
  | .hbm, ⟨20, _⟩ => ⟨S8192x32, .i32⟩
  | .hbm, ⟨21, _⟩ => ⟨S8192x32, .i32⟩
  | .hbm, ⟨22, _⟩ => ⟨S8192x32, .i32⟩
  | .hbm, ⟨23, _⟩ => ⟨S8192x32x1, .i32⟩
  | .hbm, ⟨24, _⟩ => ⟨S8192x32x512, .f32⟩
  | .hbm, ⟨25, _⟩ => ⟨S_, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x31x512, .f32⟩
  | .hbm, ⟨36, _⟩ => ⟨S_, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1536, .f32⟩
  | .hbm, ⟨49, _⟩ => ⟨S_, .f32⟩
  | .hbm, ⟨50, _⟩ => ⟨S1536, .f32⟩
  | .hbm, ⟨51, _⟩ => ⟨S_, .f32⟩
  | .hbm, ⟨52, _⟩ => ⟨S1536, .f32⟩
  | .hbm, ⟨53, _⟩ => ⟨S1536, .f32⟩
  | .hbm, ⟨54, _⟩ => ⟨S_, .i32⟩
  | .hbm, ⟨55, _⟩ => ⟨S_, .f32⟩
  | .hbm, ⟨56, _⟩ => ⟨S1536, .f32⟩
  | .hbm, ⟨57, _⟩ => ⟨S1x1536, .f32⟩
  | .hbm, ⟨58, _⟩ => ⟨S_, .f32⟩
  | .hbm, ⟨59, _⟩ => ⟨S1x1536, .f32⟩
  | .hbm, ⟨60, _⟩ => ⟨S1x1536, .f32⟩
  | .hbm, ⟨61, _⟩ => ⟨S8192x1536, .f32⟩
  | .hbm, ⟨62, _⟩ => ⟨S8192x1536, .f32⟩
  | .hbm, ⟨63, _⟩ => ⟨S8192x1536, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1536, .f32⟩
  | .hbm, ⟨69, _⟩ => ⟨S1536, .f32⟩
  | .hbm, ⟨70, _⟩ => ⟨S1536, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S1536, .f32⟩
  | .hbm, ⟨76, _⟩ => ⟨S1536, .f32⟩
  | .hbm, ⟨77, _⟩ => ⟨S1x1536, .f32⟩
  | .hbm, ⟨78, _⟩ => ⟨S8192x1536, .f32⟩
  | .hbm, ⟨79, _⟩ => ⟨S8192x1536, .f32⟩
  | .hbm, ⟨80, _⟩ => ⟨S_, .f32⟩
  | .hbm, ⟨81, _⟩ => ⟨S1536, .f32⟩
  | .hbm, ⟨82, _⟩ => ⟨S1536, .f32⟩
  | .hbm, ⟨83, _⟩ => ⟨S1536, .f32⟩
  | .hbm, ⟨84, _⟩ => ⟨S1x1536, .f32⟩
  | .hbm, ⟨85, _⟩ => ⟨S8192x1536, .f32⟩
  | .hbm, ⟨86, _⟩ => ⟨S8192x1536, .f32⟩
  | .hbm, ⟨87, _⟩ => ⟨S1x1536, .f32⟩
  | .hbm, ⟨88, _⟩ => ⟨S8192x1536, .f32⟩
  | .hbm, ⟨89, _⟩ => ⟨S8192x1536, .f32⟩
  | .hbm, ⟨90, _⟩ => ⟨S1x1536, .f32⟩
  | .hbm, ⟨91, _⟩ => ⟨S8192x1536, .f32⟩
  | .hbm, ⟨92, _⟩ => ⟨S8192x1536, .f32⟩
  | .hbm, ⟨93, _⟩ => ⟨S8192x1536, .f32⟩
  | .hbm, ⟨94, _⟩ => ⟨S_, .f32⟩
  | .hbm, ⟨95, _⟩ => ⟨S8192x1536, .f32⟩
  | .hbm, ⟨96, _⟩ => ⟨S8192x1536, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_cst_1 : Ref sig .tc := ⟨.hbm, 65, rfl⟩
abbrev main_call2_v8 : Ref sig .tc := ⟨.hbm, 66, rfl⟩
abbrev main_call2_cst_2 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_cst_3 : Ref sig .tc := ⟨.hbm, 71, rfl⟩
abbrev main_call2_v12 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_10 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call3_cst : Ref sig .tc := ⟨.hbm, 94, rfl⟩
abbrev main_call3_v0 : Ref sig .tc := ⟨.hbm, 95, rfl⟩
abbrev main_v49 : Ref sig .tc := ⟨.hbm, 96, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  reducesTo_S8192x32x512_S8192x512_d1 : S8192x32x512.ReducesTo [1] S8192x512
  h_S_ : 0 < S_.numel
  bcast_S_S8192x512 : S_.BroadcastsInDim S8192x512 (![] : Fin 0 → Fin S8192x512.rank)
  concatenates_S8192x512_S8192x512_S8192x1024_d1 : Shape.Concatenates [S8192x512, S8192x512] S8192x1024 1
  bcast_S_S8192x1024 : S_.BroadcastsInDim S8192x1024 (![] : Fin 0 → Fin S8192x1024.rank)
  slices_S8192x32x512_S8192x31x512_0_1_0 : S8192x32x512.Slices ![0, 1, 0] S8192x31x512
  reducesTo_S8192x31x512_S8192x512_d1 : S8192x31x512.ReducesTo [1] S8192x512
  concatenates_S8192x512_S8192x1024_S8192x1536_d1 : Shape.Concatenates [S8192x512, S8192x1024] S8192x1536 1
  reducesTo_S8192x1536_S1536_d0 : S8192x1536.ReducesTo [0] S1536
  bcast_S_S1536 : S_.BroadcastsInDim S1536 (![] : Fin 0 → Fin S1536.rank)
  bcast_S1536_S1x1536_1 : S1536.BroadcastsInDim S1x1536 (![1] : Fin 1 → Fin S1x1536.rank)
  bcast_S_S1x1536 : S_.BroadcastsInDim S1x1536 (![] : Fin 0 → Fin S1x1536.rank)
  bcast_S1x1536_S8192x1536_0_1 : S1x1536.BroadcastsInDim S8192x1536 (![0, 1] : Fin 2 → Fin S8192x1536.rank)
  bcast_S_S8192x1536 : S_.BroadcastsInDim S8192x1536 (![] : Fin 0 → Fin S8192x1536.rank)
  gather_S100000x512_S8192x1_S8192x512_1_0_n_n_0_1_1512_wf : GatherDims.WF S100000x512 S8192x1 S8192x512 [1] [0] [] [0] [] 1 ![1, 512]
  gather_S100000x512_S8192x32x1_S8192x32x512_2_0_n_n_0_2_1512_wf : GatherDims.WF S100000x512 S8192x32x1 S8192x32x512 [2] [0] [] [0] [] 2 ![1, 512]
  dot_S8192x1024_S1024x1024_S8192x1024_1_0_0_1_n_n_wf : DotDims.WF S8192x1024 S1024x1024 S8192x1024 [1] [0] [0] [1] [] []
  dot_S8192x1536_S1536x1536_S8192x1536_1_0_0_1_n_n_wf : DotDims.WF S8192x1536 S1536x1536 S8192x1536 [1] [0] [0] [1] [] []

variable [Facts₀]

def gather_S100000x512_S8192x1_S8192x512_1_0_n_n_0_1_1512 : GatherDims S100000x512 S8192x1 S8192x512 where
  offsetDims := [1]
  collapsedSliceDims := [0]
  operandBatchingDims := []
  startIndicesBatchingDims := []
  startIndexMap := [0]
  indexVectorDim := 1
  sliceSizes := ![1, 512]
  wf := gather_S100000x512_S8192x1_S8192x512_1_0_n_n_0_1_1512_wf
def gather_S100000x512_S8192x32x1_S8192x32x512_2_0_n_n_0_2_1512 : GatherDims S100000x512 S8192x32x1 S8192x32x512 where
  offsetDims := [2]
  collapsedSliceDims := [0]
  operandBatchingDims := []
  startIndicesBatchingDims := []
  startIndexMap := [0]
  indexVectorDim := 2
  sliceSizes := ![1, 512]
  wf := gather_S100000x512_S8192x32x1_S8192x32x512_2_0_n_n_0_2_1512_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1536_S1536x1536_S8192x1536_1_0_0_1_n_n : DotDims S8192x1536 S1536x1536 S8192x1536 where
  lhsContracting := [1]
  rhsContracting := [0]
  lhsNonContracting := [0]
  rhsNonContracting := [1]
  lhsBatch := []
  rhsBatch := []
  wf := dot_S8192x1536_S1536x1536_S8192x1536_1_0_0_1_n_n_wf

class Facts : Prop extends Facts₀ where

variable [Facts]
-- ==== Proof.KRun.lean ====
/-
  The idealized kernel program's run with every unscoped buffer NAMED at its final contents: the fold of the
  program's four segments (host operations, the first kernel region, host operations, the second kernel region)
  over the launch memory. The same launch as the frame's; only the reading of the last thread state is kept whole
  instead of being projected on the argument arrays. From it: each result array is what its region's write-backs
  leave — the first region's five result arrays pass through the later host operations and through the second
  region (two of them as its input windows) unchanged.
-/
import proofs.«116837_j75015898792523_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KRun

end
-- ==== Proof.KOut.lean ====
/-
  Where each result array of the idealized kernel program ends: the first region's five result arrays (the
  neighbour mean, the generator's relu and raw outputs, the environment branch's relu and raw outputs) are what its
  write-backs leave, carried unchanged through the host operations that follow (none writes them) and through the
  second region (which reads two of them through input windows and writes none); the last layer's array is what
  the second region's write-backs leave.
-/
import proofs.«116837_j75015898792523_2_alg».proof.Proof.KRun

set_option maxRecDepth 16384

noncomputable section

namespace Cert.KernelIdeal.KRun

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg)

/-- The host operations between the two regions write none of the first region's result arrays. -/
theorem W3_v18_0 (c : Dev nD) : W3 m ρ c (Proc.devRef .tc main_v18_0) = (dat0 (V1 m ρ) c).arrAt 4 cfg0.N :=
  (StableHlo.after_of_forall_not_mem (b := Proc.devRef .tc main_v18_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 4)
theorem W3_v18_1 (c : Dev nD) : W3 m ρ c (Proc.devRef .tc main_v18_1) = (dat0 (V1 m ρ) c).arrAt 5 cfg0.N :=
  (StableHlo.after_of_forall_not_mem (b := Proc.devRef .tc main_v18_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 5)
theorem W3_v18_2 (c : Dev nD) : W3 m ρ c (Proc.devRef .tc main_v18_2) = (dat0 (V1 m ρ) c).arrAt 6 cfg0.N :=
  (StableHlo.after_of_forall_not_mem (b := Proc.devRef .tc main_v18_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 6)
theorem W3_v18_3 (c : Dev nD) : W3 m ρ c (Proc.devRef .tc main_v18_3) = (dat0 (V1 m ρ) c).arrAt 7 cfg0.N :=
  (StableHlo.after_of_forall_not_mem (b := Proc.devRef .tc main_v18_3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 7)
theorem W3_v18_4 (c : Dev nD) : W3 m ρ c (Proc.devRef .tc main_v18_4) = (dat0 (V1 m ρ) c).arrAt 8 cfg0.N :=
  (StableHlo.after_of_forall_not_mem (b := Proc.devRef .tc main_v18_4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 8)

/-- An input window's array is left as the region found it. -/
theorem W4_v18_0 (c : Dev nD) : W4 m ρ c (Proc.devRef .tc main_v18_0) = (dat0 (V1 m ρ) c).arrAt 4 cfg0.N :=
  ((W4_arr m ρ c 0).trans (((dat1 (V3 m ρ) c).arrAt_in 0 rfl cfg1.N).trans (A_eq1 (V3 m ρ) c 0))).trans (W3_v18_0 m ρ c)
theorem W4_v18_1 (c : Dev nD) : W4 m ρ c (Proc.devRef .tc main_v18_1) = (dat0 (V1 m ρ) c).arrAt 5 cfg0.N :=
  ((W4_arr m ρ c 1).trans (((dat1 (V3 m ρ) c).arrAt_in 1 rfl cfg1.N).trans (A_eq1 (V3 m ρ) c 1))).trans (W3_v18_1 m ρ c)
theorem W4_v18_2 (c : Dev nD) : W4 m ρ c (Proc.devRef .tc main_v18_2) = (dat0 (V1 m ρ) c).arrAt 6 cfg0.N :=
  (W4_of_ne m ρ c main_v18_2 (by decide)).trans (W3_v18_2 m ρ c)
theorem W4_v18_3 (c : Dev nD) : W4 m ρ c (Proc.devRef .tc main_v18_3) = (dat0 (V1 m ρ) c).arrAt 7 cfg0.N :=
  (W4_of_ne m ρ c main_v18_3 (by decide)).trans (W3_v18_3 m ρ c)
theorem W4_v18_4 (c : Dev nD) : W4 m ρ c (Proc.devRef .tc main_v18_4) = (dat0 (V1 m ρ) c).arrAt 8 cfg0.N :=
  (W4_of_ne m ρ c main_v18_4 (by decide)).trans (W3_v18_4 m ρ c)
theorem W4_v47 (c : Dev nD) : W4 m ρ c (Proc.devRef .tc main_v47) = (dat1 (V3 m ρ) c).arrAt 12 cfg1.N :=
  W4_arr m ρ c 12

/-- The run with every result array named by its region's write-backs, the arguments unchanged. -/
theorem run_values : θ_run defs (onTc (τ := τ) (main (F := F))) ⟨m, fun _ => 0, ρ⟩ (fun r => ∀ c : Dev nD,
      r.2.mem ((c.tc : Thread nD τ).loc main_v18_0) = (dat0 (V1 m ρ) c).arrAt 4 cfg0.N
      ∧ r.2.mem ((c.tc : Thread nD τ).loc main_v47) = (dat1 (V3 m ρ) c).arrAt 12 cfg1.N
      ∧ r.2.mem ((c.tc : Thread nD τ).loc main_v18_1) = (dat0 (V1 m ρ) c).arrAt 5 cfg0.N
      ∧ r.2.mem ((c.tc : Thread nD τ).loc main_v18_2) = (dat0 (V1 m ρ) c).arrAt 6 cfg0.N
      ∧ r.2.mem ((c.tc : Thread nD τ).loc main_v18_3) = (dat0 (V1 m ρ) c).arrAt 7 cfg0.N
      ∧ r.2.mem ((c.tc : Thread nD τ).loc main_v18_4) = (dat0 (V1 m ρ) c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v18_0 (by decide))).trans (W4_v18_0 m ρ c),
     (h c _ (mem_uc main_v47 (by decide))).trans (W4_v47 m ρ c),
     (h c _ (mem_uc main_v18_1 (by decide))).trans (W4_v18_1 m ρ c),
     (h c _ (mem_uc main_v18_2 (by decide))).trans (W4_v18_2 m ρ c),
     (h c _ (mem_uc main_v18_3 (by decide))).trans (W4_v18_3 m ρ c),
     (h c _ (mem_uc main_v18_4 (by decide))).trans (W4_v18_4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩)
    (run_all m ρ)

end Cert.KernelIdeal.KRun

end
-- ==== Proof.Spec.lean ====
/-
  The mathematics of the two programs, free of either program's text: each result array as a function of the
  gathered self rows `SF`, the gathered neighbour rows `NF`, the generator weights and the batch-norm parameters,
  over literal coordinates. The `k…` functions are what the two kernels and the host operations between them
  compute (a neighbour mean as a product with 1/32, the environment mean as (sum − column 0)·(1/31), the
  generator product split into the two 512-row halves of the weights, per-tile partial sums of the features and
  of their squares, the variance as E[x²] − (E x)², the last product split 512 + 1024); the `r…` functions are
  the reference's (quotients by 32, 31 and 8192, one 1024- and one 1536-long contraction, the variance as
  the mean of the squared deviations).
-/
import Idealize.ShloMosaic.PureOps.Ideal
import Idealize.ShloMosaic.Lib.ValueIdx

noncomputable section

open scoped BigOperators

namespace Cert.Spec

open Idealize.ShloMosaic Idealize.ShloMosaic.ValueIdx

/-! ## Coordinates -/

/-- Row `r` of tile `t` (32 tiles of 256 rows). -/
def rowOf (t : Fin 32) (r : Fin 256) : Fin 8192 := ⟨256 * t.val + r.val, by omega⟩
/-- Row `r` of block `t` (8 blocks of 1024 rows). -/
def rowOf8 (t : Fin 8) (r : Fin 1024) : Fin 8192 := ⟨1024 * t.val + r.val, by omega⟩
/-- The first 512 of 1024. -/
def lo (k : Fin 512) : Fin 1024 := ⟨k.val, by omega⟩
/-- The last 512 of 1024. -/
def hi (k : Fin 512) : Fin 1024 := ⟨512 + k.val, by omega⟩
/-- The first 512 of 1536. -/
def lo3 (k : Fin 512) : Fin 1536 := ⟨k.val, by omega⟩
/-- The last 1024 of 1536. -/
def hi3 (k : Fin 1024) : Fin 1536 := ⟨512 + k.val, by omega⟩
/-- Neighbour column `k + 1` (the columns after the self column). -/
def succ31 (k : Fin 31) : Fin 32 := ⟨k.val + 1, by omega⟩

/-- An array of rank 1, 2, 3 from its function of coordinates, and back. -/
def arr1 {a : Nat} (g : Fin a → EReal) : (⟨1, ![a]⟩ : Shape).Idx → EReal := fun i => g (i 0)
def arr2 {a b : Nat} (g : Fin a → Fin b → EReal) : (⟨2, ![a, b]⟩ : Shape).Idx → EReal := fun i => g (i 0) (i 1)
def arr3 {a b c : Nat} (g : Fin a → Fin b → Fin c → EReal) : (⟨3, ![a, b, c]⟩ : Shape).Idx → EReal :=
  fun i => g (i 0) (i 1) (i 2)
def cur1 {a : Nat} (X : (⟨1, ![a]⟩ : Shape).Idx → EReal) : Fin a → EReal := fun p => X (ix1 p)
def cur2 {a b : Nat} (X : (⟨2, ![a, b]⟩ : Shape).Idx → EReal) : Fin a → Fin b → EReal := fun p q => X (ix2 p q)
def cur3 {a b c : Nat} (X : (⟨3, ![a, b, c]⟩ : Shape).Idx → EReal) : Fin a → Fin b → Fin c → EReal :=
  fun p q r => X (ix3 p q r)

theorem arr2_ix2 {a b : Nat} (g : Fin a → Fin b → EReal) (p : Fin a) (q : Fin b) : arr2 g (ix2 p q) = g p q := rfl
theorem arr3_ix3 {a b c : Nat} (g : Fin a → Fin b → Fin c → EReal) (p : Fin a) (q : Fin b) (r : Fin c) :
    arr3 g (ix3 p q r) = g p q r := rfl
theorem arr1_ix1 {a : Nat} (g : Fin a → EReal) (p : Fin a) : arr1 g (ix1 p) = g p := rfl

/-- The batch-norm epsilon: one f32 word, the same in both programs, never evaluated. -/
def epsE : EReal := Ideal.ofBits .f32 0x3727C5AC#32

/-! ## What the kernels and the host operations between them compute -/

section Kernel
variable (SF : Fin 8192 → Fin 512 → EReal) (NF : Fin 8192 → Fin 32 → Fin 512 → EReal)
  (Wt Wb : Fin 512 → Fin 1024 → EReal)

/-- The neighbour mean: the sum of the 32 neighbour rows times 1/32. -/
def kAgg (b : Fin 8192) (f : Fin 512) : EReal := (∑ k : Fin 32, NF b k f) * ((1 / 32 : ℝ) : EReal)
/-- The environment mean: (the sum of the 32 rows − row 0) times 1/31. -/
def kEnv (b : Fin 8192) (f : Fin 512) : EReal := ((∑ k : Fin 32, NF b k f) - NF b 0 f) * ((1 / 31 : ℝ) : EReal)
/-- The generator's raw output: the self half against the top 512 weight rows plus the mean half against the bottom 512. -/
def kRaw (b : Fin 8192) (j : Fin 1024) : EReal :=
  (∑ k : Fin 512, SF b k * Wt k j) + (∑ k : Fin 512, kAgg NF b k * Wb k j)
def kGen (b : Fin 8192) (j : Fin 1024) : EReal := max (kRaw SF NF Wt Wb b j) 0
/-- The environment branch: only the bottom 512 weight rows contribute. -/
def kEnvRaw (b : Fin 8192) (j : Fin 1024) : EReal := ∑ k : Fin 512, kEnv NF b k * Wb k j
def kEnvGen (b : Fin 8192) (j : Fin 1024) : EReal := max (kEnvRaw NF Wb b j) 0
end Kernel

section Stats
variable (A : Fin 8192 → Fin 512 → EReal) (G : Fin 8192 → Fin 1024 → EReal)

/-- Tile `t`'s partial column sums of the features [A | G]. -/
def kPartSum (t : Fin 32) (c : Fin 1536) : EReal :=
  if h : c.val < 512 then ∑ r : Fin 256, A (rowOf t r) ⟨c.val, h⟩
  else ∑ r : Fin 256, G (rowOf t r) ⟨c.val - 512, by omega⟩
/-- Tile `t`'s partial column sums of the squared features. -/
def kPartSq (t : Fin 32) (c : Fin 1536) : EReal :=
  if h : c.val < 512 then ∑ r : Fin 256, A (rowOf t r) ⟨c.val, h⟩ * A (rowOf t r) ⟨c.val, h⟩
  else ∑ r : Fin 256, G (rowOf t r) ⟨c.val - 512, by omega⟩ * G (rowOf t r) ⟨c.val - 512, by omega⟩
end Stats

/-- The column mean from the 32 partial sums: (0 + their sum) times 1/8192. -/
def kMu (P : Fin 32 → Fin 1536 → EReal) (c : Fin 1536) : EReal :=
  (0 + ∑ t : Fin 32, P t c) * ((1 / 8192 : ℝ) : EReal)
/-- The column variance as E[x²] − (E x)². -/
def kVar (P Q : Fin 32 → Fin 1536 → EReal) (c : Fin 1536) : EReal :=
  (0 + ∑ t : Fin 32, Q t c) * ((1 / 8192 : ℝ) : EReal) - kMu P c * kMu P c

section Out
variable (A : Fin 8192 → Fin 512 → EReal) (G : Fin 8192 → Fin 1024 → EReal)
  (mu var gam bet : Fin 1536 → EReal) (W1 : Fin 1536 → Fin 1536 → EReal)

def kNormA (b : Fin 8192) (k : Fin 512) : EReal :=
  (A b k - mu (lo3 k)) * Ideal.rsqrt (var (lo3 k) + epsE) * gam (lo3 k) + bet (lo3 k)
def kNormG (b : Fin 8192) (k : Fin 1024) : EReal :=
  (G b k - mu (hi3 k)) * Ideal.rsqrt (var (hi3 k) + epsE) * gam (hi3 k) + bet (hi3 k)
/-- The last layer: the two normalised halves against the two row blocks of the weights, added, then relu. -/
def kOut (b : Fin 8192) (n : Fin 1536) : EReal :=
  max ((∑ k : Fin 512, kNormA A mu var gam bet b k * W1 (lo3 k) n)
    + (∑ k : Fin 1024, kNormG G mu var gam bet b k * W1 (hi3 k) n)) 0
end Out

/-! ## What the reference computes -/

section Reference
variable (SF : Fin 8192 → Fin 512 → EReal) (NF : Fin 8192 → Fin 32 → Fin 512 → EReal)
  (Wg : Fin 1024 → Fin 1024 → EReal)

def rAgg (b : Fin 8192) (f : Fin 512) : EReal := Ideal.div (0 + ∑ k : Fin 32, NF b k f) ((32 : ℝ) : EReal)
/-- Two 512-column arrays side by side. -/
def rCat (X Y : Fin 8192 → Fin 512 → EReal) (b : Fin 8192) (k : Fin 1024) : EReal :=
  if h : k.val < 512 then X b ⟨k.val, h⟩ else Y b ⟨k.val - 512, by omega⟩
def rDot (C : Fin 8192 → Fin 1024 → EReal) (b : Fin 8192) (j : Fin 1024) : EReal := ∑ k : Fin 1024, C b k * Wg k j
def rRaw (b : Fin 8192) (j : Fin 1024) : EReal := rDot Wg (rCat SF (rAgg NF)) b j
def rGen (b : Fin 8192) (j : Fin 1024) : EReal := max (rRaw SF NF Wg b j) 0
def rEnv (b : Fin 8192) (f : Fin 512) : EReal := Ideal.div (0 + ∑ k : Fin 31, NF b (succ31 k) f) ((31 : ℝ) : EReal)
def rEnvRaw (b : Fin 8192) (j : Fin 1024) : EReal := rDot Wg (rCat (fun _ _ => 0) (rEnv NF)) b j
def rEnvGen (b : Fin 8192) (j : Fin 1024) : EReal := max (rEnvRaw NF Wg b j) 0
end Reference

/-- The features [A | G], 512 + 1024 columns. -/
def rFeats (A : Fin 8192 → Fin 512 → EReal) (G : Fin 8192 → Fin 1024 → EReal) (b : Fin 8192) (c : Fin 1536) : EReal :=
  if h : c.val < 512 then A b ⟨c.val, h⟩ else G b ⟨c.val - 512, by omega⟩

section RefOut
variable (X : Fin 8192 → Fin 1536 → EReal) (gam bet : Fin 1536 → EReal) (W1 : Fin 1536 → Fin 1536 → EReal)

def rMu (c : Fin 1536) : EReal := Ideal.div (0 + ∑ b : Fin 8192, X b c) ((8192 : ℝ) : EReal)
/-- The biased variance: the mean of the squared deviations from the mean. -/
def rVar (c : Fin 1536) : EReal :=
  Ideal.div (0 + ∑ b : Fin 8192, (X b c - rMu X c) * (X b c - rMu X c)) ((8192 : ℝ) : EReal)
def rNorm (b : Fin 8192) (c : Fin 1536) : EReal :=
  (X b c - rMu X c) * Ideal.rsqrt (rVar X c + epsE) * gam c + bet c
def rOut (b : Fin 8192) (n : Fin 1536) : EReal := max (∑ c : Fin 1536, rNorm X gam bet b c * W1 c n) 0
end RefOut

end Cert.Spec

end
-- ==== Proof.KHost.lean ====
/-
  The kernel program's host operations read back: what each region's input arrays hold when the region is entered.

  Region 0 is entered after the first stretch of host operations: the self rows and the neighbour rows are the two
  gathers of the feature table (kept as opaque terms `selfF`, `neighF` of the program's own operations), and the two
  weight halves are rows 0..511 and 512..1023 of the generator's weights (rounding to bf16 is the identity on the
  extended reals). Region 1 is entered after the second stretch: its first two arrays are what region 0 left (the
  neighbour mean and the generator's output), the batch-norm scale and shift are the first 512 and last 1024 entries
  of the two parameter vectors, the mean is (0 + the sum of the 32 tiles' partial sums) · 2⁻¹³ and the variance
  (0 + the sum of the partial sums of squares) · 2⁻¹³ − mean², each cut the same way, and the two weight blocks are
  rows 0..511 and 512..1535 of the last layer's weights.
-/
import proofs.«116837_j75015898792523_2_alg».proof.Proof.Spec
import proofs.«116837_j75015898792523_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.Lib.IdealHost

set_option maxRecDepth 16384

noncomputable section

namespace Cert.KernelIdeal.KHost

open Idealize.ShloMosaic Idealize.ShloMosaic.ValueIdx Cert.KernelIdeal Cert.KernelIdeal.Gen Cert.Spec
open Idealize.ShloMosaic.StableHlo Idealize.ShloMosaic.TcCoe

variable (m : (ℓ : Loc nD τ sig) → Buf (Elt Ideal) ℓ) (ρ : Dev nD → PrngReg) (c : Dev nD)

/-! ## The two gathers, as terms of the program's own operations (kept opaque) -/

/-- The self rows: the table gathered at the node indices, a negative index wrapped by the table's length. -/
def selfF (T : (⟨S100000x512, .f32⟩ : BufTy).Contents (Elt Ideal)) (n : (⟨S8192, .i32⟩ : BufTy).Contents (Elt Ideal)) : (⟨S8192x512, .f32⟩ : BufTy).Contents (Elt Ideal) :=
  Host.gather gather_S100000x512_S8192x1_S8192x512_1_0_n_n_0_1_1512 T (broadcastInDim S8192x1 ![0] bcast_S8192_S8192x1_0 (select (cmpi .slt n (broadcastInDim S8192 ![] bcast_S_S8192 (constantI S_ 32 0#32))) (addi n (broadcastInDim S8192 ![] bcast_S_S8192 (constantI S_ 32 100000#32))) n))

/-- The neighbour rows: the table gathered at the 32 neighbour indices of each node, wrapped the same way. -/
def neighF (T : (⟨S100000x512, .f32⟩ : BufTy).Contents (Elt Ideal)) (n : (⟨S8192x32, .i32⟩ : BufTy).Contents (Elt Ideal)) : (⟨S8192x32x512, .f32⟩ : BufTy).Contents (Elt Ideal) :=
  Host.gather gather_S100000x512_S8192x32x1_S8192x32x512_2_0_n_n_0_2_1512 T (broadcastInDim S8192x32x1 ![0, 1] bcast_S8192x32_S8192x32x1_0_1 (select (cmpi .slt n (broadcastInDim S8192x32 ![] bcast_S_S8192x32 (constantI S_ 32 0#32))) (addi n (broadcastInDim S8192x32 ![] bcast_S_S8192x32 (constantI S_ 32 100000#32))) n))

/-! ## Region 0's entry contents -/

theorem V1_self : V1 m ρ c (Pipeline.arrRef spec0 0) = selfF (m ((c : Thread nD τ).loc main_arg0)) (m ((c : Thread nD τ).loc main_arg5)) := by
  show StableHlo.after hostOps0 (W0 m ρ c) (Proc.devRef .tc main_v6) = _
  after_results_simp
  rfl

theorem V1_neigh : V1 m ρ c (Pipeline.arrRef spec0 1) = neighF (m ((c : Thread nD τ).loc main_arg0)) (m ((c : Thread nD τ).loc main_arg6)) := by
  show StableHlo.after hostOps0 (W0 m ρ c) (Proc.devRef .tc main_v13) = _
  after_results_simp
  rfl

/-- Rows 0..511 of a [1024, 1024] array. -/
theorem slice_lo_read (g : S1024x1024.Idx → EReal) (k : Fin 512) (j : Fin 1024) :
    extractStridedSlice S512x1024 ![0, 0] g slices_S1024x1024_S512x1024_0_0 (ix2 k j) = g (ix2 (lo k) j) :=
  extractStridedSlice_apply _ _ _ _ _ (fun a => match a with
    | ⟨0, _⟩ => by show k.val = 0 + k.val; omega
    | ⟨1, _⟩ => by show j.val = 0 + j.val; omega)

/-- Rows 512..1023 of a [1024, 1024] array. -/
theorem slice_hi_read (g : S1024x1024.Idx → EReal) (k : Fin 512) (j : Fin 1024) :
    extractStridedSlice S512x1024 ![512, 0] g slices_S1024x1024_S512x1024_512_0 (ix2 k j) = g (ix2 (hi k) j) :=
  extractStridedSlice_apply _ _ _ _ _ (fun a => match a with
    | ⟨0, _⟩ => by show 512 + k.val = 512 + k.val; rfl
    | ⟨1, _⟩ => by show j.val = 0 + j.val; omega)

theorem V1_wtop : cur2 (V1 m ρ c (Pipeline.arrRef spec0 2) : S512x1024.Idx → EReal) = fun k j => cur2 (m ((c : Thread nD τ).loc main_arg1) : S1024x1024.Idx → EReal) (lo k) j := by
  have e : V1 m ρ c (Pipeline.arrRef spec0 2) = (truncf (F := Ideal) (φ := .f32) .bf16 (extractStridedSlice S512x1024 ![0, 0] (m ((c : Thread nD τ).loc main_arg1)) slices_S1024x1024_S512x1024_0_0) bitsLt_bf16_f32 : (⟨S512x1024, .bf16⟩ : BufTy).Contents (Elt Ideal)) := by
    show StableHlo.after hostOps0 (W0 m ρ c) (Proc.devRef .tc main_v15) = _
    after_results_simp <;> rfl
  rw [e]
  funext k j
  exact slice_lo_read _ k j

theorem V1_wbot : cur2 (V1 m ρ c (Pipeline.arrRef spec0 3) : S512x1024.Idx → EReal) = fun k j => cur2 (m ((c : Thread nD τ).loc main_arg1) : S1024x1024.Idx → EReal) (hi k) j := by
  have e : V1 m ρ c (Pipeline.arrRef spec0 3) = (truncf (F := Ideal) (φ := .f32) .bf16 (extractStridedSlice S512x1024 ![512, 0] (m ((c : Thread nD τ).loc main_arg1)) slices_S1024x1024_S512x1024_512_0) bitsLt_bf16_f32 : (⟨S512x1024, .bf16⟩ : BufTy).Contents (Elt Ideal)) := by
    show StableHlo.after hostOps0 (W0 m ρ c) (Proc.devRef .tc main_v17) = _
    after_results_simp <;> rfl
  rw [e]
  funext k j
  exact slice_hi_read _ k j

/-! ## Region 1's entry contents: the buffers the second stretch of host operations does not write -/

theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg2) := rfl

theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg3) := rfl

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg4) := rfl

/-- The partial sums and the partial sums of squares region 0 leaves, by tile and column. -/
def PS : Fin 32 → Fin 1536 → EReal := fun t cc => ((dat0 (V1 m ρ) c).arrAt 9 cfg0.N : S32x1x1536.Idx → EReal) (ix3 t 0 cc)
def PQ : Fin 32 → Fin 1536 → EReal := fun t cc => ((dat0 (V1 m ρ) c).arrAt 10 cfg0.N : S32x1x1536.Idx → EReal) (ix3 t 0 cc)

theorem V3_agg : V3 m ρ c (Pipeline.arrRef spec1 0) = (dat0 (V1 m ρ) c).arrAt 4 cfg0.N :=
  calc W3 m ρ c (Proc.devRef .tc main_v18_0)
    _ = W2 m ρ c (Proc.devRef .tc main_v18_0) := StableHlo.after_of_forall_not_mem (b := Proc.devRef .tc main_v18_0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = (dat0 (V1 m ρ) c).arrAt 4 cfg0.N := W2_arr m ρ c 4

theorem V3_gen : V3 m ρ c (Pipeline.arrRef spec1 1) = (dat0 (V1 m ρ) c).arrAt 5 cfg0.N :=
  calc W3 m ρ c (Proc.devRef .tc main_v18_1)
    _ = W2 m ρ c (Proc.devRef .tc main_v18_1) := StableHlo.after_of_forall_not_mem (b := Proc.devRef .tc main_v18_1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = (dat0 (V1 m ρ) c).arrAt 5 cfg0.N := W2_arr m ρ c 5

/-! ## Slices and reshapes read at an index -/

/-- The first 512 entries of a [1536] vector, as a [1, 512] row. -/
theorem vec_lo_read (g : S1536.Idx → EReal) (k : Fin 512) :
    shapeCast S1x512 (extractStridedSlice S512 ![0] g slices_S1536_S512_0) shapeCasts_S512_S1x512 (ix2 0 k) = cur1 g (lo3 k) := by
  refine (shapeCast_a_1a_apply _ _ 0 k).trans ?_
  exact extractStridedSlice_apply _ _ _ (ix1 k) (ix1 (lo3 k)) (fun a => match a with
    | ⟨0, _⟩ => by show k.val = 0 + k.val; omega)

/-- The last 1024 entries of a [1536] vector, as a [1, 1024] row. -/
theorem vec_hi_read (g : S1536.Idx → EReal) (k : Fin 1024) :
    shapeCast S1x1024 (extractStridedSlice S1024 ![512] g slices_S1536_S1024_512) shapeCasts_S1024_S1x1024 (ix2 0 k) = cur1 g (hi3 k) := by
  refine (shapeCast_a_1a_apply _ _ 0 k).trans ?_
  exact extractStridedSlice_apply _ _ _ (ix1 k) (ix1 (hi3 k)) (fun a => match a with
    | ⟨0, _⟩ => by show 512 + k.val = 512 + k.val; rfl)

/-- Columns 0..511 of a [1, 1536] row. -/
theorem row_lo_read (g : S1x1536.Idx → EReal) (k : Fin 512) :
    extractStridedSlice S1x512 ![0, 0] g slices_S1x1536_S1x512_0_0 (ix2 0 k) = g (ix2 0 (lo3 k)) :=
  extractStridedSlice_apply _ _ _ _ _ (fun a => match a with
    | ⟨0, _⟩ => by show 0 = 0 + 0; rfl
    | ⟨1, _⟩ => by show k.val = 0 + k.val; omega)

/-- Columns 512..1535 of a [1, 1536] row. -/
theorem row_hi_read (g : S1x1536.Idx → EReal) (k : Fin 1024) :
    extractStridedSlice S1x1024 ![0, 512] g slices_S1x1536_S1x1024_0_512 (ix2 0 k) = g (ix2 0 (hi3 k)) :=
  extractStridedSlice_apply _ _ _ _ _ (fun a => match a with
    | ⟨0, _⟩ => by show 0 = 0 + 0; rfl
    | ⟨1, _⟩ => by show 512 + k.val = 512 + k.val; rfl)

/-- Rows 0..511 of a [1536, 1536] array. -/
theorem w_lo_read (g : S1536x1536.Idx → EReal) (k : Fin 512) (n : Fin 1536) :
    extractStridedSlice S512x1536 ![0, 0] g slices_S1536x1536_S512x1536_0_0 (ix2 k n) = cur2 g (lo3 k) n :=
  extractStridedSlice_apply _ _ _ _ _ (fun a => match a with
    | ⟨0, _⟩ => by show k.val = 0 + k.val; omega
    | ⟨1, _⟩ => by show n.val = 0 + n.val; omega)

/-- Rows 512..1535 of a [1536, 1536] array. -/
theorem w_hi_read (g : S1536x1536.Idx → EReal) (k : Fin 1024) (n : Fin 1536) :
    extractStridedSlice S1024x1536 ![512, 0] g slices_S1536x1536_S1024x1536_512_0 (ix2 k n) = cur2 g (hi3 k) n :=
  extractStridedSlice_apply _ _ _ _ _ (fun a => match a with
    | ⟨0, _⟩ => by show 512 + k.val = 512 + k.val; rfl
    | ⟨1, _⟩ => by show n.val = 0 + n.val; omega)

/-! ## The statistics: the 32 partial sums added, the mean, the variance -/

/-- The word 0x39000000 is 2⁻¹³ = 1/8192. -/
theorem ofBits_inv8192 : Ideal.ofBits .f32 0x39000000#32 = (((1 : ℝ) / 8192 : ℝ) : EReal) := by
  simp [Ideal.ofBits, Ideal.ieee, -EReal.coe_mul]; norm_num

/-- The 32 tiles' partial sums, [32, 1, 1536], added over the tiles from the zero word. -/
def sumT (P : FVec Ideal S32x1x1536 .f32) : FVec Ideal S1536 .f32 :=
  Host.reduceAdd (shapeCast S32x1536 P shapeCasts_S32x1x1536_S32x1536) (constant (F := Ideal) S_ .f32 0x00000000#32) reducesTo_S32x1536_S1536_d0 h_S_

theorem sumT_apply (P : FVec Ideal S32x1x1536 .f32) (cc : Fin 1536) :
    sumT P (ix1 cc) = 0 + ∑ t : Fin 32, P (ix3 t 0 cc) := by
  have hR : S32x1536.Reduces [0] S1536 := by decide
  have h1 := Ideal.hostReduceAdd_single reducesTo_S32x1536_S1536_d0 hR (shapeCast S32x1536 P shapeCasts_S32x1x1536_S32x1536) (Ideal.ofBits .f32 0x00000000#32) (ix1 cc)
  refine h1.trans ?_
  rw [Ideal.ofBits_zero_f32]
  refine congrArg (fun z => (0 : EReal) + z) (Finset.sum_congr rfl fun t _ => ?_)
  exact shapeCast_apply P _ _ (ix3 t 0 cc) (by
    rw [Shape.rowMajor_val_three, Shape.rowMajor_val_two]
    show (t.val * 1 + 0) * 1536 + cc.val = t.val * 1536 + cc.val
    omega)

/-- The sums times 2⁻¹³. -/
def scaleT (X : FVec Ideal S1536 .f32) : FVec Ideal S1536 .f32 :=
  mulf X (broadcastInDim S1536 ![] bcast_S_S1536 (constant (F := Ideal) S_ .f32 0x39000000#32))

theorem scaleT_apply (X : FVec Ideal S1536 .f32) (cc : Fin 1536) :
    scaleT X (ix1 cc) = X (ix1 cc) * (((1 : ℝ) / 8192 : ℝ) : EReal) := by
  show X (ix1 cc) * broadcastInDim S1536 ![] bcast_S_S1536 (constant (F := Ideal) S_ .f32 0x39000000#32) (ix1 cc) = _
  refine congrArg (fun z => X (ix1 cc) * z) ?_
  exact (broadcastInDim_scalar_apply _ _ _).trans ofBits_inv8192

/-- The mean row, [1, 1536]. -/
def muT (P : FVec Ideal S32x1x1536 .f32) : FVec Ideal S1x1536 .f32 :=
  shapeCast S1x1536 (scaleT (sumT P)) shapeCasts_S1536_S1x1536

theorem muT_apply (P : FVec Ideal S32x1x1536 .f32) (cc : Fin 1536) :
    muT P (ix2 0 cc) = kMu (fun t cc => P (ix3 t 0 cc)) cc := by
  refine (shapeCast_a_1a_apply _ _ 0 cc).trans ?_
  rw [scaleT_apply, sumT_apply]
  rfl

/-- The variance row, [1, 1536]: the mean of the squares minus the squared mean. -/
def varT (P Q : FVec Ideal S32x1x1536 .f32) : FVec Ideal S1x1536 .f32 :=
  subf (broadcastInDim S1x1536 ![1] bcast_S1536_S1x1536_1 (scaleT (sumT Q))) (mulf (muT P) (muT P))

theorem varT_apply (P Q : FVec Ideal S32x1x1536 .f32) (cc : Fin 1536) :
    varT P Q (ix2 0 cc) = kVar (fun t cc => P (ix3 t 0 cc)) (fun t cc => Q (ix3 t 0 cc)) cc := by
  show broadcastInDim S1x1536 ![1] bcast_S1536_S1x1536_1 (scaleT (sumT Q)) (ix2 0 cc) - muT P (ix2 0 cc) * muT P (ix2 0 cc) = _
  rw [muT_apply]
  refine congrArg (fun z => z - _) ?_
  refine (broadcastInDim_apply _ _ _ (ix2 0 cc) (ix1 cc) (fun a => match a with
    | ⟨0, _⟩ => by
      show cc.val = if (1536 : ℕ) = 1 then 0 else cc.val
      exact (if_neg (by decide)).symm)).trans ?_
  rw [scaleT_apply, sumT_apply]

/-! ## Region 1's entry contents: what the second stretch of host operations writes -/

theorem W2_P : W2 m ρ c (Proc.devRef .tc main_v18_5) = (dat0 (V1 m ρ) c).arrAt 9 cfg0.N := W2_arr m ρ c 9
theorem W2_Q : W2 m ρ c (Proc.devRef .tc main_v18_6) = (dat0 (V1 m ρ) c).arrAt 10 cfg0.N := W2_arr m ρ c 10

theorem V3_gamA (k : Fin 512) : (V3 m ρ c (Pipeline.arrRef spec1 2) : S1x512.Idx → EReal) (ix2 0 k) = cur1 (m ((c : Thread nD τ).loc main_arg3) : S1536.Idx → EReal) (lo3 k) := by
  have e : V3 m ρ c (Pipeline.arrRef spec1 2) = (shapeCast S1x512 (extractStridedSlice S512 ![0] (W2 m ρ c (Proc.devRef .tc main_arg3) : S1536.Idx → EReal) slices_S1536_S512_0) shapeCasts_S512_S1x512 : (⟨S1x512, .f32⟩ : BufTy).Contents (Elt Ideal)) := by
    show StableHlo.after hostOps1 (W2 m ρ c) (Proc.devRef .tc main_v32) = _
    after_results_simp <;> rfl
  rw [e, W2_arg3]
  exact vec_lo_read _ k

theorem V3_betA (k : Fin 512) : (V3 m ρ c (Pipeline.arrRef spec1 3) : S1x512.Idx → EReal) (ix2 0 k) = cur1 (m ((c : Thread nD τ).loc main_arg4) : S1536.Idx → EReal) (lo3 k) := by
  have e : V3 m ρ c (Pipeline.arrRef spec1 3) = (shapeCast S1x512 (extractStridedSlice S512 ![0] (W2 m ρ c (Proc.devRef .tc main_arg4) : S1536.Idx → EReal) slices_S1536_S512_0) shapeCasts_S512_S1x512 : (⟨S1x512, .f32⟩ : BufTy).Contents (Elt Ideal)) := by
    show StableHlo.after hostOps1 (W2 m ρ c) (Proc.devRef .tc main_v36) = _
    after_results_simp <;> rfl
  rw [e, W2_arg4]
  exact vec_lo_read _ k

theorem V3_gamG (k : Fin 1024) : (V3 m ρ c (Pipeline.arrRef spec1 6) : S1x1024.Idx → EReal) (ix2 0 k) = cur1 (m ((c : Thread nD τ).loc main_arg3) : S1536.Idx → EReal) (hi3 k) := by
  have e : V3 m ρ c (Pipeline.arrRef spec1 6) = (shapeCast S1x1024 (extractStridedSlice S1024 ![512] (W2 m ρ c (Proc.devRef .tc main_arg3) : S1536.Idx → EReal) slices_S1536_S1024_512) shapeCasts_S1024_S1x1024 : (⟨S1x1024, .f32⟩ : BufTy).Contents (Elt Ideal)) := by
    show StableHlo.after hostOps1 (W2 m ρ c) (Proc.devRef .tc main_v34) = _
    after_results_simp <;> rfl
  rw [e, W2_arg3]
  exact vec_hi_read _ k

theorem V3_betG (k : Fin 1024) : (V3 m ρ c (Pipeline.arrRef spec1 7) : S1x1024.Idx → EReal) (ix2 0 k) = cur1 (m ((c : Thread nD τ).loc main_arg4) : S1536.Idx → EReal) (hi3 k) := by
  have e : V3 m ρ c (Pipeline.arrRef spec1 7) = (shapeCast S1x1024 (extractStridedSlice S1024 ![512] (W2 m ρ c (Proc.devRef .tc main_arg4) : S1536.Idx → EReal) slices_S1536_S1024_512) shapeCasts_S1024_S1x1024 : (⟨S1x1024, .f32⟩ : BufTy).Contents (Elt Ideal)) := by
    show StableHlo.after hostOps1 (W2 m ρ c) (Proc.devRef .tc main_v38) = _
    after_results_simp <;> rfl
  rw [e, W2_arg4]
  exact vec_hi_read _ k

theorem V3_wtop (k : Fin 512) (n : Fin 1536) : (V3 m ρ c (Pipeline.arrRef spec1 10) : S512x1536.Idx → EReal) (ix2 k n) = cur2 (m ((c : Thread nD τ).loc main_arg2) : S1536x1536.Idx → EReal) (lo3 k) n := by
  have e : V3 m ρ c (Pipeline.arrRef spec1 10) = (truncf (F := Ideal) (φ := .f32) .bf16 (extractStridedSlice S512x1536 ![0, 0] (W2 m ρ c (Proc.devRef .tc main_arg2) : S1536x1536.Idx → EReal) slices_S1536x1536_S512x1536_0_0) bitsLt_bf16_f32 : (⟨S512x1536, .bf16⟩ : BufTy).Contents (Elt Ideal)) := by
    show StableHlo.after hostOps1 (W2 m ρ c) (Proc.devRef .tc main_v44) = _
    after_results_simp <;> rfl
  rw [e, W2_arg2]
  exact w_lo_read _ k n

theorem V3_wbot (k : Fin 1024) (n : Fin 1536) : (V3 m ρ c (Pipeline.arrRef spec1 11) : S1024x1536.Idx → EReal) (ix2 k n) = cur2 (m ((c : Thread nD τ).loc main_arg2) : S1536x1536.Idx → EReal) (hi3 k) n := by
  have e : V3 m ρ c (Pipeline.arrRef spec1 11) = (truncf (F := Ideal) (φ := .f32) .bf16 (extractStridedSlice S1024x1536 ![512, 0] (W2 m ρ c (Proc.devRef .tc main_arg2) : S1536x1536.Idx → EReal) slices_S1536x1536_S1024x1536_512_0) bitsLt_bf16_f32 : (⟨S1024x1536, .bf16⟩ : BufTy).Contents (Elt Ideal)) := by
    show StableHlo.after hostOps1 (W2 m ρ c) (Proc.devRef .tc main_v46) = _
    after_results_simp <;> rfl
  rw [e, W2_arg2]
  exact w_hi_read _ k n

theorem V3_muA (k : Fin 512) : (V3 m ρ c (Pipeline.arrRef spec1 4) : S1x512.Idx → EReal) (ix2 0 k) = kMu (PS m ρ c) (lo3 k) := by
  have e : V3 m ρ c (Pipeline.arrRef spec1 4) = (extractStridedSlice S1x512 ![0, 0] (muT (W2 m ρ c (Proc.devRef .tc main_v18_5))) slices_S1x1536_S1x512_0_0 : (⟨S1x512, .f32⟩ : BufTy).Contents (Elt Ideal)) := by
    show StableHlo.after hostOps1 (W2 m ρ c) (Proc.devRef .tc main_v39) = _
    after_results_simp <;> rfl
  rw [e, W2_P]
  exact (row_lo_read _ k).trans (muT_apply _ _)

theorem V3_muG (k : Fin 1024) : (V3 m ρ c (Pipeline.arrRef spec1 8) : S1x1024.Idx → EReal) (ix2 0 k) = kMu (PS m ρ c) (hi3 k) := by
  have e : V3 m ρ c (Pipeline.arrRef spec1 8) = (extractStridedSlice S1x1024 ![0, 512] (muT (W2 m ρ c (Proc.devRef .tc main_v18_5))) slices_S1x1536_S1x1024_0_512 : (⟨S1x1024, .f32⟩ : BufTy).Contents (Elt Ideal)) := by
    show StableHlo.after hostOps1 (W2 m ρ c) (Proc.devRef .tc main_v40) = _
    after_results_simp <;> rfl
  rw [e, W2_P]
  exact (row_hi_read _ k).trans (muT_apply _ _)

theorem V3_varA (k : Fin 512) : (V3 m ρ c (Pipeline.arrRef spec1 5) : S1x512.Idx → EReal) (ix2 0 k) = kVar (PS m ρ c) (PQ m ρ c) (lo3 k) := by
  have e : V3 m ρ c (Pipeline.arrRef spec1 5) = (extractStridedSlice S1x512 ![0, 0] (varT (W2 m ρ c (Proc.devRef .tc main_v18_5)) (W2 m ρ c (Proc.devRef .tc main_v18_6))) slices_S1x1536_S1x512_0_0 : (⟨S1x512, .f32⟩ : BufTy).Contents (Elt Ideal)) := by
    show StableHlo.after hostOps1 (W2 m ρ c) (Proc.devRef .tc main_v41) = _
    after_results_simp <;> rfl
  rw [e, W2_P, W2_Q]
  exact (row_lo_read _ k).trans (varT_apply _ _ _)

theorem V3_varG (k : Fin 1024) : (V3 m ρ c (Pipeline.arrRef spec1 9) : S1x1024.Idx → EReal) (ix2 0 k) = kVar (PS m ρ c) (PQ m ρ c) (hi3 k) := by
  have e : V3 m ρ c (Pipeline.arrRef spec1 9) = (extractStridedSlice S1x1024 ![0, 512] (varT (W2 m ρ c (Proc.devRef .tc main_v18_5)) (W2 m ρ c (Proc.devRef .tc main_v18_6))) slices_S1x1536_S1x1024_0_512 : (⟨S1x1024, .f32⟩ : BufTy).Contents (Elt Ideal)) := by
    show StableHlo.after hostOps1 (W2 m ρ c) (Proc.devRef .tc main_v42) = _
    after_results_simp <;> rfl
  rw [e, W2_P, W2_Q]
  exact (row_hi_read _ k).trans (varT_apply _ _ _)

end Cert.KernelIdeal.KHost
end
-- ==== Proof.K0Pay.lean ====
/-
  The first kernel's arithmetic read at an index: each pure value the first kernel stores, as an explicit
  function of the literal coordinates of the values it loads — the neighbour mean as the sum over the 32
  neighbour rows times 1/32, the two generator products as 512-term sums, the environment mean as
  (sum − row 0) · (1/31), the rectified values as a maximum with 0, and the tile's column sums of the
  features and of their squares over the 256 rows of the tile.
-/
import proofs.«116837_j75015898792523_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.K0Pay

open Idealize.ShloMosaic Idealize.ShloMosaic.ValueIdx Cert.KernelIdeal Cert.KernelIdeal.Gen

variable (x1 : Vec Ideal S256x32x512 .f32) (x0 : Vec Ideal S256x512 .f32) (x2 x3 : Vec Ideal S512x1024 .bf16)

/-- The f32 word of 2⁻⁵ denotes the real 1/32. -/
theorem ofBits_inv32 : Ideal.ofBits .f32 0x3D000000#32 = ((1 / 32 : ℝ) : EReal) := by
  simp [Ideal.ofBits, Ideal.ieee, -EReal.coe_mul]; norm_num

/-- The sum over the 32 neighbour rows. -/
theorem pay4_apply (p : Fin 256) (q : Fin 512) :
    k0_pay4 (F := Ideal) x1 (ix2 p q) = ∑ k : Fin 32, x1 (ix3 p k q) := by
  unfold k0_pay4 k0_pay3
  rw [shapeCast_self]
  refine (Ideal.multiReduction_add_single (φ := .f32) x1 0x00000000#32 reduces_S256x32x512_S256x512 (.inl rfl) rfl (ix2 p q)).trans ?_
  refine Finset.sum_congr rfl fun k _ => congrArg x1 (funext fun c => ?_)
  match c with
  | ⟨0, _⟩ => exact Fin.ext rfl
  | ⟨1, _⟩ => exact Fin.ext rfl
  | ⟨2, _⟩ => exact Fin.ext rfl

/-- the neighbour mean -/
theorem pay5_apply (p : Fin 256) (q : Fin 512) :
    k0_pay5 (F := Ideal) x1 (ix2 p q) = (∑ k : Fin 32, x1 (ix3 p k q)) * ((1 / 32 : ℝ) : EReal) := by
  unfold k0_pay5
  rw [mulf_apply, broadcast_apply, pay4_apply]
  exact congrArg _ ofBits_inv32

/-- The dimension numbers of the three products: rows × contraction times contraction × columns. -/
abbrev DD : DotDims S256x512 S512x1024 S256x1024 := dot_S256x512_S512x1024_S256x1024_1_0_0_1_n_n

theorem lhs_0 (j : S256x1024.Idx) (k : DD.contr.Idx) : (DD.lhsIdx j k 0 : ℕ) = j 0 := by
  simp [DotDims.lhsIdx, DD, dot_S256x512_S512x1024_S256x1024_1_0_0_1_n_n]; rfl
theorem rhs_1 (j : S256x1024.Idx) (k : DD.contr.Idx) : (DD.rhsIdx j k 1 : ℕ) = j 1 := by
  simp [DotDims.rhsIdx, DD, dot_S256x512_S512x1024_S256x1024_1_0_0_1_n_n]; rfl

/-- A product into the zero accumulator, read at (p, j): the 512-term sum of the operands' products. -/
theorem matmul_zero_apply (A : FVec Ideal S256x512 .bf16) (B : FVec Ideal S512x1024 .bf16) (p : Fin 256) (j : Fin 1024) :
    matmul DD none A B (constant (F := Ideal) S256x1024 .f32 0x00000000#32) (ix2 p j)
      = ∑ k : Fin 512, A (ix2 p k) * B (ix2 k j) := by
  refine (Ideal.matmul_constant_zero_apply DD none A B (ix2 p j)).trans ?_
  rw [← Equiv.sum_comp (contrEquiv1 DD 512 rfl rfl).symm]
  refine Finset.sum_congr rfl fun k _ => ?_
  have hl : DD.lhsIdx (ix2 p j) ((contrEquiv1 DD 512 rfl rfl).symm k) = ix2 p k := by
    funext a
    match a with
    | ⟨0, _⟩ => exact Fin.ext (lhs_0 _ _)
    | ⟨1, _⟩ => exact Fin.ext ((DD.lhsIdx_val_of_single (cl := 1) rfl _ _).trans (contrEquiv1_symm_val DD 512 rfl rfl k))
  have hr : DD.rhsIdx (ix2 p j) ((contrEquiv1 DD 512 rfl rfl).symm k) = ix2 k j := by
    funext a
    match a with
    | ⟨0, _⟩ => exact Fin.ext ((DD.rhsIdx_val_of_single (cr := 0) rfl _ _).trans (contrEquiv1_symm_val DD 512 rfl rfl k))
    | ⟨1, _⟩ => exact Fin.ext (rhs_1 _ _)
  rw [hl, hr]

theorem pay7_apply (p : Fin 256) (j : Fin 1024) :
    k0_pay7 (F := Ideal) x1 x0 x2 x3 (ix2 p j)
      = (∑ k : Fin 512, x0 (ix2 p k) * x2 (ix2 k j))
        + (∑ k : Fin 512, ((∑ n : Fin 32, x1 (ix3 p n k)) * ((1 / 32 : ℝ) : EReal)) * x3 (ix2 k j)) := by
  unfold k0_pay7 k0_pay6
  refine (addf_apply _ _ _).trans ?_
  refine congrArg₂ (· + ·) ?_ ?_
  · refine (matmul_zero_apply _ _ p j).trans ?_
    refine Finset.sum_congr rfl fun k _ => ?_
    rw [truncf_apply, shapeCast_self, shapeCast_self]
  · refine (matmul_zero_apply _ _ p j).trans ?_
    refine Finset.sum_congr rfl fun k _ => ?_
    rw [truncf_apply, pay5_apply, shapeCast_self]

theorem pay8_apply (p : Fin 256) (j : Fin 1024) :
    k0_pay8 (F := Ideal) x1 x0 x2 x3 (ix2 p j) = max (k0_pay7 (F := Ideal) x1 x0 x2 x3 (ix2 p j)) 0 := by
  unfold k0_pay8
  rw [maximumf_apply, broadcast_apply]
  exact congrArg _ Ideal.ofBits_zero_f32

/-- The named reciprocal denotes the real 1/31. -/
theorem inv_31 : Named.named (F := Ideal) Cert.KernelIdeal.κ "inv_31" (φ := .f32) 0x3D042108#32 = ((1 / 31 : ℝ) : EReal) :=
  IdealRules.named_const.ideal_named_scalar _ _ _ _ rfl

/-- Row 0 of the 32 neighbour rows, cut out and viewed as a 256 × 512 array. -/
theorem row0_apply (p : Fin 256) (k : Fin 512) :
    shapeCast S256x512 (extractStridedSlice S256x1x512 ![0, 0, 0] (k0_pay3 (F := Ideal) x1) slices_S256x32x512_o0_0_0_S256x1x512)
        shapeCasts_S256x1x512_S256x512 (ix2 p k) = x1 (ix3 p 0 k) := by
  refine (shapeCast_apply _ _ (ix2 p k) (ix3 p (0 : Fin 1) k) (by
    rw [Shape.rowMajor_val_three, Shape.rowMajor_val_two]
    show (p.val * 1 + 0) * 512 + k.val = p.val * 512 + k.val
    omega)).trans ?_
  refine (slice3_axis1_apply 0 _ _ p (0 : Fin 1) k (0 : Fin 32) rfl).trans ?_
  unfold k0_pay3
  rw [shapeCast_self]

theorem pay9_apply (p : Fin 256) (j : Fin 1024) :
    k0_pay9 (F := Ideal) x1 x3 (ix2 p j)
      = ∑ k : Fin 512, (((∑ n : Fin 32, x1 (ix3 p n k)) - x1 (ix3 p 0 k)) * ((1 / 31 : ℝ) : EReal)) * x3 (ix2 k j) := by
  unfold k0_pay9 k0_pay6
  refine (matmul_zero_apply _ _ p j).trans ?_
  refine Finset.sum_congr rfl fun k _ => ?_
  rw [truncf_apply, mulf_apply, subf_apply, broadcast_apply, pay4_apply, row0_apply, shapeCast_self, inv_31]

theorem pay10_apply (p : Fin 256) (j : Fin 1024) :
    k0_pay10 (F := Ideal) x1 x3 (ix2 p j) = max (k0_pay9 (F := Ideal) x1 x3 (ix2 p j)) 0 := by
  unfold k0_pay10
  rw [maximumf_apply, broadcast_apply]
  exact congrArg _ Ideal.ofBits_zero_f32

/-- The column sums of a 256 × 512 array: the lane reduction over the rows read at column q. -/
theorem colsum512_apply (v : FVec Ideal S256x512 .f32) (q : Fin 512) :
    multiReduction (F := Ideal) .add [0] S512 v 0x00000000#32 reduces_S256x512_S512 (.inl rfl) rfl (ix1 q)
      = ∑ r : Fin 256, v (ix2 r q) := by
  refine (Ideal.multiReduction_add_single (φ := .f32) v 0x00000000#32 reduces_S256x512_S512 (.inl rfl) rfl (ix1 q)).trans ?_
  refine Finset.sum_congr rfl fun r _ => congrArg v (funext fun c => ?_)
  match c with
  | ⟨0, _⟩ => exact Fin.ext rfl
  | ⟨1, _⟩ => exact Fin.ext rfl

/-- The column sums of a 256 × 1024 array. -/
theorem colsum1024_apply (v : FVec Ideal S256x1024 .f32) (q : Fin 1024) :
    multiReduction (F := Ideal) .add [0] S1024 v 0x00000000#32 reduces_S256x1024_S1024 (.inl rfl) rfl (ix1 q)
      = ∑ r : Fin 256, v (ix2 r q) := by
  refine (Ideal.multiReduction_add_single (φ := .f32) v 0x00000000#32 reduces_S256x1024_S1024 (.inl rfl) rfl (ix1 q)).trans ?_
  refine Finset.sum_congr rfl fun r _ => congrArg v (funext fun c => ?_)
  match c with
  | ⟨0, _⟩ => exact Fin.ext rfl
  | ⟨1, _⟩ => exact Fin.ext rfl

/-- A 512-vector and a 1024-vector laid side by side as one 1 × 1 × 1536 block: entry c is the first vector's
    entry c below 512 and the second's entry c − 512 from there on. -/
theorem cat_apply (a : FVec Ideal S512 .f32) (b : FVec Ideal S1024 .f32) (c : Fin 1536) :
    shapeCast S1x1x1536
        (concatenate S1x1536 1
          [⟨S1x512, shapeCast S1x512 a shapeCasts_S512_S1x512⟩, ⟨S1x1024, shapeCast S1x1024 b shapeCasts_S1024_S1x1024⟩]
          concatenates_S1x512_S1x1024_S1x1536_d1)
        shapeCasts_S1x1536_S1x1x1536 (ix3 (0 : Fin 1) (0 : Fin 1) c)
      = if h : c.val < 512 then a (ix1 ⟨c.val, h⟩) else b (ix1 ⟨c.val - 512, by omega⟩) := by
  refine (shapeCast_ab_1ab_apply _ _ (0 : Fin 1) (0 : Fin 1) c).trans ?_
  by_cases h : c.val < 512
  · rw [dif_pos h]
    refine (concatenate_pair_apply_left (t := S1x1536) (s₁ := S1x512) (s₂ := S1x1024) (1 : Fin 2) _ _ _ _ rfl
      (ix2 (0 : Fin 1) (⟨c.val, h⟩ : Fin 512)) (by
        intro d
        match d with
        | ⟨0, _⟩ => rfl
        | ⟨1, _⟩ => rfl)).trans ?_
    exact shapeCast_a_1a_apply _ _ 0 _
  · rw [dif_neg h]
    refine (concatenate_pair_apply_right (t := S1x1536) (s₁ := S1x512) (s₂ := S1x1024) (1 : Fin 2) _ _ _ _ rfl rfl
      (ix2 (0 : Fin 1) (⟨c.val - 512, by omega⟩ : Fin 1024)) (by
        intro d hd
        match d with
        | ⟨0, _⟩ => rfl
        | ⟨1, _⟩ => exact absurd rfl hd) (by
        show c.val - 512 + 512 = c.val
        omega)).trans ?_
    exact shapeCast_a_1a_apply _ _ 0 _

/-- the tile's column sums of [v8 | v23] (a 1×1×1536 block; ix3 0 0 c is its index) -/
theorem pay1_apply (v8 : FVec Ideal S256x512 .f32) (v23 : FVec Ideal S256x1024 .f32) (c : Fin 1536) :
    k0_pay1 (F := Ideal) v8 v23 (ix3 0 0 c)
      = if h : c.val < 512 then ∑ r : Fin 256, v8 (ix2 r ⟨c.val, h⟩)
        else ∑ r : Fin 256, v23 (ix2 r ⟨c.val - 512, by omega⟩) := by
  unfold k0_pay1
  refine (cat_apply _ _ c).trans ?_
  by_cases h : c.val < 512
  · rw [dif_pos h, dif_pos h]
    exact colsum512_apply v8 _
  · rw [dif_neg h, dif_neg h]
    exact colsum1024_apply v23 _

/-- the tile's column sums of the squares of [v8 | v23] -/
theorem pay2_apply (v8 : FVec Ideal S256x512 .f32) (v23 : FVec Ideal S256x1024 .f32) (c : Fin 1536) :
    k0_pay2 (F := Ideal) v8 v23 (ix3 0 0 c)
      = if h : c.val < 512 then ∑ r : Fin 256, v8 (ix2 r ⟨c.val, h⟩) * v8 (ix2 r ⟨c.val, h⟩)
        else ∑ r : Fin 256, v23 (ix2 r ⟨c.val - 512, by omega⟩) * v23 (ix2 r ⟨c.val - 512, by omega⟩) := by
  unfold k0_pay2
  refine (cat_apply _ _ c).trans ?_
  by_cases h : c.val < 512
  · rw [dif_pos h, dif_pos h]
    exact colsum512_apply (mulf v8 v8) _
  · rw [dif_neg h, dif_neg h]
    exact colsum1024_apply (mulf v23 v23) _

end Cert.KernelIdeal.K0Pay
-- ==== Proof.K0Arr.lean ====
/-
  From blocks to whole arrays, first kernel region, the five row-blocked results: after the 32 grid points the
  neighbour-mean array, the generator's output and raw output and the environment branch's output and raw output
  are each ONE function of the four arrays the region reads (self rows, neighbour rows, the two weight halves),
  index by index. Per grid point t: the input blocks are rows 256·t … 256·t + 255 of the row arrays and the whole
  of each weight half; the stored payload read at a coordinate is that function at row 256·t + p; and the 32 row
  blocks tile each result array (row r lies in the block of point r / 256).
-/
import proofs.«116837_j75015898792523_2_alg».proof.Proof.K0Pay
import proofs.«116837_j75015898792523_2_alg».proof.Proof.Spec
import proofs.«116837_j75015898792523_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.K0Arr

open Cert.Spec Cert.KernelIdeal Cert.KernelIdeal.Gen

variable (V : (c : Dev nD) → (b : Ref sig .tc) → Buf (Elt Ideal) ((c : Thread nD τ).loc b)) (c : Dev nD)

/-- The gathered self rows, the gathered neighbour rows and the two weight halves as the region finds them,
    as functions of coordinates. -/
abbrev SFa : Fin 8192 → Fin 512 → EReal := cur2 (V c (Pipeline.arrRef spec0 0) : S8192x512.Idx → EReal)
abbrev NFa : Fin 8192 → Fin 32 → Fin 512 → EReal := cur3 (V c (Pipeline.arrRef spec0 1) : S8192x32x512.Idx → EReal)
abbrev Wta : Fin 512 → Fin 1024 → EReal := cur2 (V c (Pipeline.arrRef spec0 2) : S512x1024.Idx → EReal)
abbrev Wba : Fin 512 → Fin 1024 → EReal := cur2 (V c (Pipeline.arrRef spec0 3) : S512x1024.Idx → EReal)

/-- The tile a grid point works on: the grid is the 32 tiles in order. -/
def tile (t : Fin cfg0.N) : Fin 32 := ⟨t.val, lt_of_lt_of_eq t.isLt N_0⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every row-blocked window is at block (t, 0[, 0]) at point t,
    the two weight windows at block (0, 0). -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-! ## The input blocks, read at coordinates -/

/-- Point t's block of the self rows is rows 256·t … 256·t + 255. -/
theorem blk0_apply (t : Fin cfg0.N) (p : Fin 256) (q : Fin 512) :
    (Gen.iblk0 V c 0 t : S256x512.Idx → EReal) (ix2 p q) = SFa V c (rowOf (tile t) p) q := by
  obtain ⟨⟨e0, e1⟩, -⟩ := idx_facts t
  unfold Gen.iblk0
  rw [View.read_apply]
  show V c (Pipeline.arrRef spec0 0) _ = V c (Pipeline.arrRef spec0 0) _
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 512 + 1 * q.val = q.val; omega

/-- Point t's block of the neighbour rows is rows 256·t … 256·t + 255, every neighbour, every feature. -/
theorem blk1_apply (t : Fin cfg0.N) (p : Fin 256) (k : Fin 32) (q : Fin 512) :
    (Gen.iblk0 V c 1 t : S256x32x512.Idx → EReal) (ix3 p k q) = NFa V c (rowOf (tile t) p) k q := by
  obtain ⟨-, ⟨e0, e1, e2⟩, -⟩ := idx_facts t
  unfold Gen.iblk0
  rw [View.read_apply]
  show V c (Pipeline.arrRef spec0 1) _ = V c (Pipeline.arrRef spec0 1) _
  refine congrArg _ ?_
  funext a; apply Fin.ext
  match a with
  | ⟨0, _⟩ => show win0_1.index t (0 : Fin 3) * 256 + 1 * p.val = 256 * t.val + p.val; omega
  | ⟨1, _⟩ => show win0_1.index t (1 : Fin 3) * 32 + 1 * k.val = k.val; omega
  | ⟨2, _⟩ => show win0_1.index t (2 : Fin 3) * 512 + 1 * q.val = q.val; omega

/-- Every point's block of the top weight half is the whole half. -/
theorem blk2_apply (t : Fin cfg0.N) (k : Fin 512) (j : Fin 1024) :
    (Gen.iblk0 V c 2 t : S512x1024.Idx → EReal) (ix2 k j) = Wta V c k j := by
  obtain ⟨-, -, ⟨e0, e1⟩, -⟩ := idx_facts t
  unfold Gen.iblk0
  rw [View.read_apply]
  show V c (Pipeline.arrRef spec0 2) _ = V c (Pipeline.arrRef spec0 2) _
  refine congrArg _ ?_
  funext a; apply Fin.ext
  match a with
  | ⟨0, _⟩ => show win0_2.index t (0 : Fin 2) * 512 + 1 * k.val = k.val; omega
  | ⟨1, _⟩ => show win0_2.index t (1 : Fin 2) * 1024 + 1 * j.val = j.val; omega

/-- Every point's block of the bottom weight half is the whole half. -/
theorem blk3_apply (t : Fin cfg0.N) (k : Fin 512) (j : Fin 1024) :
    (Gen.iblk0 V c 3 t : S512x1024.Idx → EReal) (ix2 k j) = Wba V c k j := by
  obtain ⟨-, -, -, ⟨e0, e1⟩, -⟩ := idx_facts t
  unfold Gen.iblk0
  rw [View.read_apply]
  show V c (Pipeline.arrRef spec0 3) _ = V c (Pipeline.arrRef spec0 3) _
  refine congrArg _ ?_
  funext a; apply Fin.ext
  match a with
  | ⟨0, _⟩ => show win0_3.index t (0 : Fin 2) * 512 + 1 * k.val = k.val; omega
  | ⟨1, _⟩ => show win0_3.index t (1 : Fin 2) * 1024 + 1 * j.val = j.val; omega

/-! ## What one grid point computes, over any blocks that are the arrays' rows of tile s -/

section Point
variable (x1 : Vec Ideal S256x32x512 .f32) (x0 : Vec Ideal S256x512 .f32) (x2 x3 : Vec Ideal S512x1024 .bf16)
  (SF : Fin 8192 → Fin 512 → EReal) (NF : Fin 8192 → Fin 32 → Fin 512 → EReal) (Wt Wb : Fin 512 → Fin 1024 → EReal)
  (s : Fin 32)
  (h0 : ∀ (p : Fin 256) (q : Fin 512), x0 (ix2 p q) = SF (rowOf s p) q)
  (h1 : ∀ (p : Fin 256) (k : Fin 32) (q : Fin 512), x1 (ix3 p k q) = NF (rowOf s p) k q)
  (h2 : ∀ (k : Fin 512) (j : Fin 1024), x2 (ix2 k j) = Wt k j)
  (h3 : ∀ (k : Fin 512) (j : Fin 1024), x3 (ix2 k j) = Wb k j)

include h1 in
/-- The neighbour mean of the tile's row p. -/
theorem agg_pt (p : Fin 256) (q : Fin 512) : k0_pay5 (F := Ideal) x1 (ix2 p q) = kAgg NF (rowOf s p) q := by
  refine (K0Pay.pay5_apply x1 p q).trans ?_
  unfold kAgg
  simp only [h1]

include h0 h1 h2 h3 in
/-- The generator's raw output at the tile's row p. -/
theorem raw_pt (p : Fin 256) (j : Fin 1024) :
    k0_pay7 (F := Ideal) x1 x0 x2 x3 (ix2 p j) = kRaw SF NF Wt Wb (rowOf s p) j := by
  refine (K0Pay.pay7_apply x1 x0 x2 x3 p j).trans ?_
  unfold kRaw kAgg
  simp only [h0, h1, h2, h3]

include h0 h1 h2 h3 in
theorem gen_pt (p : Fin 256) (j : Fin 1024) :
    k0_pay8 (F := Ideal) x1 x0 x2 x3 (ix2 p j) = kGen SF NF Wt Wb (rowOf s p) j := by
  refine (K0Pay.pay8_apply x1 x0 x2 x3 p j).trans ?_
  unfold kGen
  exact congrArg (fun z : EReal => max z 0) (raw_pt x1 x0 x2 x3 SF NF Wt Wb s h0 h1 h2 h3 p j)

include h1 h3 in
/-- The environment branch's raw output at the tile's row p. -/
theorem envraw_pt (p : Fin 256) (j : Fin 1024) :
    k0_pay9 (F := Ideal) x1 x3 (ix2 p j) = kEnvRaw NF Wb (rowOf s p) j := by
  refine (K0Pay.pay9_apply x1 x3 p j).trans ?_
  unfold kEnvRaw kEnv
  simp only [h1, h3]

include h1 h3 in
theorem envgen_pt (p : Fin 256) (j : Fin 1024) :
    k0_pay10 (F := Ideal) x1 x3 (ix2 p j) = kEnvGen NF Wb (rowOf s p) j := by
  refine (K0Pay.pay10_apply x1 x3 p j).trans ?_
  unfold kEnvGen
  exact congrArg (fun z : EReal => max z 0) (envraw_pt x1 x3 NF Wb s h1 h3 p j)

end Point

/-! ## Window 4: the neighbour mean -/

/-- Point t's block of window 4 is rows 256·t … 256·t + 255, every column. -/
theorem emb4 (t : Fin cfg0.N) (p : Fin 256) (q : Fin 512) :
    (((cfg0.win 4).blk t).view.emb (ix2 p q) : S8192x512.Idx) = ix2 (rowOf (tile t) p) q := by
  obtain ⟨-, -, -, -, ⟨e0, e1⟩, -⟩ := idx_facts t
  funext a; apply Fin.ext
  match a with
  | ⟨0, _⟩ => show win0_4.index t (0 : Fin 2) * 256 + 1 * p.val = 256 * t.val + p.val; omega
  | ⟨1, _⟩ => show win0_4.index t (1 : Fin 2) * 512 + 1 * q.val = q.val; omega

/-- What point t writes back is block t of the neighbour mean. -/
theorem flushed4_eq (t : Fin cfg0.N) :
    (Gen.dat0 V c).flushed 4 t
      = ((cfg0.win 4).blk t).view.read (Elt Ideal) (arr2 (kAgg (NFa V c)) : S8192x512.Idx → EReal) := by
  show (cfg0.win 4).cut (grid0.coords t) ((Gen.dat0 V c).after 4 t) = _
  rw [Gen.after0_4]
  unfold Gen.out0_4
  rw [View.canon_unit_zero hz2]
  simp only [View.ld_unit_zero (S := S256x32x512) hz3]
  funext j
  obtain ⟨p, q, rfl⟩ : ∃ (p : Fin 256) (q : Fin 512), j = ix2 p q := ⟨j 0, j 1, eq_ix2 (n0 := 256) (n1 := 512) j⟩
  show k0_pay5 (F := Ideal) (Gen.iblk0 V c 1 t) (ix2 p q)
    = arr2 (kAgg (NFa V c)) (((cfg0.win 4).blk t).view.emb (ix2 p q))
  exact (agg_pt (Gen.iblk0 V c 1 t) (NFa V c) (tile t) (blk1_apply V c t) p q).trans
    (congrArg (arr2 (kAgg (NFa V c)) : S8192x512.Idx → EReal) (emb4 t p q)).symm

/-- An index of the array is in point t's block iff each coordinate is in the block's range on its axis. -/
theorem mem_blk4 (t : Fin cfg0.N) (i : S8192x512.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v18_0).slice (win0_4.rect t)).set ↔ _
  rw [View.set_slice_whole, Rect.mem_set_unit]
  exact Iff.rfl

/-- Row r is in the block of point r / 256: the 32 blocks tile the array. -/
theorem cover4 (i : S8192x512.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, ⟨e0, e1⟩, -⟩ := idx_facts t
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 512 ≤ (i 1).val ∧ (i 1).val < win0_4.index t (1 : Fin 2) * 512 + 512; omega

/-- The array after the region: the neighbour mean. -/
theorem arr4 : ((Gen.dat0 V c).arrAt 4 cfg0.N : S8192x512.Idx → EReal) = arr2 (kAgg (NFa V c)) :=
  (Gen.dat0 V c).arrAt_eq_of_cover 4 (arr2 (kAgg (NFa V c)) : S8192x512.Idx → EReal)
    (fun t _ => flushed4_eq V c t) (cover4)

/-! ## Window 5: the generator's output -/

/-- Point t's block of window 5 is rows 256·t … 256·t + 255, every column. -/
theorem emb5 (t : Fin cfg0.N) (p : Fin 256) (q : Fin 1024) :
    (((cfg0.win 5).blk t).view.emb (ix2 p q) : S8192x1024.Idx) = ix2 (rowOf (tile t) p) q := by
  obtain ⟨-, -, -, -, -, ⟨e0, e1⟩, -⟩ := idx_facts t
  funext a; apply Fin.ext
  match a with
  | ⟨0, _⟩ => show win0_5.index t (0 : Fin 2) * 256 + 1 * p.val = 256 * t.val + p.val; omega
  | ⟨1, _⟩ => show win0_5.index t (1 : Fin 2) * 1024 + 1 * q.val = q.val; omega

/-- What point t writes back is block t of the generator's output. -/
theorem flushed5_eq (t : Fin cfg0.N) :
    (Gen.dat0 V c).flushed 5 t
      = ((cfg0.win 5).blk t).view.read (Elt Ideal) (arr2 (kGen (SFa V c) (NFa V c) (Wta V c) (Wba V c)) : S8192x1024.Idx → EReal) := by
  show (cfg0.win 5).cut (grid0.coords t) ((Gen.dat0 V c).after 5 t) = _
  rw [Gen.after0_5]
  unfold Gen.out0_5
  rw [View.canon_unit_zero hz2]
  simp only [View.ld_unit_zero (S := S256x32x512) hz3, View.ld_unit_zero (S := S256x512) hz2, View.ld_unit_zero (S := S512x1024) hz2]
  funext j
  obtain ⟨p, q, rfl⟩ : ∃ (p : Fin 256) (q : Fin 1024), j = ix2 p q := ⟨j 0, j 1, eq_ix2 (n0 := 256) (n1 := 1024) j⟩
  show k0_pay8 (F := Ideal) (Gen.iblk0 V c 1 t) (Gen.iblk0 V c 0 t) (Gen.iblk0 V c 2 t) (Gen.iblk0 V c 3 t) (ix2 p q)
    = arr2 (kGen (SFa V c) (NFa V c) (Wta V c) (Wba V c)) (((cfg0.win 5).blk t).view.emb (ix2 p q))
  exact (gen_pt (Gen.iblk0 V c 1 t) (Gen.iblk0 V c 0 t) (Gen.iblk0 V c 2 t) (Gen.iblk0 V c 3 t) (SFa V c) (NFa V c) (Wta V c) (Wba V c) (tile t) (blk0_apply V c t) (blk1_apply V c t) (blk2_apply V c t) (blk3_apply V c t) p q).trans
    (congrArg (arr2 (kGen (SFa V c) (NFa V c) (Wta V c) (Wba V c)) : S8192x1024.Idx → EReal) (emb5 t p q)).symm

/-- An index of the array is in point t's block iff each coordinate is in the block's range on its axis. -/
theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v18_1).slice (win0_5.rect t)).set ↔ _
  rw [View.set_slice_whole, Rect.mem_set_unit]
  exact Iff.rfl

/-- Row r is in the block of point r / 256: the 32 blocks tile the array. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, ⟨e0, e1⟩, -⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The array after the region: the generator's output. -/
theorem arr5 : ((Gen.dat0 V c).arrAt 5 cfg0.N : S8192x1024.Idx → EReal) = arr2 (kGen (SFa V c) (NFa V c) (Wta V c) (Wba V c)) :=
  (Gen.dat0 V c).arrAt_eq_of_cover 5 (arr2 (kGen (SFa V c) (NFa V c) (Wta V c) (Wba V c)) : S8192x1024.Idx → EReal)
    (fun t _ => flushed5_eq V c t) (cover5)

/-! ## Window 6: the generator's raw output -/

/-- Point t's block of window 6 is rows 256·t … 256·t + 255, every column. -/
theorem emb6 (t : Fin cfg0.N) (p : Fin 256) (q : Fin 1024) :
    (((cfg0.win 6).blk t).view.emb (ix2 p q) : S8192x1024.Idx) = ix2 (rowOf (tile t) p) q := by
  obtain ⟨-, -, -, -, -, -, ⟨e0, e1⟩, -⟩ := idx_facts t
  funext a; apply Fin.ext
  match a with
  | ⟨0, _⟩ => show win0_6.index t (0 : Fin 2) * 256 + 1 * p.val = 256 * t.val + p.val; omega
  | ⟨1, _⟩ => show win0_6.index t (1 : Fin 2) * 1024 + 1 * q.val = q.val; omega

/-- What point t writes back is block t of the generator's raw output. -/
theorem flushed6_eq (t : Fin cfg0.N) :
    (Gen.dat0 V c).flushed 6 t
      = ((cfg0.win 6).blk t).view.read (Elt Ideal) (arr2 (kRaw (SFa V c) (NFa V c) (Wta V c) (Wba V c)) : S8192x1024.Idx → EReal) := by
  show (cfg0.win 6).cut (grid0.coords t) ((Gen.dat0 V c).after 6 t) = _
  rw [Gen.after0_6]
  unfold Gen.out0_6
  rw [View.canon_unit_zero hz2]
  simp only [View.ld_unit_zero (S := S256x32x512) hz3, View.ld_unit_zero (S := S256x512) hz2, View.ld_unit_zero (S := S512x1024) hz2]
  funext j
  obtain ⟨p, q, rfl⟩ : ∃ (p : Fin 256) (q : Fin 1024), j = ix2 p q := ⟨j 0, j 1, eq_ix2 (n0 := 256) (n1 := 1024) j⟩
  show k0_pay7 (F := Ideal) (Gen.iblk0 V c 1 t) (Gen.iblk0 V c 0 t) (Gen.iblk0 V c 2 t) (Gen.iblk0 V c 3 t) (ix2 p q)
    = arr2 (kRaw (SFa V c) (NFa V c) (Wta V c) (Wba V c)) (((cfg0.win 6).blk t).view.emb (ix2 p q))
  exact (raw_pt (Gen.iblk0 V c 1 t) (Gen.iblk0 V c 0 t) (Gen.iblk0 V c 2 t) (Gen.iblk0 V c 3 t) (SFa V c) (NFa V c) (Wta V c) (Wba V c) (tile t) (blk0_apply V c t) (blk1_apply V c t) (blk2_apply V c t) (blk3_apply V c t) p q).trans
    (congrArg (arr2 (kRaw (SFa V c) (NFa V c) (Wta V c) (Wba V c)) : S8192x1024.Idx → EReal) (emb6 t p q)).symm

/-- An index of the array is in point t's block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v18_2).slice (win0_6.rect t)).set ↔ _
  rw [View.set_slice_whole, Rect.mem_set_unit]
  exact Iff.rfl

/-- Row r is in the block of point r / 256: the 32 blocks tile the array. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, ⟨e0, e1⟩, -⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The array after the region: the generator's raw output. -/
theorem arr6 : ((Gen.dat0 V c).arrAt 6 cfg0.N : S8192x1024.Idx → EReal) = arr2 (kRaw (SFa V c) (NFa V c) (Wta V c) (Wba V c)) :=
  (Gen.dat0 V c).arrAt_eq_of_cover 6 (arr2 (kRaw (SFa V c) (NFa V c) (Wta V c) (Wba V c)) : S8192x1024.Idx → EReal)
    (fun t _ => flushed6_eq V c t) (cover6)

/-! ## Window 7: the environment branch's output -/

/-- Point t's block of window 7 is rows 256·t … 256·t + 255, every column. -/
theorem emb7 (t : Fin cfg0.N) (p : Fin 256) (q : Fin 1024) :
    (((cfg0.win 7).blk t).view.emb (ix2 p q) : S8192x1024.Idx) = ix2 (rowOf (tile t) p) q := by
  obtain ⟨-, -, -, -, -, -, -, ⟨e0, e1⟩, -⟩ := idx_facts t
  funext a; apply Fin.ext
  match a with
  | ⟨0, _⟩ => show win0_7.index t (0 : Fin 2) * 256 + 1 * p.val = 256 * t.val + p.val; omega
  | ⟨1, _⟩ => show win0_7.index t (1 : Fin 2) * 1024 + 1 * q.val = q.val; omega

/-- What point t writes back is block t of the environment branch's output. -/
theorem flushed7_eq (t : Fin cfg0.N) :
    (Gen.dat0 V c).flushed 7 t
      = ((cfg0.win 7).blk t).view.read (Elt Ideal) (arr2 (kEnvGen (NFa V c) (Wba V c)) : S8192x1024.Idx → EReal) := by
  show (cfg0.win 7).cut (grid0.coords t) ((Gen.dat0 V c).after 7 t) = _
  rw [Gen.after0_7]
  unfold Gen.out0_7
  rw [View.canon_unit_zero hz2]
  simp only [View.ld_unit_zero (S := S256x32x512) hz3, View.ld_unit_zero (S := S512x1024) hz2]
  funext j
  obtain ⟨p, q, rfl⟩ : ∃ (p : Fin 256) (q : Fin 1024), j = ix2 p q := ⟨j 0, j 1, eq_ix2 (n0 := 256) (n1 := 1024) j⟩
  show k0_pay10 (F := Ideal) (Gen.iblk0 V c 1 t) (Gen.iblk0 V c 3 t) (ix2 p q)
    = arr2 (kEnvGen (NFa V c) (Wba V c)) (((cfg0.win 7).blk t).view.emb (ix2 p q))
  exact (envgen_pt (Gen.iblk0 V c 1 t) (Gen.iblk0 V c 3 t) (NFa V c) (Wba V c) (tile t) (blk1_apply V c t) (blk3_apply V c t) p q).trans
    (congrArg (arr2 (kEnvGen (NFa V c) (Wba V c)) : S8192x1024.Idx → EReal) (emb7 t p q)).symm

/-- An index of the array is in point t's block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v18_3).slice (win0_7.rect t)).set ↔ _
  rw [View.set_slice_whole, Rect.mem_set_unit]
  exact Iff.rfl

/-- Row r is in the block of point r / 256: the 32 blocks tile the array. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, ⟨e0, e1⟩, -⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The array after the region: the environment branch's output. -/
theorem arr7 : ((Gen.dat0 V c).arrAt 7 cfg0.N : S8192x1024.Idx → EReal) = arr2 (kEnvGen (NFa V c) (Wba V c)) :=
  (Gen.dat0 V c).arrAt_eq_of_cover 7 (arr2 (kEnvGen (NFa V c) (Wba V c)) : S8192x1024.Idx → EReal)
    (fun t _ => flushed7_eq V c t) (cover7)

/-! ## Window 8: the environment branch's raw output -/

/-- Point t's block of window 8 is rows 256·t … 256·t + 255, every column. -/
theorem emb8 (t : Fin cfg0.N) (p : Fin 256) (q : Fin 1024) :
    (((cfg0.win 8).blk t).view.emb (ix2 p q) : S8192x1024.Idx) = ix2 (rowOf (tile t) p) q := by
  obtain ⟨-, -, -, -, -, -, -, -, ⟨e0, e1⟩, -⟩ := idx_facts t
  funext a; apply Fin.ext
  match a with
  | ⟨0, _⟩ => show win0_8.index t (0 : Fin 2) * 256 + 1 * p.val = 256 * t.val + p.val; omega
  | ⟨1, _⟩ => show win0_8.index t (1 : Fin 2) * 1024 + 1 * q.val = q.val; omega

/-- What point t writes back is block t of the environment branch's raw output. -/
theorem flushed8_eq (t : Fin cfg0.N) :
    (Gen.dat0 V c).flushed 8 t
      = ((cfg0.win 8).blk t).view.read (Elt Ideal) (arr2 (kEnvRaw (NFa V c) (Wba V c)) : S8192x1024.Idx → EReal) := by
  show (cfg0.win 8).cut (grid0.coords t) ((Gen.dat0 V c).after 8 t) = _
  rw [Gen.after0_8]
  unfold Gen.out0_8
  rw [View.canon_unit_zero hz2]
  simp only [View.ld_unit_zero (S := S256x32x512) hz3, View.ld_unit_zero (S := S512x1024) hz2]
  funext j
  obtain ⟨p, q, rfl⟩ : ∃ (p : Fin 256) (q : Fin 1024), j = ix2 p q := ⟨j 0, j 1, eq_ix2 (n0 := 256) (n1 := 1024) j⟩
  show k0_pay9 (F := Ideal) (Gen.iblk0 V c 1 t) (Gen.iblk0 V c 3 t) (ix2 p q)
    = arr2 (kEnvRaw (NFa V c) (Wba V c)) (((cfg0.win 8).blk t).view.emb (ix2 p q))
  exact (envraw_pt (Gen.iblk0 V c 1 t) (Gen.iblk0 V c 3 t) (NFa V c) (Wba V c) (tile t) (blk1_apply V c t) (blk3_apply V c t) p q).trans
    (congrArg (arr2 (kEnvRaw (NFa V c) (Wba V c)) : S8192x1024.Idx → EReal) (emb8 t p q)).symm

/-- An index of the array is in point t's block iff each coordinate is in the block's range on its axis. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v18_4).slice (win0_8.rect t)).set ↔ _
  rw [View.set_slice_whole, Rect.mem_set_unit]
  exact Iff.rfl

/-- Row r is in the block of point r / 256: the 32 blocks tile the array. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, ⟨e0, e1⟩, -⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- The array after the region: the environment branch's raw output. -/
theorem arr8 : ((Gen.dat0 V c).arrAt 8 cfg0.N : S8192x1024.Idx → EReal) = arr2 (kEnvRaw (NFa V c) (Wba V c)) :=
  (Gen.dat0 V c).arrAt_eq_of_cover 8 (arr2 (kEnvRaw (NFa V c) (Wba V c)) : S8192x1024.Idx → EReal)
    (fun t _ => flushed8_eq V c t) (cover8)

end Cert.KernelIdeal.K0Arr

end
-- ==== Proof.K0Stat.lean ====
/-
  From blocks to whole arrays, first kernel region, the two statistics results: after the 32 grid points row t of
  the partial-sum array is tile t's column sums of the features [neighbour mean | generator output] and row t of
  the partial-sum-of-squares array is tile t's column sums of their squares, as functions of the four arrays the
  region reads. Per grid point t the stored payload is the column sums over the 256 rows of the tile of the two
  row payloads; the block of point t is row t, and the 32 rows tile each array.
-/
import proofs.«116837_j75015898792523_2_alg».proof.Proof.K0Pay
import proofs.«116837_j75015898792523_2_alg».proof.Proof.K0Arr
import proofs.«116837_j75015898792523_2_alg».proof.Proof.Spec
import proofs.«116837_j75015898792523_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.K0Stat

open Cert.Spec Cert.KernelIdeal Cert.KernelIdeal.Gen Cert.KernelIdeal.K0Arr

variable (V : (c : Dev nD) → (b : Ref sig .tc) → Buf (Elt Ideal) ((c : Thread nD τ).loc b)) (c : Dev nD)

/-- An index of a [1, 1, n] block is its last coordinate. -/
theorem eq_ix3_00 {n : Nat} (j : (⟨3, ![1, 1, n]⟩ : Shape).Idx) : j = ix3 (0 : Fin 1) (0 : Fin 1) (j 2) := by
  funext a
  match a with
  | ⟨0, _⟩ => exact Subsingleton.elim (α := Fin 1) _ _
  | ⟨1, _⟩ => exact Subsingleton.elim (α := Fin 1) _ _
  | ⟨2, _⟩ => rfl

/-! ## What one grid point stores in the statistics rows, over any blocks that are the arrays' rows of tile s -/

section Point
variable (x1 : Vec Ideal S256x32x512 .f32) (x0 : Vec Ideal S256x512 .f32) (x2 x3 : Vec Ideal S512x1024 .bf16)
  (SF : Fin 8192 → Fin 512 → EReal) (NF : Fin 8192 → Fin 32 → Fin 512 → EReal) (Wt Wb : Fin 512 → Fin 1024 → EReal)
  (s : Fin 32)
  (h0 : ∀ (p : Fin 256) (q : Fin 512), x0 (ix2 p q) = SF (rowOf s p) q)
  (h1 : ∀ (p : Fin 256) (k : Fin 32) (q : Fin 512), x1 (ix3 p k q) = NF (rowOf s p) k q)
  (h2 : ∀ (k : Fin 512) (j : Fin 1024), x2 (ix2 k j) = Wt k j)
  (h3 : ∀ (k : Fin 512) (j : Fin 1024), x3 (ix2 k j) = Wb k j)

include h0 h1 h2 h3 in
/-- The tile's column sums of the features [mean | generator output]. -/
theorem psum_pt (cc : Fin 1536) :
    k0_pay1 (F := Ideal) (k0_pay5 (F := Ideal) x1) (k0_pay8 (F := Ideal) x1 x0 x2 x3) (ix3 0 0 cc)
      = kPartSum (kAgg NF) (kGen SF NF Wt Wb) s cc := by
  refine (K0Pay.pay1_apply (k0_pay5 (F := Ideal) x1) (k0_pay8 (F := Ideal) x1 x0 x2 x3) cc).trans ?_
  unfold kPartSum
  by_cases h : cc.val < 512
  · rw [dif_pos h, dif_pos h]
    exact Finset.sum_congr rfl fun r _ => K0Arr.agg_pt x1 NF s h1 r ⟨cc.val, h⟩
  · rw [dif_neg h, dif_neg h]
    exact Finset.sum_congr rfl fun r _ => K0Arr.gen_pt x1 x0 x2 x3 SF NF Wt Wb s h0 h1 h2 h3 r ⟨cc.val - 512, _⟩

include h0 h1 h2 h3 in
/-- The tile's column sums of the squared features. -/
theorem psq_pt (cc : Fin 1536) :
    k0_pay2 (F := Ideal) (k0_pay5 (F := Ideal) x1) (k0_pay8 (F := Ideal) x1 x0 x2 x3) (ix3 0 0 cc)
      = kPartSq (kAgg NF) (kGen SF NF Wt Wb) s cc := by
  refine (K0Pay.pay2_apply (k0_pay5 (F := Ideal) x1) (k0_pay8 (F := Ideal) x1 x0 x2 x3) cc).trans ?_
  unfold kPartSq
  by_cases h : cc.val < 512
  · rw [dif_pos h, dif_pos h]
    exact Finset.sum_congr rfl fun r _ => by rw [K0Arr.agg_pt x1 NF s h1 r ⟨cc.val, h⟩]
  · rw [dif_neg h, dif_neg h]
    exact Finset.sum_congr rfl fun r _ => by rw [K0Arr.gen_pt x1 x0 x2 x3 SF NF Wt Wb s h0 h1 h2 h3 r ⟨cc.val - 512, _⟩]

end Point

/-! ## Window 9: the tiles' column sums of the features -/

/-- Point t's block of window 9 is row t. -/
theorem emb9 (t : Fin cfg0.N) (cc : Fin 1536) :
    (((cfg0.win 9).blk t).view.emb (ix3 (0 : Fin 1) (0 : Fin 1) cc) : S32x1x1536.Idx) = ix3 (tile t) (0 : Fin 1) cc := by
  obtain ⟨-, -, -, -, -, -, -, -, -, ⟨e0, e1, e2⟩, -⟩ := idx_facts t
  funext a; apply Fin.ext
  match a with
  | ⟨0, _⟩ => show win0_9.index t (0 : Fin 3) * 1 + 1 * 0 = t.val; omega
  | ⟨1, _⟩ => show win0_9.index t (1 : Fin 3) * 1 + 1 * 0 = 0; omega
  | ⟨2, _⟩ => show win0_9.index t (2 : Fin 3) * 1536 + 1 * cc.val = cc.val; omega

/-- What point t writes back is row t of the tiles' column sums of the features. -/
theorem flushed9_eq (t : Fin cfg0.N) :
    (Gen.dat0 V c).flushed 9 t
      = ((cfg0.win 9).blk t).view.read (Elt Ideal) (arr3 (fun (s : Fin 32) (_ : Fin 1) (cc : Fin 1536) => kPartSum (kAgg (NFa V c)) (kGen (SFa V c) (NFa V c) (Wta V c) (Wba V c)) s cc) : S32x1x1536.Idx → EReal) := by
  show (cfg0.win 9).cut (grid0.coords t) ((Gen.dat0 V c).after 9 t) = _
  rw [Gen.after0_9]
  unfold Gen.out0_9
  rw [View.canon_unit_zero hz3]
  simp only [View.ld_unit_zero (S := S256x32x512) hz3, View.ld_unit_zero (S := S256x512) hz2, View.ld_unit_zero (S := S512x1024) hz2]
  funext j
  obtain ⟨cc, rfl⟩ : ∃ cc : Fin 1536, j = ix3 (0 : Fin 1) (0 : Fin 1) cc := ⟨j 2, eq_ix3_00 (n := 1536) j⟩
  show k0_pay1 (F := Ideal) (k0_pay5 (F := Ideal) (Gen.iblk0 V c 1 t)) (k0_pay8 (F := Ideal) (Gen.iblk0 V c 1 t) (Gen.iblk0 V c 0 t) (Gen.iblk0 V c 2 t) (Gen.iblk0 V c 3 t)) (ix3 0 0 cc)
    = arr3 (fun (s : Fin 32) (_ : Fin 1) (cc : Fin 1536) => kPartSum (kAgg (NFa V c)) (kGen (SFa V c) (NFa V c) (Wta V c) (Wba V c)) s cc) (((cfg0.win 9).blk t).view.emb (ix3 0 0 cc))
  exact (psum_pt (Gen.iblk0 V c 1 t) (Gen.iblk0 V c 0 t) (Gen.iblk0 V c 2 t) (Gen.iblk0 V c 3 t) (SFa V c) (NFa V c) (Wta V c) (Wba V c) (tile t) (blk0_apply V c t) (blk1_apply V c t) (blk2_apply V c t) (blk3_apply V c t) cc).trans
    (congrArg (arr3 (fun (s : Fin 32) (_ : Fin 1) (cc : Fin 1536) => kPartSum (kAgg (NFa V c)) (kGen (SFa V c) (NFa V c) (Wta V c) (Wba V c)) s cc) : S32x1x1536.Idx → EReal) (emb9 t cc)).symm

/-- An index of the array is in point t's block iff each coordinate is in the block's range on its axis. -/
theorem mem_blk9 (t : Fin cfg0.N) (i : S32x1x1536.Idx) :
    i ∈ ((cfg0.win 9).blk t).view.set ↔ ∀ a : Fin 3, win0_9.index t a * S1x1x1536.size a ≤ (i a).val ∧ (i a).val < win0_9.index t a * S1x1x1536.size a + S1x1x1536.size a := by
  show i ∈ ((View.whole main_v18_5).slice (win0_9.rect t)).set ↔ _
  rw [View.set_slice_whole, Rect.mem_set_unit]
  exact Iff.rfl

/-- Row t is the block of point t: the 32 blocks tile the array. -/
theorem cover9 (i : S32x1x1536.Idx) :
    ∃ t : Fin cfg0.N, (cfg0.win 9).flush t = true ∧ i ∈ ((cfg0.win 9).blk t).view.set := by
  have hi0 : (i 0).val < 32 := (i 0).isLt
  have hi1 : (i 1).val < 1 := (i 1).isLt
  have hi2 : (i 2).val < 1536 := (i 2).isLt
  obtain ⟨t, ht⟩ : ∃ t : Fin cfg0.N, t.val = (i 0).val :=
    ⟨⟨(i 0).val, by rw [show cfg0.N = 32 from N_0]; exact hi0⟩, rfl⟩
  obtain ⟨-, -, -, -, -, -, -, -, -, ⟨e0, e1, e2⟩, -⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 1536 ≤ (i 2).val ∧ (i 2).val < win0_9.index t (2 : Fin 3) * 1536 + 1536; omega

/-- The array after the region: the tiles' column sums of the features, one row per tile. -/
theorem arr9 : ((Gen.dat0 V c).arrAt 9 cfg0.N : S32x1x1536.Idx → EReal)
    = arr3 (fun (t : Fin 32) (_ : Fin 1) (cc : Fin 1536) => kPartSum (kAgg (NFa V c)) (kGen (SFa V c) (NFa V c) (Wta V c) (Wba V c)) t cc) :=
  (Gen.dat0 V c).arrAt_eq_of_cover 9 (arr3 (fun (s : Fin 32) (_ : Fin 1) (cc : Fin 1536) => kPartSum (kAgg (NFa V c)) (kGen (SFa V c) (NFa V c) (Wta V c) (Wba V c)) s cc) : S32x1x1536.Idx → EReal)
    (fun t _ => flushed9_eq V c t) (cover9)

/-! ## Window 10: the tiles' column sums of the squared features -/

/-- Point t's block of window 10 is row t. -/
theorem emb10 (t : Fin cfg0.N) (cc : Fin 1536) :
    (((cfg0.win 10).blk t).view.emb (ix3 (0 : Fin 1) (0 : Fin 1) cc) : S32x1x1536.Idx) = ix3 (tile t) (0 : Fin 1) cc := by
  obtain ⟨-, -, -, -, -, -, -, -, -, -, ⟨e0, e1, e2⟩⟩ := idx_facts t
  funext a; apply Fin.ext
  match a with
  | ⟨0, _⟩ => show win0_10.index t (0 : Fin 3) * 1 + 1 * 0 = t.val; omega
  | ⟨1, _⟩ => show win0_10.index t (1 : Fin 3) * 1 + 1 * 0 = 0; omega
  | ⟨2, _⟩ => show win0_10.index t (2 : Fin 3) * 1536 + 1 * cc.val = cc.val; omega

/-- What point t writes back is row t of the tiles' column sums of the squared features. -/
theorem flushed10_eq (t : Fin cfg0.N) :
    (Gen.dat0 V c).flushed 10 t
      = ((cfg0.win 10).blk t).view.read (Elt Ideal) (arr3 (fun (s : Fin 32) (_ : Fin 1) (cc : Fin 1536) => kPartSq (kAgg (NFa V c)) (kGen (SFa V c) (NFa V c) (Wta V c) (Wba V c)) s cc) : S32x1x1536.Idx → EReal) := by
  show (cfg0.win 10).cut (grid0.coords t) ((Gen.dat0 V c).after 10 t) = _
  rw [Gen.after0_10]
  unfold Gen.out0_10
  rw [View.canon_unit_zero hz3]
  simp only [View.ld_unit_zero (S := S256x32x512) hz3, View.ld_unit_zero (S := S256x512) hz2, View.ld_unit_zero (S := S512x1024) hz2]
  funext j
  obtain ⟨cc, rfl⟩ : ∃ cc : Fin 1536, j = ix3 (0 : Fin 1) (0 : Fin 1) cc := ⟨j 2, eq_ix3_00 (n := 1536) j⟩
  show k0_pay2 (F := Ideal) (k0_pay5 (F := Ideal) (Gen.iblk0 V c 1 t)) (k0_pay8 (F := Ideal) (Gen.iblk0 V c 1 t) (Gen.iblk0 V c 0 t) (Gen.iblk0 V c 2 t) (Gen.iblk0 V c 3 t)) (ix3 0 0 cc)
    = arr3 (fun (s : Fin 32) (_ : Fin 1) (cc : Fin 1536) => kPartSq (kAgg (NFa V c)) (kGen (SFa V c) (NFa V c) (Wta V c) (Wba V c)) s cc) (((cfg0.win 10).blk t).view.emb (ix3 0 0 cc))
  exact (psq_pt (Gen.iblk0 V c 1 t) (Gen.iblk0 V c 0 t) (Gen.iblk0 V c 2 t) (Gen.iblk0 V c 3 t) (SFa V c) (NFa V c) (Wta V c) (Wba V c) (tile t) (blk0_apply V c t) (blk1_apply V c t) (blk2_apply V c t) (blk3_apply V c t) cc).trans
    (congrArg (arr3 (fun (s : Fin 32) (_ : Fin 1) (cc : Fin 1536) => kPartSq (kAgg (NFa V c)) (kGen (SFa V c) (NFa V c) (Wta V c) (Wba V c)) s cc) : S32x1x1536.Idx → EReal) (emb10 t cc)).symm

/-- An index of the array is in point t's block iff each coordinate is in the block's range on its axis. -/
theorem mem_blk10 (t : Fin cfg0.N) (i : S32x1x1536.Idx) :
    i ∈ ((cfg0.win 10).blk t).view.set ↔ ∀ a : Fin 3, win0_10.index t a * S1x1x1536.size a ≤ (i a).val ∧ (i a).val < win0_10.index t a * S1x1x1536.size a + S1x1x1536.size a := by
  show i ∈ ((View.whole main_v18_6).slice (win0_10.rect t)).set ↔ _
  rw [View.set_slice_whole, Rect.mem_set_unit]
  exact Iff.rfl

/-- Row t is the block of point t: the 32 blocks tile the array. -/
theorem cover10 (i : S32x1x1536.Idx) :
    ∃ t : Fin cfg0.N, (cfg0.win 10).flush t = true ∧ i ∈ ((cfg0.win 10).blk t).view.set := by
  have hi0 : (i 0).val < 32 := (i 0).isLt
  have hi1 : (i 1).val < 1 := (i 1).isLt
  have hi2 : (i 2).val < 1536 := (i 2).isLt
  obtain ⟨t, ht⟩ : ∃ t : Fin cfg0.N, t.val = (i 0).val :=
    ⟨⟨(i 0).val, by rw [show cfg0.N = 32 from N_0]; exact hi0⟩, rfl⟩
  obtain ⟨-, -, -, -, -, -, -, -, -, -, ⟨e0, e1, e2⟩⟩ := idx_facts t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 1536 ≤ (i 2).val ∧ (i 2).val < win0_10.index t (2 : Fin 3) * 1536 + 1536; omega

/-- The array after the region: the tiles' column sums of the squared features, one row per tile. -/
theorem arr10 : ((Gen.dat0 V c).arrAt 10 cfg0.N : S32x1x1536.Idx → EReal)
    = arr3 (fun (t : Fin 32) (_ : Fin 1) (cc : Fin 1536) => kPartSq (kAgg (NFa V c)) (kGen (SFa V c) (NFa V c) (Wta V c) (Wba V c)) t cc) :=
  (Gen.dat0 V c).arrAt_eq_of_cover 10 (arr3 (fun (s : Fin 32) (_ : Fin 1) (cc : Fin 1536) => kPartSq (kAgg (NFa V c)) (kGen (SFa V c) (NFa V c) (Wta V c) (Wba V c)) s cc) : S32x1x1536.Idx → EReal)
    (fun t _ => flushed10_eq V c t) (cover10)

end Cert.KernelIdeal.K0Stat

end
-- ==== Proof.KSide.lean ====
/-
  The idealized kernel program's result arrays as the mathematics of Spec.lean, of the program's argument arrays:
  the first region's arrays are the block-wise functions of the gathered rows and the two weight halves; the host
  operations between the regions make the column means and variances from the per-tile partial sums; the second
  region's array is the normalised features against the last weights.
-/
import proofs.«116837_j75015898792523_2_alg».proof.Proof.KOut
import proofs.«116837_j75015898792523_2_alg».proof.Proof.KHost
import proofs.«116837_j75015898792523_2_alg».proof.Proof.K0Arr
import proofs.«116837_j75015898792523_2_alg».proof.Proof.K0Stat

noncomputable section

namespace Cert.KernelIdeal.KSide

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-- The gathered self rows, neighbour rows and the argument arrays, by coordinates. -/
def SF : Fin 8192 → Fin 512 → EReal :=
  cur2 (KHost.selfF (m ((c : Thread nD τ).loc main_arg0)) (m ((c : Thread nD τ).loc main_arg5)) : S8192x512.Idx → EReal)
def NF : Fin 8192 → Fin 32 → Fin 512 → EReal :=
  cur3 (KHost.neighF (m ((c : Thread nD τ).loc main_arg0)) (m ((c : Thread nD τ).loc main_arg6)) : S8192x32x512.Idx → EReal)
def Wg : Fin 1024 → Fin 1024 → EReal := cur2 (m ((c : Thread nD τ).loc main_arg1) : S1024x1024.Idx → EReal)
def W1 : Fin 1536 → Fin 1536 → EReal := cur2 (m ((c : Thread nD τ).loc main_arg2) : S1536x1536.Idx → EReal)
def gam : Fin 1536 → EReal := cur1 (m ((c : Thread nD τ).loc main_arg3) : S1536.Idx → EReal)
def bet : Fin 1536 → EReal := cur1 (m ((c : Thread nD τ).loc main_arg4) : S1536.Idx → EReal)

/-- The two weight halves the first region reads. -/
abbrev Wt : Fin 512 → Fin 1024 → EReal := fun k j => Wg m c (lo k) j
abbrev Wb : Fin 512 → Fin 1024 → EReal := fun k j => Wg m c (hi k) j

theorem sfa : cur2 (V1 m ρ c (Pipeline.arrRef spec0 0) : S8192x512.Idx → EReal) = SF m c := by
  rw [KHost.V1_self m ρ c]; rfl
theorem nfa : cur3 (V1 m ρ c (Pipeline.arrRef spec0 1) : S8192x32x512.Idx → EReal) = NF m c := by
  rw [KHost.V1_neigh m ρ c]; rfl
theorem wta : cur2 (V1 m ρ c (Pipeline.arrRef spec0 2) : S512x1024.Idx → EReal) = Wt m c := KHost.V1_wtop m ρ c
theorem wba : cur2 (V1 m ρ c (Pipeline.arrRef spec0 3) : S512x1024.Idx → EReal) = Wb m c := KHost.V1_wbot m ρ c

theorem sfa' : K0Arr.SFa (V1 m ρ) c = SF m c := sfa m ρ c
theorem nfa' : K0Arr.NFa (V1 m ρ) c = NF m c := nfa m ρ c
theorem wta' : K0Arr.Wta (V1 m ρ) c = Wt m c := wta m ρ c
theorem wba' : K0Arr.Wba (V1 m ρ) c = Wb m c := wba m ρ c

theorem agg_val : ((dat0 (V1 m ρ) c).arrAt 4 cfg0.N : S8192x512.Idx → EReal) = arr2 (kAgg (NF m c)) := by
  rw [K0Arr.arr4 (V1 m ρ) c, nfa' m ρ c]
theorem gen_val : ((dat0 (V1 m ρ) c).arrAt 5 cfg0.N : S8192x1024.Idx → EReal) = arr2 (kGen (SF m c) (NF m c) (Wt m c) (Wb m c)) := by
  rw [K0Arr.arr5 (V1 m ρ) c, sfa' m ρ c, nfa' m ρ c, wta' m ρ c, wba' m ρ c]
theorem raw_val : ((dat0 (V1 m ρ) c).arrAt 6 cfg0.N : S8192x1024.Idx → EReal) = arr2 (kRaw (SF m c) (NF m c) (Wt m c) (Wb m c)) := by
  rw [K0Arr.arr6 (V1 m ρ) c, sfa' m ρ c, nfa' m ρ c, wta' m ρ c, wba' m ρ c]
theorem envGen_val : ((dat0 (V1 m ρ) c).arrAt 7 cfg0.N : S8192x1024.Idx → EReal) = arr2 (kEnvGen (NF m c) (Wb m c)) := by
  rw [K0Arr.arr7 (V1 m ρ) c, nfa' m ρ c, wba' m ρ c]
theorem envRaw_val : ((dat0 (V1 m ρ) c).arrAt 8 cfg0.N : S8192x1024.Idx → EReal) = arr2 (kEnvRaw (NF m c) (Wb m c)) := by
  rw [K0Arr.arr8 (V1 m ρ) c, nfa' m ρ c, wba' m ρ c]
theorem psum_val : ((dat0 (V1 m ρ) c).arrAt 9 cfg0.N : S32x1x1536.Idx → EReal)
    = arr3 (fun (t : Fin 32) (_ : Fin 1) (cc : Fin 1536) => kPartSum (kAgg (NF m c)) (kGen (SF m c) (NF m c) (Wt m c) (Wb m c)) t cc) := by
  rw [K0Stat.arr9 (V1 m ρ) c, sfa' m ρ c, nfa' m ρ c, wta' m ρ c, wba' m ρ c]
theorem psq_val : ((dat0 (V1 m ρ) c).arrAt 10 cfg0.N : S32x1x1536.Idx → EReal)
    = arr3 (fun (t : Fin 32) (_ : Fin 1) (cc : Fin 1536) => kPartSq (kAgg (NF m c)) (kGen (SF m c) (NF m c) (Wt m c) (Wb m c)) t cc) := by
  rw [K0Stat.arr10 (V1 m ρ) c, sfa' m ρ c, nfa' m ρ c, wta' m ρ c, wba' m ρ c]

/-- The per-tile partial sums, read off the first region's two statistics arrays. -/
theorem ps_eq : KHost.PS m ρ c
    = kPartSum (kAgg (NF m c)) (kGen (SF m c) (NF m c) (Wt m c) (Wb m c)) := by
  unfold KHost.PS; rw [psum_val m ρ c]; rfl
theorem pq_eq : KHost.PQ m ρ c
    = kPartSq (kAgg (NF m c)) (kGen (SF m c) (NF m c) (Wt m c) (Wb m c)) := by
  unfold KHost.PQ; rw [psq_val m ρ c]; rfl

end Cert.KernelIdeal.KSide

end
-- ==== Proof.K1Arr.lean ====
/-
  The second kernel region, read as mathematics. One grid point works on one block of 1024 consecutive rows
  (8 blocks, block t = rows 1024·t … 1024·t + 1023 of the 8192): it takes those rows of the two feature arrays
  (512 and 1024 columns), normalises each entry with its column's statistics — (x − mean)·rsqrt(variance + ε)·scale
  + shift, the four parameter rows of each half read whole as [1,512] and [1,1024] arrays —, multiplies the first
  half by the top 512 rows of the [1536,1536] weights and the second half by the bottom 1024 rows (both weight blocks
  read whole), adds the two products and takes the maximum with zero. First the payload at one entry (row p of the
  block, column n): a 512-term plus a 1024-term sum of normalised entries times weights. Then from blocks to the
  array: the entry (p, n) of block t is entry (1024·t + p, n) of the output, each block's inputs sit at the same
  rows, and the 8 row blocks tile the [8192,1536] output (row r lies in block r / 1024), so the array after the
  region is the last layer `kOut` of the two feature arrays as the region finds them.
-/
import proofs.«116837_j75015898792523_2_alg».proof.Proof.Spec
import proofs.«116837_j75015898792523_2_alg».proof.Proof.Gen.KernelIdeal.Frame
import Idealize.ShloMosaic.Lib.ValueLayout
import Idealize.ShloMosaic.Lib.Pipeline.Value
import Idealize.ShloMosaic.PureOps.Ideal.Laws

noncomputable section

open scoped BigOperators

namespace Cert.KernelIdeal.K1Arr

open Idealize.ShloMosaic Idealize.ShloMosaic.TcCoe Idealize.ShloMosaic.ValueIdx Cert.KernelIdeal Cert.KernelIdeal.Gen Cert.Spec

/-! ## The two matrix products at an index -/

/-- The [1024,512] by [512,1536] product into a zero accumulator, at row `a` and column `b`: the sum over the
    512 contracted coordinates of the products of the entries. -/
theorem mm_top (A : FVec Ideal S1024x512 .bf16) (B : FVec Ideal S512x1536 .bf16) (a : Fin 1024) (b : Fin 1536) :
    matmul dot_S1024x512_S512x1536_S1024x1536_1_0_0_1_n_n none A B (constant (F := Ideal) S1024x1536 .f32 0x00000000#32) (ix2 a b)
      = ∑ c : Fin 512, A (ix2 a c) * B (ix2 c b) := by
  show FloatOps.matmul _ none A B _ (ix2 a b) = _
  rw [Ideal.matmul_constant_zero_apply,
    ← Equiv.sum_comp (contrEquiv1 dot_S1024x512_S512x1536_S1024x1536_1_0_0_1_n_n 512 rfl rfl).symm]
  refine Finset.sum_congr rfl fun c _ => ?_
  have c2 := contrEquiv1_symm_val dot_S1024x512_S512x1536_S1024x1536_1_0_0_1_n_n 512 rfl rfl c
  have l2 : dot_S1024x512_S512x1536_S1024x1536_1_0_0_1_n_n.lhsIdx (ix2 a b) ((contrEquiv1 _ 512 rfl rfl).symm c) = ix2 a c := by
    funext ax; apply Fin.ext
    match ax with
    | ⟨0, _⟩ => simp [DotDims.lhsIdx, dot_S1024x512_S512x1536_S1024x1536_1_0_0_1_n_n]; rfl
    | ⟨1, _⟩ => simp [DotDims.lhsIdx, dot_S1024x512_S512x1536_S1024x1536_1_0_0_1_n_n]; exact c2
  have r2 : dot_S1024x512_S512x1536_S1024x1536_1_0_0_1_n_n.rhsIdx (ix2 a b) ((contrEquiv1 _ 512 rfl rfl).symm c) = ix2 c b := by
    funext ax; apply Fin.ext
    match ax with
    | ⟨0, _⟩ => simp [DotDims.rhsIdx, dot_S1024x512_S512x1536_S1024x1536_1_0_0_1_n_n]; exact c2
    | ⟨1, _⟩ => simp [DotDims.rhsIdx, dot_S1024x512_S512x1536_S1024x1536_1_0_0_1_n_n]; rfl
  rw [l2, r2]

/-- The [1024,1024] by [1024,1536] product likewise, over its 1024 contracted coordinates. -/
theorem mm_bot (A : FVec Ideal S1024x1024 .bf16) (B : FVec Ideal S1024x1536 .bf16) (a : Fin 1024) (b : Fin 1536) :
    matmul dot_S1024x1024_S1024x1536_S1024x1536_1_0_0_1_n_n none A B (constant (F := Ideal) S1024x1536 .f32 0x00000000#32) (ix2 a b)
      = ∑ c : Fin 1024, A (ix2 a c) * B (ix2 c b) := by
  show FloatOps.matmul _ none A B _ (ix2 a b) = _
  rw [Ideal.matmul_constant_zero_apply,
    ← Equiv.sum_comp (contrEquiv1 dot_S1024x1024_S1024x1536_S1024x1536_1_0_0_1_n_n 1024 rfl rfl).symm]
  refine Finset.sum_congr rfl fun c _ => ?_
  have c2 := contrEquiv1_symm_val dot_S1024x1024_S1024x1536_S1024x1536_1_0_0_1_n_n 1024 rfl rfl c
  have l2 : dot_S1024x1024_S1024x1536_S1024x1536_1_0_0_1_n_n.lhsIdx (ix2 a b) ((contrEquiv1 _ 1024 rfl rfl).symm c) = ix2 a c := by
    funext ax; apply Fin.ext
    match ax with
    | ⟨0, _⟩ => simp [DotDims.lhsIdx, dot_S1024x1024_S1024x1536_S1024x1536_1_0_0_1_n_n]; rfl
    | ⟨1, _⟩ => simp [DotDims.lhsIdx, dot_S1024x1024_S1024x1536_S1024x1536_1_0_0_1_n_n]; exact c2
  have r2 : dot_S1024x1024_S1024x1536_S1024x1536_1_0_0_1_n_n.rhsIdx (ix2 a b) ((contrEquiv1 _ 1024 rfl rfl).symm c) = ix2 c b := by
    funext ax; apply Fin.ext
    match ax with
    | ⟨0, _⟩ => simp [DotDims.rhsIdx, dot_S1024x1024_S1024x1536_S1024x1536_1_0_0_1_n_n]; exact c2
    | ⟨1, _⟩ => simp [DotDims.rhsIdx, dot_S1024x1024_S1024x1536_S1024x1536_1_0_0_1_n_n]; rfl
  rw [l2, r2]

/-! ## The second kernel's payload at an index -/

/-- The 512-column half normalised, at row `p` and column `k`: the entry minus the column's mean, times the
    reciprocal square root of the column's variance plus epsilon, times the scale, plus the shift — the four
    one-row parameter arrays read at their one row. -/
theorem normA_apply (x0 : Vec Ideal S1024x512 .f32) (va ma ga ba : Vec Ideal S1x512 .f32) (p : Fin 1024) (k : Fin 512) :
    (k1_pay2 x0 va ma ga ba (ix2 p k) : EReal)
      = ((x0 (ix2 p k) : EReal) - ma (ix2 (0 : Fin 1) k)) * Ideal.rsqrt ((va (ix2 (0 : Fin 1) k) : EReal) + epsE) * ga (ix2 (0 : Fin 1) k)
        + ba (ix2 (0 : Fin 1) k) := by
  unfold k1_pay2
  simp only [shapeCast_self]
  show ((x0 (ix2 p k) : EReal) - broadcastTo S1024x512 ma broadcasts_S1x512_S1024x512 (ix2 p k))
      * broadcastTo S1024x512 (rsqrt (F := Ideal) (addf (F := Ideal) (va : FVec Ideal S1x512 .f32) (broadcast S1x512 (Scalar.ofBits (F := Ideal) .f32 0x3727C5AC#32)))) broadcasts_S1x512_S1024x512 (ix2 p k)
      * broadcastTo S1024x512 ga broadcasts_S1x512_S1024x512 (ix2 p k)
      + broadcastTo S1024x512 ba broadcasts_S1x512_S1024x512 (ix2 p k) = _
  rw [broadcastTo_1b_ab_apply ma, broadcastTo_1b_ab_apply ga, broadcastTo_1b_ab_apply ba,
    broadcastTo_1b_ab_apply (rsqrt (F := Ideal) (addf (F := Ideal) (va : FVec Ideal S1x512 .f32) (broadcast S1x512 (Scalar.ofBits (F := Ideal) .f32 0x3727C5AC#32))))]
  rfl

/-- The 1024-column half normalised, without its shift (the kernel adds that just before the product). -/
theorem normG_apply (x1 : Vec Ideal S1024x1024 .f32) (vg mg gg : Vec Ideal S1x1024 .f32) (p : Fin 1024) (k : Fin 1024) :
    (k1_pay3 x1 vg mg gg (ix2 p k) : EReal)
      = ((x1 (ix2 p k) : EReal) - mg (ix2 (0 : Fin 1) k)) * Ideal.rsqrt ((vg (ix2 (0 : Fin 1) k) : EReal) + epsE) * gg (ix2 (0 : Fin 1) k) := by
  unfold k1_pay3
  simp only [shapeCast_self]
  show ((x1 (ix2 p k) : EReal) - broadcastTo S1024x1024 mg broadcasts_S1x1024_S1024x1024 (ix2 p k))
      * broadcastTo S1024x1024 (rsqrt (F := Ideal) (addf (F := Ideal) (vg : FVec Ideal S1x1024 .f32) (broadcast S1x1024 (Scalar.ofBits (F := Ideal) .f32 0x3727C5AC#32)))) broadcasts_S1x1024_S1024x1024 (ix2 p k)
      * broadcastTo S1024x1024 gg broadcasts_S1x1024_S1024x1024 (ix2 p k) = _
  rw [broadcastTo_1b_ab_apply mg, broadcastTo_1b_ab_apply gg,
    broadcastTo_1b_ab_apply (rsqrt (F := Ideal) (addf (F := Ideal) (vg : FVec Ideal S1x1024 .f32) (broadcast S1x1024 (Scalar.ofBits (F := Ideal) .f32 0x3727C5AC#32))))]
  rfl

/-- The last layer on one block of rows, at row `p` and column `n`: the first half against the top 512 weight rows
    plus the second half, its shift added, against the bottom 1024 weight rows, then the maximum with zero. -/
theorem pay1_apply (A : FVec Ideal S1024x512 .f32) (G : FVec Ideal S1024x1024 .f32) (bg : Vec Ideal S1x1024 .f32)
    (wt : Vec Ideal S512x1536 .bf16) (wb : Vec Ideal S1024x1536 .bf16) (p : Fin 1024) (n : Fin 1536) :
    (k1_pay1 A G bg wt wb (ix2 p n) : EReal)
      = max ((∑ k : Fin 512, (A (ix2 p k) : EReal) * wt (ix2 k n))
          + (∑ k : Fin 1024, ((G (ix2 p k) : EReal) + bg (ix2 (0 : Fin 1) k)) * wb (ix2 k n))) 0 := by
  unfold k1_pay1
  simp only [shapeCast_self]
  show max (matmul dot_S1024x512_S512x1536_S1024x1536_1_0_0_1_n_n none (truncf .bf16 A bitsLt_bf16_f32) wt (constant (F := Ideal) S1024x1536 .f32 0x00000000#32) (ix2 p n)
      + matmul dot_S1024x1024_S1024x1536_S1024x1536_1_0_0_1_n_n none (truncf .bf16 (addf G (broadcastTo S1024x1024 bg broadcasts_S1x1024_S1024x1024)) bitsLt_bf16_f32) wb
          (constant (F := Ideal) S1024x1536 .f32 0x00000000#32) (ix2 p n))
      (Ideal.ofBits .f32 0x00000000#32) = _
  rw [mm_top, mm_bot, Ideal.ofBits_zero_f32]
  refine congrArg (fun z => max (_ + z) 0) (Finset.sum_congr rfl fun k _ => ?_)
  show ((G (ix2 p k) : EReal) + broadcastTo S1024x1024 bg broadcasts_S1x1024_S1024x1024 (ix2 p k)) * _ = _
  rw [broadcastTo_1b_ab_apply bg]

/-- The whole payload of one block of 1024 rows at row `p` and column `n`, from the loaded blocks. -/
theorem pay_apply (x0 : Vec Ideal S1024x512 .f32) (x1 : Vec Ideal S1024x1024 .f32)
    (ga ba ma va : Vec Ideal S1x512 .f32) (gg bg mg vg : Vec Ideal S1x1024 .f32)
    (wt : Vec Ideal S512x1536 .bf16) (wb : Vec Ideal S1024x1536 .bf16) (p : Fin 1024) (n : Fin 1536) :
    (k1_pay1 (k1_pay2 x0 va ma ga ba) (k1_pay3 x1 vg mg gg) bg wt wb (ix2 p n) : EReal)
      = max ((∑ k : Fin 512, (((x0 (ix2 p k) : EReal) - ma (ix2 (0 : Fin 1) k)) * Ideal.rsqrt ((va (ix2 (0 : Fin 1) k) : EReal) + epsE)
                * ga (ix2 (0 : Fin 1) k) + ba (ix2 (0 : Fin 1) k)) * wt (ix2 k n))
          + (∑ k : Fin 1024, (((x1 (ix2 p k) : EReal) - mg (ix2 (0 : Fin 1) k)) * Ideal.rsqrt ((vg (ix2 (0 : Fin 1) k) : EReal) + epsE)
                * gg (ix2 (0 : Fin 1) k) + bg (ix2 (0 : Fin 1) k)) * wb (ix2 k n))) 0 := by
  rw [pay1_apply]
  simp only [normA_apply, normG_apply]

/-! ## From blocks to the array -/

theorem hz : (![0, 0] : Fin 2 → Nat) = fun _ => 0 := funext fun a => by fin_cases a <;> rfl

/-- A point of the second region's grid as a number below 8. -/
def pt8 (t : Fin cfg1.N) : Fin 8 := ⟨t.val, lt_of_lt_of_eq t.isLt Gen.N_1⟩

/-- The printed index maps, decided over the grid's eight points: the two row-blocked inputs and the output are at
    block row `t`, block column 0; every other window is whole, at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = t.val
    ∧ win1_12.index t (1 : Fin 2) = 0 :=
  (by decide +kernel : ∀ t : Fin grid1.N, _)

/-- Input window 0's block at point `t` is rows `1024 t … 1024 t + 1023` of its array. -/
theorem blk0_apply (V : (c : Dev nD) → (b : Ref sig .tc) → Buf (Elt Ideal) ((c : Thread nD τ).loc b)) (c : Dev nD) (t : Fin cfg1.N) (p : Fin 1024) (k : Fin 512) :
    (Gen.iblk1 V c 0 t : Vec Ideal S1024x512 .f32) (ix2 p k)
      = (V c (Pipeline.arrRef spec1 0) : S8192x512.Idx → EReal) (ix2 (rowOf8 (pt8 t) p) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 0) (((cfg1.win 0).blk t).view.emb (ix2 p k)) = V c (Pipeline.arrRef spec1 0) _
  congr 1
  funext a
  apply Fin.ext
  match a with
  | ⟨0, _⟩ => show win1_0.index t (0 : Fin 2) * 1024 + 1 * p.val = 1024 * t.val + p.val; rw [e0_0]; omega
  | ⟨1, _⟩ => show win1_0.index t (1 : Fin 2) * 512 + 1 * k.val = k.val; rw [e0_1]; omega

/-- Input window 1's block at point `t` is rows `1024 t … 1024 t + 1023` of its array. -/
theorem blk1_apply (V : (c : Dev nD) → (b : Ref sig .tc) → Buf (Elt Ideal) ((c : Thread nD τ).loc b)) (c : Dev nD) (t : Fin cfg1.N) (p : Fin 1024) (k : Fin 1024) :
    (Gen.iblk1 V c 1 t : Vec Ideal S1024x1024 .f32) (ix2 p k)
      = (V c (Pipeline.arrRef spec1 1) : S8192x1024.Idx → EReal) (ix2 (rowOf8 (pt8 t) p) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 1) (((cfg1.win 1).blk t).view.emb (ix2 p k)) = V c (Pipeline.arrRef spec1 1) _
  congr 1
  funext a
  apply Fin.ext
  match a with
  | ⟨0, _⟩ => show win1_1.index t (0 : Fin 2) * 1024 + 1 * p.val = 1024 * t.val + p.val; rw [e1_0]; omega
  | ⟨1, _⟩ => show win1_1.index t (1 : Fin 2) * 1024 + 1 * k.val = k.val; rw [e1_1]; omega

/-- Input window 2 is whole: its block at every point is its array. -/
theorem blk2_apply (V : (c : Dev nD) → (b : Ref sig .tc) → Buf (Elt Ideal) ((c : Thread nD τ).loc b)) (c : Dev nD) (t : Fin cfg1.N) (p : Fin 1) (k : Fin 512) :
    (Gen.iblk1 V c 2 t : Vec Ideal S1x512 .f32) (ix2 p k)
      = (V c (Pipeline.arrRef spec1 2) : S1x512.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 2) (((cfg1.win 2).blk t).view.emb (ix2 p k)) = V c (Pipeline.arrRef spec1 2) _
  congr 1
  funext a
  apply Fin.ext
  match a with
  | ⟨0, _⟩ => show win1_2.index t (0 : Fin 2) * 1 + 1 * p.val = p.val; rw [e2_0]; omega
  | ⟨1, _⟩ => show win1_2.index t (1 : Fin 2) * 512 + 1 * k.val = k.val; rw [e2_1]; omega

/-- Input window 3 is whole: its block at every point is its array. -/
theorem blk3_apply (V : (c : Dev nD) → (b : Ref sig .tc) → Buf (Elt Ideal) ((c : Thread nD τ).loc b)) (c : Dev nD) (t : Fin cfg1.N) (p : Fin 1) (k : Fin 512) :
    (Gen.iblk1 V c 3 t : Vec Ideal S1x512 .f32) (ix2 p k)
      = (V c (Pipeline.arrRef spec1 3) : S1x512.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 3) (((cfg1.win 3).blk t).view.emb (ix2 p k)) = V c (Pipeline.arrRef spec1 3) _
  congr 1
  funext a
  apply Fin.ext
  match a with
  | ⟨0, _⟩ => show win1_3.index t (0 : Fin 2) * 1 + 1 * p.val = p.val; rw [e3_0]; omega
  | ⟨1, _⟩ => show win1_3.index t (1 : Fin 2) * 512 + 1 * k.val = k.val; rw [e3_1]; omega

/-- Input window 4 is whole: its block at every point is its array. -/
theorem blk4_apply (V : (c : Dev nD) → (b : Ref sig .tc) → Buf (Elt Ideal) ((c : Thread nD τ).loc b)) (c : Dev nD) (t : Fin cfg1.N) (p : Fin 1) (k : Fin 512) :
    (Gen.iblk1 V c 4 t : Vec Ideal S1x512 .f32) (ix2 p k)
      = (V c (Pipeline.arrRef spec1 4) : S1x512.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 4) (((cfg1.win 4).blk t).view.emb (ix2 p k)) = V c (Pipeline.arrRef spec1 4) _
  congr 1
  funext a
  apply Fin.ext
  match a with
  | ⟨0, _⟩ => show win1_4.index t (0 : Fin 2) * 1 + 1 * p.val = p.val; rw [e4_0]; omega
  | ⟨1, _⟩ => show win1_4.index t (1 : Fin 2) * 512 + 1 * k.val = k.val; rw [e4_1]; omega

/-- Input window 5 is whole: its block at every point is its array. -/
theorem blk5_apply (V : (c : Dev nD) → (b : Ref sig .tc) → Buf (Elt Ideal) ((c : Thread nD τ).loc b)) (c : Dev nD) (t : Fin cfg1.N) (p : Fin 1) (k : Fin 512) :
    (Gen.iblk1 V c 5 t : Vec Ideal S1x512 .f32) (ix2 p k)
      = (V c (Pipeline.arrRef spec1 5) : S1x512.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 5) (((cfg1.win 5).blk t).view.emb (ix2 p k)) = V c (Pipeline.arrRef spec1 5) _
  congr 1
  funext a
  apply Fin.ext
  match a with
  | ⟨0, _⟩ => show win1_5.index t (0 : Fin 2) * 1 + 1 * p.val = p.val; rw [e5_0]; omega
  | ⟨1, _⟩ => show win1_5.index t (1 : Fin 2) * 512 + 1 * k.val = k.val; rw [e5_1]; omega

/-- Input window 6 is whole: its block at every point is its array. -/
theorem blk6_apply (V : (c : Dev nD) → (b : Ref sig .tc) → Buf (Elt Ideal) ((c : Thread nD τ).loc b)) (c : Dev nD) (t : Fin cfg1.N) (p : Fin 1) (k : Fin 1024) :
    (Gen.iblk1 V c 6 t : Vec Ideal S1x1024 .f32) (ix2 p k)
      = (V c (Pipeline.arrRef spec1 6) : S1x1024.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 6) (((cfg1.win 6).blk t).view.emb (ix2 p k)) = V c (Pipeline.arrRef spec1 6) _
  congr 1
  funext a
  apply Fin.ext
  match a with
  | ⟨0, _⟩ => show win1_6.index t (0 : Fin 2) * 1 + 1 * p.val = p.val; rw [e6_0]; omega
  | ⟨1, _⟩ => show win1_6.index t (1 : Fin 2) * 1024 + 1 * k.val = k.val; rw [e6_1]; omega

/-- Input window 7 is whole: its block at every point is its array. -/
theorem blk7_apply (V : (c : Dev nD) → (b : Ref sig .tc) → Buf (Elt Ideal) ((c : Thread nD τ).loc b)) (c : Dev nD) (t : Fin cfg1.N) (p : Fin 1) (k : Fin 1024) :
    (Gen.iblk1 V c 7 t : Vec Ideal S1x1024 .f32) (ix2 p k)
      = (V c (Pipeline.arrRef spec1 7) : S1x1024.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 7) (((cfg1.win 7).blk t).view.emb (ix2 p k)) = V c (Pipeline.arrRef spec1 7) _
  congr 1
  funext a
  apply Fin.ext
  match a with
  | ⟨0, _⟩ => show win1_7.index t (0 : Fin 2) * 1 + 1 * p.val = p.val; rw [e7_0]; omega
  | ⟨1, _⟩ => show win1_7.index t (1 : Fin 2) * 1024 + 1 * k.val = k.val; rw [e7_1]; omega

/-- Input window 8 is whole: its block at every point is its array. -/
theorem blk8_apply (V : (c : Dev nD) → (b : Ref sig .tc) → Buf (Elt Ideal) ((c : Thread nD τ).loc b)) (c : Dev nD) (t : Fin cfg1.N) (p : Fin 1) (k : Fin 1024) :
    (Gen.iblk1 V c 8 t : Vec Ideal S1x1024 .f32) (ix2 p k)
      = (V c (Pipeline.arrRef spec1 8) : S1x1024.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 8) (((cfg1.win 8).blk t).view.emb (ix2 p k)) = V c (Pipeline.arrRef spec1 8) _
  congr 1
  funext a
  apply Fin.ext
  match a with
  | ⟨0, _⟩ => show win1_8.index t (0 : Fin 2) * 1 + 1 * p.val = p.val; rw [e8_0]; omega
  | ⟨1, _⟩ => show win1_8.index t (1 : Fin 2) * 1024 + 1 * k.val = k.val; rw [e8_1]; omega

/-- Input window 9 is whole: its block at every point is its array. -/
theorem blk9_apply (V : (c : Dev nD) → (b : Ref sig .tc) → Buf (Elt Ideal) ((c : Thread nD τ).loc b)) (c : Dev nD) (t : Fin cfg1.N) (p : Fin 1) (k : Fin 1024) :
    (Gen.iblk1 V c 9 t : Vec Ideal S1x1024 .f32) (ix2 p k)
      = (V c (Pipeline.arrRef spec1 9) : S1x1024.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 9) (((cfg1.win 9).blk t).view.emb (ix2 p k)) = V c (Pipeline.arrRef spec1 9) _
  congr 1
  funext a
  apply Fin.ext
  match a with
  | ⟨0, _⟩ => show win1_9.index t (0 : Fin 2) * 1 + 1 * p.val = p.val; rw [e9_0]; omega
  | ⟨1, _⟩ => show win1_9.index t (1 : Fin 2) * 1024 + 1 * k.val = k.val; rw [e9_1]; omega

/-- Input window 10 is whole: its block at every point is its array. -/
theorem blk10_apply (V : (c : Dev nD) → (b : Ref sig .tc) → Buf (Elt Ideal) ((c : Thread nD τ).loc b)) (c : Dev nD) (t : Fin cfg1.N) (p : Fin 512) (k : Fin 1536) :
    (Gen.iblk1 V c 10 t : Vec Ideal S512x1536 .bf16) (ix2 p k)
      = (V c (Pipeline.arrRef spec1 10) : S512x1536.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 10) (((cfg1.win 10).blk t).view.emb (ix2 p k)) = V c (Pipeline.arrRef spec1 10) _
  congr 1
  funext a
  apply Fin.ext
  match a with
  | ⟨0, _⟩ => show win1_10.index t (0 : Fin 2) * 512 + 1 * p.val = p.val; rw [e10_0]; omega
  | ⟨1, _⟩ => show win1_10.index t (1 : Fin 2) * 1536 + 1 * k.val = k.val; rw [e10_1]; omega

/-- Input window 11 is whole: its block at every point is its array. -/
theorem blk11_apply (V : (c : Dev nD) → (b : Ref sig .tc) → Buf (Elt Ideal) ((c : Thread nD τ).loc b)) (c : Dev nD) (t : Fin cfg1.N) (p : Fin 1024) (k : Fin 1536) :
    (Gen.iblk1 V c 11 t : Vec Ideal S1024x1536 .bf16) (ix2 p k)
      = (V c (Pipeline.arrRef spec1 11) : S1024x1536.Idx → EReal) (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c (Pipeline.arrRef spec1 11) (((cfg1.win 11).blk t).view.emb (ix2 p k)) = V c (Pipeline.arrRef spec1 11) _
  congr 1
  funext a
  apply Fin.ext
  match a with
  | ⟨0, _⟩ => show win1_11.index t (0 : Fin 2) * 1024 + 1 * p.val = p.val; rw [e11_0]; omega
  | ⟨1, _⟩ => show win1_11.index t (1 : Fin 2) * 1536 + 1 * k.val = k.val; rw [e11_1]; omega

set_option maxHeartbeats 4000000 in
/-- WHAT POINT `t` WRITES BACK is block `t` of the last layer of the whole arrays: the payload of the loaded blocks,
    each block read where the output's rows say (rows `1024 t + p` of the two feature arrays, the parameter rows
    and the weights whole). -/
theorem flushed_eq (V : (c : Dev nD) → (b : Ref sig .tc) → Buf (Elt Ideal) ((c : Thread nD τ).loc b)) (c : Dev nD)
    (mu var gam bet : Fin 1536 → EReal) (W1 : Fin 1536 → Fin 1536 → EReal)
    (hga : ∀ k : Fin 512, (V c (Pipeline.arrRef spec1 2) : S1x512.Idx → EReal) (ix2 0 k) = gam (lo3 k))
    (hba : ∀ k : Fin 512, (V c (Pipeline.arrRef spec1 3) : S1x512.Idx → EReal) (ix2 0 k) = bet (lo3 k))
    (hma : ∀ k : Fin 512, (V c (Pipeline.arrRef spec1 4) : S1x512.Idx → EReal) (ix2 0 k) = mu (lo3 k))
    (hva : ∀ k : Fin 512, (V c (Pipeline.arrRef spec1 5) : S1x512.Idx → EReal) (ix2 0 k) = var (lo3 k))
    (hgg : ∀ k : Fin 1024, (V c (Pipeline.arrRef spec1 6) : S1x1024.Idx → EReal) (ix2 0 k) = gam (hi3 k))
    (hbg : ∀ k : Fin 1024, (V c (Pipeline.arrRef spec1 7) : S1x1024.Idx → EReal) (ix2 0 k) = bet (hi3 k))
    (hmg : ∀ k : Fin 1024, (V c (Pipeline.arrRef spec1 8) : S1x1024.Idx → EReal) (ix2 0 k) = mu (hi3 k))
    (hvg : ∀ k : Fin 1024, (V c (Pipeline.arrRef spec1 9) : S1x1024.Idx → EReal) (ix2 0 k) = var (hi3 k))
    (hwt : ∀ (k : Fin 512) (n : Fin 1536), (V c (Pipeline.arrRef spec1 10) : S512x1536.Idx → EReal) (ix2 k n) = W1 (lo3 k) n)
    (hwb : ∀ (k : Fin 1024) (n : Fin 1536), (V c (Pipeline.arrRef spec1 11) : S1024x1536.Idx → EReal) (ix2 k n) = W1 (hi3 k) n) (t : Fin cfg1.N) :
    (Gen.dat1 V c).flushed 12 t = ((cfg1.win 12).blk t).view.read (Elt Ideal)
      (arr2 (kOut (cur2 (V c (Pipeline.arrRef spec1 0) : S8192x512.Idx → EReal)) (cur2 (V c (Pipeline.arrRef spec1 1) : S8192x1024.Idx → EReal)) mu var gam bet W1)) := by
  show (cfg1.win 12).cut (grid1.coords t) ((Gen.dat1 V c).after 12 t) = _
  rw [Gen.after1_12]
  unfold Gen.out1_12
  rw [View.canon_unit_zero hz]
  simp only [View.ld_unit_zero (S := S1024x512) hz, View.ld_unit_zero (S := S1024x1024) hz, View.ld_unit_zero (S := S1x512) hz,
    View.ld_unit_zero (S := S1x1024) hz, View.ld_unit_zero (S := S512x1536) hz, View.ld_unit_zero (S := S1024x1536) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine funext fun (j : S1024x1536.Idx) => ?_
  obtain ⟨p, n, rfl⟩ : ∃ (p : Fin 1024) (n : Fin 1536), j = ix2 p n := ⟨j 0, j 1, eq_ix2 j⟩
  show k1_pay1 (k1_pay2 (Gen.iblk1 V c 0 t) (Gen.iblk1 V c 5 t) (Gen.iblk1 V c 4 t) (Gen.iblk1 V c 2 t) (Gen.iblk1 V c 3 t)) (k1_pay3 (Gen.iblk1 V c 1 t) (Gen.iblk1 V c 9 t) (Gen.iblk1 V c 8 t) (Gen.iblk1 V c 6 t)) (Gen.iblk1 V c 7 t) (Gen.iblk1 V c 10 t) (Gen.iblk1 V c 11 t) (ix2 p n)
    = (arr2 (kOut (cur2 (V c (Pipeline.arrRef spec1 0) : S8192x512.Idx → EReal)) (cur2 (V c (Pipeline.arrRef spec1 1) : S8192x1024.Idx → EReal)) mu var gam bet W1)) (((cfg1.win 12).blk t).view.emb (ix2 p n))
  refine (pay_apply (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 7 t) (Gen.iblk1 V c 8 t) (Gen.iblk1 V c 9 t) (Gen.iblk1 V c 10 t) (Gen.iblk1 V c 11 t) p n).trans ?_
  have hemb : ((cfg1.win 12).blk t).view.emb (ix2 p n) = (ix2 (rowOf8 (pt8 t) p) n : S8192x1536.Idx) := by
    funext a
    apply Fin.ext
    match a with
    | ⟨0, _⟩ => show win1_12.index t (0 : Fin 2) * 1024 + 1 * p.val = 1024 * t.val + p.val; rw [e12_0]; omega
    | ⟨1, _⟩ => show win1_12.index t (1 : Fin 2) * 1536 + 1 * n.val = n.val; rw [e12_1]; omega
  rw [hemb]
  simp only [blk0_apply V c t, blk1_apply V c t, blk2_apply V c t, blk3_apply V c t, blk4_apply V c t, blk5_apply V c t,
    blk6_apply V c t, blk7_apply V c t, blk8_apply V c t, blk9_apply V c t, blk10_apply V c t, blk11_apply V c t,
    hga, hba, hma, hva, hgg, hbg, hmg, hvg, hwt, hwb]
  rfl

/-- An index of the output array is in point `t`'s block iff each coordinate is in the block's range on its axis. -/
theorem mem_blk (t : Fin cfg1.N) (i : S8192x1536.Idx) :
    i ∈ ((cfg1.win 12).blk t).view.set ↔ ∀ a : Fin 2, win1_12.index t a * S1024x1536.size a ≤ (i a).val ∧ (i a).val < win1_12.index t a * S1024x1536.size a + S1024x1536.size a := by
  show i ∈ ((View.whole main_v47).slice (win1_12.rect t)).set ↔ _
  rw [View.set_slice_whole, Rect.mem_set_unit]
  exact Iff.rfl

/-- The eight blocks of 1024 rows cover the output array: row `r` is in the block of point `r / 1024`. -/
theorem cover (i : S8192x1536.Idx) : ∃ t : Fin cfg1.N, (cfg1.win 12).flush t = true ∧ i ∈ ((cfg1.win 12).blk t).view.set := by
  have hi0 : (i 0).val < 8192 := (i 0).isLt
  have hi1 : (i 1).val < 1536 := (i 1).isLt
  have hN : cfg1.N = 8 := Gen.N_1
  obtain ⟨t, ht⟩ : ∃ t : Fin cfg1.N, t.val = (i 0).val / 1024 := ⟨⟨(i 0).val / 1024, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  refine ⟨t, Gen.flush1_12 t, ?_⟩
  rw [mem_blk]
  intro a
  match a with
  | ⟨0, _⟩ => show win1_12.index t (0 : Fin 2) * 1024 ≤ (i 0).val ∧ (i 0).val < win1_12.index t (0 : Fin 2) * 1024 + 1024; rw [e12_0]; omega
  | ⟨1, _⟩ => show win1_12.index t (1 : Fin 2) * 1536 ≤ (i 1).val ∧ (i 1).val < win1_12.index t (1 : Fin 2) * 1536 + 1536; rw [e12_1]; omega

/-- THE OUTPUT ARRAY after the second region: the last layer of the two feature arrays as the region finds them, with
    the batch-norm parameters and the weights read off the region's parameter arrays. -/
theorem arr12 (V : (c : Dev nD) → (b : Ref sig .tc) → Buf (Elt Ideal) ((c : Thread nD τ).loc b)) (c : Dev nD)
    (mu var gam bet : Fin 1536 → EReal) (W1 : Fin 1536 → Fin 1536 → EReal)
    (hga : ∀ k : Fin 512, (V c (Pipeline.arrRef spec1 2) : S1x512.Idx → EReal) (ix2 0 k) = gam (lo3 k))
    (hba : ∀ k : Fin 512, (V c (Pipeline.arrRef spec1 3) : S1x512.Idx → EReal) (ix2 0 k) = bet (lo3 k))
    (hma : ∀ k : Fin 512, (V c (Pipeline.arrRef spec1 4) : S1x512.Idx → EReal) (ix2 0 k) = mu (lo3 k))
    (hva : ∀ k : Fin 512, (V c (Pipeline.arrRef spec1 5) : S1x512.Idx → EReal) (ix2 0 k) = var (lo3 k))
    (hgg : ∀ k : Fin 1024, (V c (Pipeline.arrRef spec1 6) : S1x1024.Idx → EReal) (ix2 0 k) = gam (hi3 k))
    (hbg : ∀ k : Fin 1024, (V c (Pipeline.arrRef spec1 7) : S1x1024.Idx → EReal) (ix2 0 k) = bet (hi3 k))
    (hmg : ∀ k : Fin 1024, (V c (Pipeline.arrRef spec1 8) : S1x1024.Idx → EReal) (ix2 0 k) = mu (hi3 k))
    (hvg : ∀ k : Fin 1024, (V c (Pipeline.arrRef spec1 9) : S1x1024.Idx → EReal) (ix2 0 k) = var (hi3 k))
    (hwt : ∀ (k : Fin 512) (n : Fin 1536), (V c (Pipeline.arrRef spec1 10) : S512x1536.Idx → EReal) (ix2 k n) = W1 (lo3 k) n)
    (hwb : ∀ (k : Fin 1024) (n : Fin 1536), (V c (Pipeline.arrRef spec1 11) : S1024x1536.Idx → EReal) (ix2 k n) = W1 (hi3 k) n) :
    ((Gen.dat1 V c).arrAt 12 cfg1.N : S8192x1536.Idx → EReal)
      = arr2 (kOut (cur2 (V c (Pipeline.arrRef spec1 0) : S8192x512.Idx → EReal)) (cur2 (V c (Pipeline.arrRef spec1 1) : S8192x1024.Idx → EReal)) mu var gam bet W1) :=
  (Gen.dat1 V c).arrAt_eq_of_cover 12 (arr2 (kOut (cur2 (V c (Pipeline.arrRef spec1 0) : S8192x512.Idx → EReal)) (cur2 (V c (Pipeline.arrRef spec1 1) : S8192x1024.Idx → EReal)) mu var gam bet W1))
    (fun t _ => flushed_eq V c mu var gam bet W1 hga hba hma hva hgg hbg hmg hvg hwt hwb t) cover

end Cert.KernelIdeal.K1Arr

end
-- ==== Proof.KSideOut.lean ====
/-
  The second region's array as the mathematics of Spec.lean: its input windows hold the first region's mean and
  relu arrays, the column means and variances the host operations made from the partial sums, and the slices of
  the batch-norm parameters and of the last weights.
-/
import proofs.«116837_j75015898792523_2_alg».proof.Proof.KSide
import proofs.«116837_j75015898792523_2_alg».proof.Proof.K1Arr

noncomputable section

namespace Cert.KernelIdeal.KSide

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-- The last layer's array. -/
theorem out_val : ((dat1 (V3 m ρ) c).arrAt 12 cfg1.N : S8192x1536.Idx → EReal)
    = arr2 (kOut (kAgg (NF m c)) (kGen (SF m c) (NF m c) (Wt m c) (Wb m c))
        (kMu (kPartSum (kAgg (NF m c)) (kGen (SF m c) (NF m c) (Wt m c) (Wb m c))))
        (kVar (kPartSum (kAgg (NF m c)) (kGen (SF m c) (NF m c) (Wt m c) (Wb m c)))
          (kPartSq (kAgg (NF m c)) (kGen (SF m c) (NF m c) (Wt m c) (Wb m c))))
        (gam m c) (bet m c) (W1 m c)) := by
  have h := K1Arr.arr12 (V3 m ρ) c
    (kMu (kPartSum (kAgg (NF m c)) (kGen (SF m c) (NF m c) (Wt m c) (Wb m c))))
    (kVar (kPartSum (kAgg (NF m c)) (kGen (SF m c) (NF m c) (Wt m c) (Wb m c)))
      (kPartSq (kAgg (NF m c)) (kGen (SF m c) (NF m c) (Wt m c) (Wb m c))))
    (gam m c) (bet m c) (W1 m c)
    (fun k => KHost.V3_gamA m ρ c k) (fun k => KHost.V3_betA m ρ c k)
    (fun k => by rw [KHost.V3_muA m ρ c k, ps_eq m ρ c])
    (fun k => by rw [KHost.V3_varA m ρ c k, ps_eq m ρ c, pq_eq m ρ c])
    (fun k => KHost.V3_gamG m ρ c k) (fun k => KHost.V3_betG m ρ c k)
    (fun k => by rw [KHost.V3_muG m ρ c k, ps_eq m ρ c])
    (fun k => by rw [KHost.V3_varG m ρ c k, ps_eq m ρ c, pq_eq m ρ c])
    (fun k n => KHost.V3_wtop m ρ c k n) (fun k n => KHost.V3_wbot m ρ c k n)
  rw [h, KHost.V3_agg m ρ c, KHost.V3_gen m ρ c, agg_val m ρ c, gen_val m ρ c]
  rfl

end Cert.KernelIdeal.KSide

end
-- ==== Proof.RefTerms.lean ====
/-
  The reference's result arrays as terms of its argument arrays: its host operations composed, one definition
  per stage (the two gathers of table rows, the neighbour mean, the generator layer, the environment branch,
  the batch statistics, the normalisation and the last layer).
-/
import proofs.«116837_j75015898792523_2_alg».proof.Proof.Gen.ReferenceIdeal

noncomputable section

namespace Cert.ReferenceIdeal.Terms

open Cert.ReferenceIdeal Cert.ReferenceIdeal.Gen Idealize.ShloMosaic

variable {F : FTy → Type} [FloatOps F]

/-- The contents of a buffer of shape `S` and element type `e`. -/
abbrev Ct (F : FTy → Type) (S : Shape) (e : EltTy) := (⟨S, e⟩ : BufTy).Contents (Elt F)

/-- Row numbers made non-negative (a negative one counts from the end), as a column. -/
def selfIdx (n : (Ct F S8192 .i32)) : (Ct F S8192x1 .i32) :=
  broadcastInDim S8192x1 ![0] bcast_S8192_S8192x1_0
    (select (cmpi .slt n (broadcastInDim S8192 ![] bcast_S_S8192 (constantI S_ 32 0#32)))
      (addi n (broadcastInDim S8192 ![] bcast_S_S8192 (constantI S_ 32 100000#32))) n)

/-- The table rows of the batch's own nodes. -/
def selfF (T : (Ct F S100000x512 .f32)) (n : (Ct F S8192 .i32)) : (Ct F S8192x512 .f32) :=
  Host.gather gather_S100000x512_S8192x1_S8192x512_1_0_n_n_0_1_1512 T (selfIdx n)

def neighIdx (n : (Ct F S8192x32 .i32)) : (Ct F S8192x32x1 .i32) :=
  broadcastInDim S8192x32x1 ![0, 1] bcast_S8192x32_S8192x32x1_0_1
    (select (cmpi .slt n (broadcastInDim S8192x32 ![] bcast_S_S8192x32 (constantI S_ 32 0#32)))
      (addi n (broadcastInDim S8192x32 ![] bcast_S_S8192x32 (constantI S_ 32 100000#32))) n)

/-- The table rows of each node's 32 sampled neighbours. -/
def neighF (T : (Ct F S100000x512 .f32)) (n : (Ct F S8192x32 .i32)) : (Ct F S8192x32x512 .f32) :=
  Host.gather gather_S100000x512_S8192x32x1_S8192x32x512_2_0_n_n_0_2_1512 T (neighIdx n)

/-- The mean over the 32 neighbours. -/
def agg (NF : (Ct F S8192x32x512 .f32)) : (Ct F S8192x512 .f32) :=
  Host.divf (Host.reduceAdd NF (constant S_ .f32 0x00000000#32) reducesTo_S8192x32x512_S8192x512_d1 h_S_)
    (broadcastInDim S8192x512 ![] bcast_S_S8192x512 (constant S_ .f32 0x42000000#32))

def cat (X Y : (Ct F S8192x512 .f32)) : (Ct F S8192x1024 .f32) :=
  concatenate S8192x1024 1 [⟨S8192x512, X⟩, ⟨S8192x512, Y⟩] concatenates_S8192x512_S8192x512_S8192x1024_d1

def dotG (X : (Ct F S8192x1024 .f32)) (W : (Ct F S1024x1024 .f32)) : (Ct F S8192x1024 .f32) :=
  Host.dotGeneral dot_S8192x1024_S1024x1024_S8192x1024_1_0_0_1_n_n none X W

def relu (X : (Ct F S8192x1024 .f32)) : (Ct F S8192x1024 .f32) :=
  maximumf X (broadcastInDim S8192x1024 ![] bcast_S_S8192x1024 (constant S_ .f32 0x00000000#32))

def raw (SF : (Ct F S8192x512 .f32)) (NF : (Ct F S8192x32x512 .f32)) (W : (Ct F S1024x1024 .f32)) : (Ct F S8192x1024 .f32) :=
  dotG (cat SF (agg NF)) W

/-- The mean over neighbours 1 … 31 (the self column left out). -/
def envAgg (NF : (Ct F S8192x32x512 .f32)) : (Ct F S8192x512 .f32) :=
  Host.divf (Host.reduceAdd (extractStridedSlice S8192x31x512 ![0, 1, 0] NF slices_S8192x32x512_S8192x31x512_0_1_0)
      (constant S_ .f32 0x00000000#32) reducesTo_S8192x31x512_S8192x512_d1 h_S_)
    (broadcastInDim S8192x512 ![] bcast_S_S8192x512 (constant S_ .f32 0x41F80000#32))

def zeros : (Ct F S8192x512 .f32) := broadcastInDim S8192x512 ![] bcast_S_S8192x512 (constant S_ .f32 0x00000000#32)

def envRaw (NF : (Ct F S8192x32x512 .f32)) (W : (Ct F S1024x1024 .f32)) : (Ct F S8192x1024 .f32) :=
  dotG (cat zeros (envAgg NF)) W

def feats (A : (Ct F S8192x512 .f32)) (G : (Ct F S8192x1024 .f32)) : (Ct F S8192x1536 .f32) :=
  concatenate S8192x1536 1 [⟨S8192x512, A⟩, ⟨S8192x1024, G⟩] concatenates_S8192x512_S8192x1024_S8192x1536_d1

def colSum (X : (Ct F S8192x1536 .f32)) : (Ct F S1536 .f32) :=
  Host.reduceAdd X (constant S_ .f32 0x00000000#32) reducesTo_S8192x1536_S1536_d0 h_S_

def mean (X : (Ct F S8192x1536 .f32)) : (Ct F S1536 .f32) :=
  Host.divf (colSum X) (broadcastInDim S1536 ![] bcast_S_S1536 (constant S_ .f32 0x46000000#32))

/-- The count the variance divides by: 8192 minus the (zero) degrees-of-freedom correction. -/
def cnt : (Ct F S_ .f32) := subf (constant S_ .f32 0x46000000#32) (sitofp .f32 (constantI S_ 32 0#32))

/-- jnp.var: the mean of the squared deviations, guarded by "the count is positive". -/
def var (X : (Ct F S8192x1536 .f32)) : (Ct F S1536 .f32) :=
  select (broadcastInDim S1536 ![] bcast_S_S1536 (cmpf .ogt (cnt (F := F)) (constant (F := F) S_ .f32 0x00000000#32)))
    (Host.divf
      (Host.reduceAdd
        (mulf
          (subf X (broadcastInDim S8192x1536 ![0, 1] bcast_S1x1536_S8192x1536_0_1
            (Host.divf (broadcastInDim S1x1536 ![1] bcast_S1536_S1x1536_1 (colSum X))
              (broadcastInDim S1x1536 ![] bcast_S_S1x1536 (constant S_ .f32 0x46000000#32)))))
          (subf X (broadcastInDim S8192x1536 ![0, 1] bcast_S1x1536_S8192x1536_0_1
            (Host.divf (broadcastInDim S1x1536 ![1] bcast_S1536_S1x1536_1 (colSum X))
              (broadcastInDim S1x1536 ![] bcast_S_S1x1536 (constant S_ .f32 0x46000000#32))))))
        (constant S_ .f32 0x00000000#32) reducesTo_S8192x1536_S1536_d0 h_S_)
      (broadcastInDim S1536 ![] bcast_S_S1536 (cnt (F := F))))
    (broadcastInDim S1536 ![] bcast_S_S1536 (id (constant (F := F) S_ .f32 0x7FC00000#32)))

/-- A row vector repeated down the 8192 rows. -/
def rows (v : (Ct F S1536 .f32)) : (Ct F S8192x1536 .f32) :=
  broadcastInDim S8192x1536 ![0, 1] bcast_S1x1536_S8192x1536_0_1 (broadcastInDim S1x1536 ![1] bcast_S1536_S1x1536_1 v)

def normed (X : (Ct F S8192x1536 .f32)) (gam bet : (Ct F S1536 .f32)) : (Ct F S8192x1536 .f32) :=
  addf (mulf (mulf (subf X (rows (mean X)))
      (rows (Host.rsqrt (addf (var X) (broadcastInDim S1536 ![] bcast_S_S1536 (constant S_ .f32 0x3727C5AC#32))))))
    (rows gam)) (rows bet)

def out (X : (Ct F S8192x1536 .f32)) (gam bet : (Ct F S1536 .f32)) (W1 : (Ct F S1536x1536 .f32)) : (Ct F S8192x1536 .f32) :=
  maximumf (Host.dotGeneral dot_S8192x1536_S1536x1536_S8192x1536_1_0_0_1_n_n none (normed X gam bet) W1)
    (broadcastInDim S8192x1536 ![] bcast_S_S8192x1536 (constant S_ .f32 0x00000000#32))

end Cert.ReferenceIdeal.Terms

end
-- ==== Proof.RefRead.lean ====
/-
  The reference's stages read at an index, at the ideal values: each result array of the reference, a composition of
  host operations, equals the array of the corresponding function of coordinates (a reduction is the initial value plus
  the sum over the reduced axis, a quotient is the ideal division, a concatenation reads the left or the right piece,
  a product with the weights is the sum over the contracted coordinate, a broadcast scalar reads the scalar).
-/
import proofs.«116837_j75015898792523_2_alg».proof.Proof.RefTerms
import proofs.«116837_j75015898792523_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Gen Cert.Spec

/-- Every rank-2 index is the pair of its coordinates. -/
theorem exists_ix2 {n0 n1 : Nat} (j : (⟨2, ![n0, n1]⟩ : Shape).Idx) : ∃ (a : Fin n0) (b : Fin n1), j = ix2 a b :=
  ⟨j 0, j 1, eq_ix2 j⟩

theorem exists_ix1 {n0 : Nat} (j : (⟨1, ![n0]⟩ : Shape).Idx) : ∃ (a : Fin n0), j = ix1 a :=
  ⟨j 0, eq_ix1 j⟩

/-- A scalar constant broadcast to any shape reads the constant's value. -/
theorem bcast_const {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

theorem reduces_32 : S8192x32x512.Reduces [1] S8192x512 := by decide

/-- The sum over the 32 neighbours, read at (b, f). -/
theorem sum32_read (NF : Terms.Ct Ideal S8192x32x512 .f32) (b : Fin 8192) (f : Fin 512) :
    Host.reduceAdd (F := Ideal) NF (constant S_ .f32 0x00000000#32) reducesTo_S8192x32x512_S8192x512_d1 h_S_ (ix2 b f)
      = 0 + ∑ k : Fin 32, NF (ix3 b k f) := by
  refine (Ideal.hostReduceAdd_single reducesTo_S8192x32x512_S8192x512_d1 reduces_32 NF _ (ix2 b f)).trans ?_
  refine congrArg₂ (· + ·) Ideal.ofBits_zero_f32 ?_
  refine Finset.sum_congr rfl fun k _ => congrArg NF ?_
  funext c
  match c with
  | ⟨0, _⟩ => exact Fin.ext rfl
  | ⟨1, _⟩ => exact Fin.ext rfl
  | ⟨2, _⟩ => exact Fin.ext rfl

theorem ofBits_32 : Ideal.ofBits .f32 0x42000000#32 = ((32 : ℝ) : EReal) := by
  simp [Ideal.ofBits, Ideal.ieee, -EReal.coe_mul]; norm_num

theorem agg_read (NF : Terms.Ct Ideal S8192x32x512 .f32) :
    (Terms.agg (F := Ideal) NF : S8192x512.Idx → EReal) = arr2 (rAgg (cur3 NF)) := by
  funext i
  obtain ⟨b, f, rfl⟩ := exists_ix2 i
  show Ideal.div _ _ = Ideal.div _ _
  refine congrArg₂ Ideal.div (sum32_read NF b f) ((bcast_const _ _ _).trans ofBits_32)

theorem relu_read (X : Terms.Ct Ideal S8192x1024 .f32) :
    (Terms.relu (F := Ideal) X : S8192x1024.Idx → EReal) = arr2 (fun b j => max (cur2 X b j) 0) := by
  funext i
  obtain ⟨b, j, rfl⟩ := exists_ix2 i
  show max _ _ = max _ _
  refine congrArg₂ max rfl ((bcast_const _ _ _).trans Ideal.ofBits_zero_f32)

/-! ## Two arrays side by side -/

/-- Two 512-column arrays side by side, read at (b, k). -/
theorem cat_read (X Y : Terms.Ct Ideal S8192x512 .f32) (b : Fin 8192) (k : Fin 1024) :
    Terms.cat (F := Ideal) X Y (ix2 b k) = rCat (cur2 X) (cur2 Y) b k := by
  unfold rCat
  split
  · next h =>
    exact concatenate_pair_apply_left (1 : Fin 2) X Y concatenates_S8192x512_S8192x512_S8192x1024_d1 (ix2 b k) rfl
      (ix2 b ⟨k.val, h⟩) (fun c => match c with | ⟨0, _⟩ => rfl | ⟨1, _⟩ => rfl)
  · next h =>
    exact concatenate_pair_apply_right (1 : Fin 2) X Y concatenates_S8192x512_S8192x512_S8192x1024_d1 (ix2 b k) rfl rfl
      (ix2 b ⟨k.val - 512, by omega⟩)
      (fun c => match c with | ⟨0, _⟩ => fun _ => rfl | ⟨1, _⟩ => fun hc => absurd rfl hc)
      (by show k.val - 512 + 512 = k.val; omega)

/-- The features: a 512- and a 1024-column array side by side, read at (b, c). -/
theorem feats_apply (A : Terms.Ct Ideal S8192x512 .f32) (G : Terms.Ct Ideal S8192x1024 .f32) (b : Fin 8192) (c : Fin 1536) :
    Terms.feats (F := Ideal) A G (ix2 b c) = rFeats (cur2 A) (cur2 G) b c := by
  unfold rFeats
  split
  · next h =>
    exact concatenate_pair_apply_left (1 : Fin 2) A G concatenates_S8192x512_S8192x1024_S8192x1536_d1 (ix2 b c) rfl
      (ix2 b ⟨c.val, h⟩) (fun a => match a with | ⟨0, _⟩ => rfl | ⟨1, _⟩ => rfl)
  · next h =>
    exact concatenate_pair_apply_right (1 : Fin 2) A G concatenates_S8192x512_S8192x1024_S8192x1536_d1 (ix2 b c) rfl rfl
      (ix2 b ⟨c.val - 512, by omega⟩)
      (fun a => match a with | ⟨0, _⟩ => fun _ => rfl | ⟨1, _⟩ => fun hc => absurd rfl hc)
      (by show c.val - 512 + 512 = c.val; omega)

theorem feats_read (A : Terms.Ct Ideal S8192x512 .f32) (G : Terms.Ct Ideal S8192x1024 .f32) :
    cur2 (Terms.feats (F := Ideal) A G) = rFeats (cur2 A) (cur2 G) := by
  funext b c
  exact feats_apply A G b c

/-! ## The product with the generator's weights -/

local notation "dG" => dot_S8192x1024_S1024x1024_S8192x1024_1_0_0_1_n_n

/-- The 1024-long contraction, read at (b, j). -/
theorem dotG_read (X : Terms.Ct Ideal S8192x1024 .f32) (W : Terms.Ct Ideal S1024x1024 .f32) (b : Fin 8192) (j : Fin 1024) :
    Terms.dotG (F := Ideal) X W (ix2 b j) = ∑ k : Fin 1024, X (ix2 b k) * W (ix2 k j) := by
  refine (Ideal.dotGeneral_apply dG none _ X W (ix2 b j)).trans ?_
  refine (Equiv.sum_comp (contrEquiv1 dG 1024 rfl rfl).symm _).symm.trans ?_
  refine Finset.sum_congr rfl fun k _ => ?_
  refine congrArg₂ (· * ·) (congrArg X ?_) (congrArg W ?_)
  · funext c
    match c with
    | ⟨0, _⟩ => exact Fin.ext rfl
    | ⟨1, _⟩ =>
      refine Fin.ext ?_
      show (DotDims.lhsIdx dG (ix2 b j) ((contrEquiv1 dG 1024 rfl rfl).symm k) (1 : Fin 2)).val = k.val
      exact (DotDims.lhsIdx_val_of_single dG (cl := (1 : Fin 2)) rfl (ix2 b j) _).trans
        (contrEquiv1_symm_val dG 1024 rfl rfl k)
  · funext c
    match c with
    | ⟨0, _⟩ =>
      refine Fin.ext ?_
      show (DotDims.rhsIdx dG (ix2 b j) ((contrEquiv1 dG 1024 rfl rfl).symm k) (0 : Fin 2)).val = k.val
      exact (DotDims.rhsIdx_val_of_single dG (cr := (0 : Fin 2)) rfl (ix2 b j) _).trans
        (contrEquiv1_symm_val dG 1024 rfl rfl k)
    | ⟨1, _⟩ => exact Fin.ext rfl

theorem cur2_arr2 {a b : Nat} (g : Fin a → Fin b → EReal) : cur2 (arr2 g) = g := rfl

theorem raw_read (SF : Terms.Ct Ideal S8192x512 .f32) (NF : Terms.Ct Ideal S8192x32x512 .f32)
    (W : Terms.Ct Ideal S1024x1024 .f32) :
    (Terms.raw (F := Ideal) SF NF W : S8192x1024.Idx → EReal) = arr2 (rRaw (cur2 SF) (cur3 NF) (cur2 W)) := by
  funext i
  obtain ⟨b, j, rfl⟩ := exists_ix2 i
  refine (dotG_read _ W b j).trans ?_
  show _ = ∑ k : Fin 1024, rCat (cur2 SF) (rAgg (cur3 NF)) b k * cur2 W k j
  refine Finset.sum_congr rfl fun k _ => congrArg (· * W (ix2 k j)) ?_
  refine (cat_read SF (Terms.agg NF) b k).trans ?_
  exact congrArg (fun Z => rCat (cur2 SF) (cur2 Z) b k) (agg_read NF)

/-! ## The environment branch -/

theorem reduces_31 : S8192x31x512.Reduces [1] S8192x512 := by decide

/-- The sum over 31 columns, read at (b, f). -/
theorem sum31_read (Y : Terms.Ct Ideal S8192x31x512 .f32) (b : Fin 8192) (f : Fin 512) :
    Host.reduceAdd (F := Ideal) Y (constant S_ .f32 0x00000000#32) reducesTo_S8192x31x512_S8192x512_d1 h_S_ (ix2 b f)
      = 0 + ∑ k : Fin 31, Y (ix3 b k f) := by
  refine (Ideal.hostReduceAdd_single reducesTo_S8192x31x512_S8192x512_d1 reduces_31 Y _ (ix2 b f)).trans ?_
  refine congrArg₂ (· + ·) Ideal.ofBits_zero_f32 ?_
  refine Finset.sum_congr rfl fun k _ => congrArg Y ?_
  funext c
  match c with
  | ⟨0, _⟩ => exact Fin.ext rfl
  | ⟨1, _⟩ => exact Fin.ext rfl
  | ⟨2, _⟩ => exact Fin.ext rfl

theorem ofBits_31 : Ideal.ofBits .f32 0x41F80000#32 = ((31 : ℝ) : EReal) := by
  simp [Ideal.ofBits, Ideal.ieee, -EReal.coe_mul]; norm_num

/-- The mean over neighbours 1 … 31 as an array. -/
theorem envAgg_read (NF : Terms.Ct Ideal S8192x32x512 .f32) :
    (Terms.envAgg (F := Ideal) NF : S8192x512.Idx → EReal) = arr2 (rEnv (cur3 NF)) := by
  funext i
  obtain ⟨b, f, rfl⟩ := exists_ix2 i
  show Ideal.div _ _ = Ideal.div _ _
  refine congrArg₂ Ideal.div ((sum31_read _ b f).trans ?_) ((bcast_const _ _ _).trans ofBits_31)
  refine congrArg (0 + ·) (Finset.sum_congr rfl fun k _ => ?_)
  exact slice3_axis1_apply 1 NF slices_S8192x32x512_S8192x31x512_0_1_0 b k f (succ31 k) (Nat.add_comm _ _)

/-- The zero array. -/
theorem zeros_read : (Terms.zeros (F := Ideal) : S8192x512.Idx → EReal) = arr2 (fun _ _ => 0) := by
  funext i
  exact (bcast_const _ _ _).trans Ideal.ofBits_zero_f32

theorem envRaw_read (NF : Terms.Ct Ideal S8192x32x512 .f32) (W : Terms.Ct Ideal S1024x1024 .f32) :
    (Terms.envRaw (F := Ideal) NF W : S8192x1024.Idx → EReal) = arr2 (rEnvRaw (cur3 NF) (cur2 W)) := by
  funext i
  obtain ⟨b, j, rfl⟩ := exists_ix2 i
  refine (dotG_read _ W b j).trans ?_
  show _ = ∑ k : Fin 1024, rCat (fun _ _ => 0) (rEnv (cur3 NF)) b k * cur2 W k j
  refine Finset.sum_congr rfl fun k _ => congrArg (· * W (ix2 k j)) ?_
  refine (cat_read Terms.zeros (Terms.envAgg NF) b k).trans ?_
  exact congrArg₂ (fun Z Z' => rCat (cur2 Z) (cur2 Z') b k) zeros_read (envAgg_read NF)

/-! ## The batch statistics, the normalisation and the last layer -/

theorem reduces_col : S8192x1536.Reduces [0] S1536 := by decide

/-- A column sum over the 8192 rows, read at column c. -/
theorem colSum_read (Y : Terms.Ct Ideal S8192x1536 .f32) (c : Fin 1536) :
    Terms.colSum (F := Ideal) Y (ix1 c) = 0 + ∑ b : Fin 8192, Y (ix2 b c) := by
  refine (Ideal.hostReduceAdd_single reducesTo_S8192x1536_S1536_d0 reduces_col Y _ (ix1 c)).trans ?_
  refine congrArg₂ (· + ·) Ideal.ofBits_zero_f32 ?_
  refine Finset.sum_congr rfl fun k _ => congrArg Y ?_
  funext a
  match a with
  | ⟨0, _⟩ => exact Fin.ext rfl
  | ⟨1, _⟩ => exact Fin.ext rfl

theorem ofBits_8192 : Ideal.ofBits .f32 0x46000000#32 = ((8192 : ℝ) : EReal) := by
  simp [Ideal.ofBits, Ideal.ieee, -EReal.coe_mul]; norm_num

/-- The column mean. -/
theorem mean_read (X : Terms.Ct Ideal S8192x1536 .f32) (c : Fin 1536) :
    Terms.mean (F := Ideal) X (ix1 c) = rMu (cur2 X) c := by
  show Ideal.div _ _ = Ideal.div _ _
  exact congrArg₂ Ideal.div (colSum_read X c) ((bcast_const _ _ _).trans ofBits_8192)

/-- A row vector repeated down the rows reads, at (b, c), the vector at c. -/
theorem rows_read (v : Terms.Ct Ideal S1536 .f32) (b : Fin 8192) (c : Fin 1536) :
    Terms.rows (F := Ideal) v (ix2 b c) = v (ix1 c) := by
  refine (broadcastInDim_apply (s := S1x1536) (t := S8192x1536) ![0, 1] bcast_S1x1536_S8192x1536_0_1 _ (ix2 b c)
    (ix2 (0 : Fin 1) c) (fun a => match a with | ⟨0, _⟩ => rfl | ⟨1, _⟩ => rfl)).trans ?_
  exact broadcastInDim_apply (s := S1536) (t := S1x1536) ![1] bcast_S1536_S1x1536_1 v (ix2 (0 : Fin 1) c)
    (ix1 c) (fun a => match a with | ⟨0, _⟩ => rfl)

/-- The count the variance divides by is 8192. -/
theorem cnt_read : Terms.cnt (F := Ideal) ix0 = ((8192 : ℝ) : EReal) := by
  show Ideal.ofBits .f32 0x46000000#32 - ((((0#32 : BitVec 32).toInt : ℤ) : ℝ) : EReal) = _
  rw [ofBits_8192]
  simp

/-- The guard "the count is positive" holds. -/
theorem guard_read :
    FloatOps.cmpf (F := Ideal) (φ := .f32) .ogt (Terms.cnt (F := Ideal) ix0)
      (constant (F := Ideal) S_ .f32 0x00000000#32 ix0) = 1#1 := by
  show Ideal.cmp .ogt (Terms.cnt (F := Ideal) ix0) (Ideal.ofBits .f32 0x00000000#32) = 1#1
  rw [cnt_read, Ideal.ofBits_zero_f32]
  show BitVec.ofBool (decide ((0 : EReal) < ((8192 : ℝ) : EReal))) = 1#1
  rw [decide_eq_true (EReal.coe_pos.mpr (by norm_num))]
  rfl

theorem select_guard {s : Shape} (g : IVec s 1) (x y : s.Idx → EReal) (i : s.Idx) (h : g i = 1#1) :
    select g x y i = x i := by
  show Scalar.select (g i) (x i) (y i) = x i
  rw [h]
  exact select_one _ _

/-- The column mean as the variance's own text spells it (a row of means repeated down the rows). -/
theorem meanRow_read (X : Terms.Ct Ideal S8192x1536 .f32) (b : Fin 8192) (c : Fin 1536) :
    broadcastInDim S8192x1536 ![0, 1] bcast_S1x1536_S8192x1536_0_1
      (Host.divf (broadcastInDim S1x1536 ![1] bcast_S1536_S1x1536_1 (Terms.colSum (F := Ideal) X))
        (broadcastInDim S1x1536 ![] bcast_S_S1x1536 (constant (F := Ideal) S_ .f32 0x46000000#32))) (ix2 b c)
      = rMu (cur2 X) c := by
  refine (broadcastInDim_apply (s := S1x1536) (t := S8192x1536) ![0, 1] bcast_S1x1536_S8192x1536_0_1 _ (ix2 b c)
    (ix2 (0 : Fin 1) c) (fun a => match a with | ⟨0, _⟩ => rfl | ⟨1, _⟩ => rfl)).trans ?_
  show Ideal.div _ _ = Ideal.div _ _
  refine congrArg₂ Ideal.div ?_ ((bcast_const _ _ _).trans ofBits_8192)
  refine (broadcastInDim_apply (s := S1536) (t := S1x1536) ![1] bcast_S1536_S1x1536_1 _ (ix2 (0 : Fin 1) c)
    (ix1 c) (fun a => match a with | ⟨0, _⟩ => rfl)).trans ?_
  exact colSum_read X c

/-- The biased column variance. -/
theorem var_read (X : Terms.Ct Ideal S8192x1536 .f32) (c : Fin 1536) :
    Terms.var (F := Ideal) X (ix1 c) = rVar (cur2 X) c := by
  refine (select_guard _ _ _ (ix1 c) ((broadcastInDim_scalar_apply _ _ _).trans guard_read)).trans ?_
  show Ideal.div _ _ = Ideal.div _ _
  refine congrArg₂ Ideal.div ?_ ((broadcastInDim_scalar_apply _ _ _).trans cnt_read)
  refine (colSum_read _ c).trans ?_
  refine congrArg (0 + ·) (Finset.sum_congr rfl fun b _ => ?_)
  show (X (ix2 b c) - _) * (X (ix2 b c) - _) = _
  exact congrArg (fun m => (X (ix2 b c) - m) * (X (ix2 b c) - m)) (meanRow_read X b c)

/-- The normalised features. -/
theorem normed_read (X : Terms.Ct Ideal S8192x1536 .f32) (gam bet : Terms.Ct Ideal S1536 .f32) (b : Fin 8192) (c : Fin 1536) :
    Terms.normed (F := Ideal) X gam bet (ix2 b c) = rNorm (cur2 X) (cur1 gam) (cur1 bet) b c := by
  show (X (ix2 b c) - Terms.rows (Terms.mean X) (ix2 b c)) * Terms.rows _ (ix2 b c) * Terms.rows gam (ix2 b c)
    + Terms.rows bet (ix2 b c) = _
  refine congrArg₂ (· + ·) (congrArg₂ (· * ·) (congrArg₂ (· * ·) (congrArg₂ (· - ·) rfl ?_) ?_) ?_) ?_
  · exact (rows_read _ b c).trans (mean_read X c)
  · refine (rows_read _ b c).trans ?_
    show Ideal.rsqrt (Terms.var X (ix1 c) + _) = _
    exact congrArg Ideal.rsqrt (congrArg₂ (· + ·) (var_read X c) ((bcast_const _ _ _).trans rfl))
  · exact rows_read gam b c
  · exact rows_read bet b c

local notation "dO" => dot_S8192x1536_S1536x1536_S8192x1536_1_0_0_1_n_n

/-- The 1536-long contraction, read at (b, n). -/
theorem dotO_read (Y : Terms.Ct Ideal S8192x1536 .f32) (W : Terms.Ct Ideal S1536x1536 .f32) (b : Fin 8192) (n : Fin 1536) :
    Host.dotGeneral (F := Ideal) (φ₁ := .f32) (φ₂ := .f32) dO none Y W (ix2 b n) = ∑ k : Fin 1536, Y (ix2 b k) * W (ix2 k n) := by
  refine (Ideal.dotGeneral_apply dO none _ Y W (ix2 b n)).trans ?_
  refine (Equiv.sum_comp (contrEquiv1 dO 1536 rfl rfl).symm _).symm.trans ?_
  refine Finset.sum_congr rfl fun k _ => ?_
  refine congrArg₂ (· * ·) (congrArg Y ?_) (congrArg W ?_)
  · funext c
    match c with
    | ⟨0, _⟩ => exact Fin.ext rfl
    | ⟨1, _⟩ =>
      refine Fin.ext ?_
      show (DotDims.lhsIdx dO (ix2 b n) ((contrEquiv1 dO 1536 rfl rfl).symm k) (1 : Fin 2)).val = k.val
      exact (DotDims.lhsIdx_val_of_single dO (cl := (1 : Fin 2)) rfl (ix2 b n) _).trans
        (contrEquiv1_symm_val dO 1536 rfl rfl k)
  · funext c
    match c with
    | ⟨0, _⟩ =>
      refine Fin.ext ?_
      show (DotDims.rhsIdx dO (ix2 b n) ((contrEquiv1 dO 1536 rfl rfl).symm k) (0 : Fin 2)).val = k.val
      exact (DotDims.rhsIdx_val_of_single dO (cr := (0 : Fin 2)) rfl (ix2 b n) _).trans
        (contrEquiv1_symm_val dO 1536 rfl rfl k)
    | ⟨1, _⟩ => exact Fin.ext rfl

theorem out_read (X : Terms.Ct Ideal S8192x1536 .f32) (gam bet : Terms.Ct Ideal S1536 .f32)
    (W1 : Terms.Ct Ideal S1536x1536 .f32) :
    (Terms.out (F := Ideal) X gam bet W1 : S8192x1536.Idx → EReal)
      = arr2 (rOut (cur2 X) (cur1 gam) (cur1 bet) (cur2 W1)) := by
  funext i
  obtain ⟨b, n, rfl⟩ := exists_ix2 i
  show max _ _ = max _ _
  refine congrArg₂ max ?_ ((bcast_const _ _ _).trans Ideal.ofBits_zero_f32)
  refine (dotO_read _ W1 b n).trans ?_
  exact Finset.sum_congr rfl fun c _ => congrArg (· * W1 (ix2 c n)) (normed_read X gam bet b c)

/-! ## Corollaries: the stages composed -/

/-- The generator's output: the relu of its raw output. -/
theorem gen_read (SF : Terms.Ct Ideal S8192x512 .f32) (NF : Terms.Ct Ideal S8192x32x512 .f32)
    (W : Terms.Ct Ideal S1024x1024 .f32) :
    (Terms.relu (F := Ideal) (Terms.raw SF NF W) : S8192x1024.Idx → EReal)
      = arr2 (rGen (cur2 SF) (cur3 NF) (cur2 W)) :=
  (relu_read _).trans (congrArg (fun Z => arr2 (fun b j => max (cur2 Z b j) 0)) (raw_read SF NF W))

/-- The environment branch's output: the relu of its raw output. -/
theorem envGen_read (NF : Terms.Ct Ideal S8192x32x512 .f32) (W : Terms.Ct Ideal S1024x1024 .f32) :
    (Terms.relu (F := Ideal) (Terms.envRaw NF W) : S8192x1024.Idx → EReal)
      = arr2 (rEnvGen (cur3 NF) (cur2 W)) :=
  (relu_read _).trans (congrArg (fun Z => arr2 (fun b j => max (cur2 Z b j) 0)) (envRaw_read NF W))

/-- The column means, the column variances and the normalised features as arrays. -/
theorem mean_arr (X : Terms.Ct Ideal S8192x1536 .f32) :
    (Terms.mean (F := Ideal) X : S1536.Idx → EReal) = arr1 (rMu (cur2 X)) := by
  funext i
  obtain ⟨c, rfl⟩ := exists_ix1 i
  exact mean_read X c

theorem var_arr (X : Terms.Ct Ideal S8192x1536 .f32) :
    (Terms.var (F := Ideal) X : S1536.Idx → EReal) = arr1 (rVar (cur2 X)) := by
  funext i
  obtain ⟨c, rfl⟩ := exists_ix1 i
  exact var_read X c

theorem normed_arr (X : Terms.Ct Ideal S8192x1536 .f32) (gam bet : Terms.Ct Ideal S1536 .f32) :
    (Terms.normed (F := Ideal) X gam bet : S8192x1536.Idx → EReal) = arr2 (rNorm (cur2 X) (cur1 gam) (cur1 bet)) := by
  funext i
  obtain ⟨b, c, rfl⟩ := exists_ix2 i
  exact normed_read X gam bet b c
end Cert.ReferenceIdeal.RefRead

end
-- ==== Proof.RSide.lean ====
/-
  The reference's result arrays as the mathematics of Spec.lean: each stage term read at an index, composed.
-/
import proofs.«116837_j75015898792523_2_alg».proof.Proof.RefRead

noncomputable section

namespace Cert.ReferenceIdeal.RSide

open Idealize.ShloMosaic Idealize.ShloMosaic.ValueIdx
open Cert.ReferenceIdeal Cert.ReferenceIdeal.Gen Cert.Spec

theorem cur2_arr2 {a b : Nat} (g : Fin a → Fin b → EReal) : cur2 (arr2 g) = g := rfl

variable (SF : Terms.Ct Ideal S8192x512 .f32) (NF : Terms.Ct Ideal S8192x32x512 .f32) (W : Terms.Ct Ideal S1024x1024 .f32)
  (gam bet : Terms.Ct Ideal S1536 .f32) (W1 : Terms.Ct Ideal S1536x1536 .f32)

theorem gen_val : (Terms.relu (F := Ideal) (Terms.raw SF NF W) : S8192x1024.Idx → EReal) = arr2 (rGen (cur2 SF) (cur3 NF) (cur2 W)) := by
  rw [RefRead.relu_read, RefRead.raw_read, cur2_arr2]; rfl

theorem envGen_val : (Terms.relu (F := Ideal) (Terms.envRaw NF W) : S8192x1024.Idx → EReal) = arr2 (rEnvGen (cur3 NF) (cur2 W)) := by
  rw [RefRead.relu_read, RefRead.envRaw_read, cur2_arr2]; rfl

theorem out_val : (Terms.out (F := Ideal) (Terms.feats (Terms.agg NF) (Terms.relu (Terms.raw SF NF W))) gam bet W1 : S8192x1536.Idx → EReal)
    = arr2 (rOut (rFeats (rAgg (cur3 NF)) (rGen (cur2 SF) (cur3 NF) (cur2 W))) (cur1 gam) (cur1 bet) (cur2 W1)) := by
  rw [RefRead.out_read, RefRead.feats_read, RefRead.agg_read, gen_val, cur2_arr2, cur2_arr2]

end Cert.ReferenceIdeal.RSide

end
-- ==== Proof.RefRun.lean ====
/-
  The reference program's run, read back: its host operations listed in order (the four outlined functions'
  operations at their call sites, over each call's own buffers), the program shown equal to that straight line,
  and every weakly fair execution shown to end with each returned buffer at the composed term of the argument
  arrays (the stage definitions of RefTerms), the arguments unchanged.
-/
import proofs.«116837_j75015898792523_2_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 90 operations, in order: 59 of its own and the 31 of the four calls (the rectifier twice, the variance with its guarded select, the last rectifier), each call's at its site over that call's buffers. -/
abbrev ops : List (HloOp τ sig (Elt F)) :=
  [ StableHlo.nullary main_c (constantI S_ 32 0#32),
    StableHlo.unary main_c main_v0 (broadcastInDim S8192 ![] bcast_S_S8192 : (⟨S_, .i32⟩ : BufTy).Contents (Elt F) → (⟨S8192, .i32⟩ : BufTy).Contents (Elt F)),
    StableHlo.binary main_arg5 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 100000#32),
    StableHlo.unary main_c_0 main_v2 (broadcastInDim S8192 ![] bcast_S_S8192 : (⟨S_, .i32⟩ : BufTy).Contents (Elt F) → (⟨S8192, .i32⟩ : BufTy).Contents (Elt F)),
    StableHlo.binary main_arg5 main_v2 main_v3 (addi : (⟨S8192, .i32⟩ : BufTy).Contents (Elt F) → (⟨S8192, .i32⟩ : BufTy).Contents (Elt F) → (⟨S8192, .i32⟩ : BufTy).Contents (Elt F)),
    StableHlo.ternary main_v1 main_v3 main_arg5 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v4 main_v5 (broadcastInDim S8192x1 ![0] bcast_S8192_S8192x1_0 : (⟨S8192, .i32⟩ : BufTy).Contents (Elt F) → (⟨S8192x1, .i32⟩ : BufTy).Contents (Elt F)),
    StableHlo.binary main_arg0 main_v5 main_v6 ((fun x i => Host.gather gather_S100000x512_S8192x1_S8192x512_1_0_n_n_0_1_1512 x i) : (⟨S100000x512, .f32⟩ : BufTy).Contents (Elt F) → (⟨S8192x1, .i32⟩ : BufTy).Contents (Elt F) → (⟨S8192x512, .f32⟩ : BufTy).Contents (Elt F)),
    StableHlo.nullary main_c_1 (constantI S_ 32 0#32),
    StableHlo.unary main_c_1 main_v7 (broadcastInDim S8192x32 ![] bcast_S_S8192x32 : (⟨S_, .i32⟩ : BufTy).Contents (Elt F) → (⟨S8192x32, .i32⟩ : BufTy).Contents (Elt F)),
    StableHlo.binary main_arg6 main_v7 main_v8 (cmpi .slt : (⟨S8192x32, .i32⟩ : BufTy).Contents (Elt F) → (⟨S8192x32, .i32⟩ : BufTy).Contents (Elt F) → (⟨S8192x32, .i1⟩ : BufTy).Contents (Elt F)),
    StableHlo.nullary main_c_2 (constantI S_ 32 100000#32),
    StableHlo.unary main_c_2 main_v9 (broadcastInDim S8192x32 ![] bcast_S_S8192x32 : (⟨S_, .i32⟩ : BufTy).Contents (Elt F) → (⟨S8192x32, .i32⟩ : BufTy).Contents (Elt F)),
    StableHlo.binary main_arg6 main_v9 main_v10 (addi : (⟨S8192x32, .i32⟩ : BufTy).Contents (Elt F) → (⟨S8192x32, .i32⟩ : BufTy).Contents (Elt F) → (⟨S8192x32, .i32⟩ : BufTy).Contents (Elt F)),
    StableHlo.ternary main_v8 main_v10 main_arg6 main_v11 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    StableHlo.unary main_v11 main_v12 (broadcastInDim S8192x32x1 ![0, 1] bcast_S8192x32_S8192x32x1_0_1 : (⟨S8192x32, .i32⟩ : BufTy).Contents (Elt F) → (⟨S8192x32x1, .i32⟩ : BufTy).Contents (Elt F)),
    StableHlo.binary main_arg0 main_v12 main_v13 ((fun x i => Host.gather gather_S100000x512_S8192x32x1_S8192x32x512_2_0_n_n_0_2_1512 x i) : (⟨S100000x512, .f32⟩ : BufTy).Contents (Elt F) → (⟨S8192x32x1, .i32⟩ : BufTy).Contents (Elt F) → (⟨S8192x32x512, .f32⟩ : BufTy).Contents (Elt F)),
    StableHlo.nullary main_cst (constant S_ .f32 0x00000000#32),
    StableHlo.binary main_v13 main_cst main_v14 ((fun x v => Host.reduceAdd x v reducesTo_S8192x32x512_S8192x512_d1 h_S_) : (⟨S8192x32x512, .f32⟩ : BufTy).Contents (Elt F) → (⟨S_, .f32⟩ : BufTy).Contents (Elt F) → (⟨S8192x512, .f32⟩ : BufTy).Contents (Elt F)),
    StableHlo.nullary main_cst_3 (constant S_ .f32 0x42000000#32),
    StableHlo.unary main_cst_3 main_v15 (broadcastInDim S8192x512 ![] bcast_S_S8192x512 : (⟨S_, .f32⟩ : BufTy).Contents (Elt F) → (⟨S8192x512, .f32⟩ : BufTy).Contents (Elt F)),
    StableHlo.binary main_v14 main_v15 main_v16 (Host.divf : (⟨S8192x512, .f32⟩ : BufTy).Contents (Elt F) → (⟨S8192x512, .f32⟩ : BufTy).Contents (Elt F) → (⟨S8192x512, .f32⟩ : BufTy).Contents (Elt F)),
    StableHlo.binary main_v6 main_v16 main_v17 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.binary main_v17 main_arg1 main_v18 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary main_call0.cst (constant S_ .f32 0x00000000#32),
    StableHlo.TRef.unary main_call0.cst main_call0.v0 (broadcastInDim S8192x1024 ![] bcast_S_S8192x1024),
    StableHlo.TRef.binary (StableHlo.TRef.of main_v18 : StableHlo.TRef sig ⟨S8192x1024, .f32⟩) main_call0.v0 main_call0.v1 maximumf,
    StableHlo.unary main_v13 main_v20 ((extractStridedSlice S8192x31x512 ![0, 1, 0] · slices_S8192x32x512_S8192x31x512_0_1_0) : (⟨S8192x32x512, .f32⟩ : BufTy).Contents (Elt F) → (⟨S8192x31x512, .f32⟩ : BufTy).Contents (Elt F)),
    StableHlo.nullary main_cst_4 (constant S_ .f32 0x00000000#32),
    StableHlo.binary main_v20 main_cst_4 main_v21 ((fun x v => Host.reduceAdd x v reducesTo_S8192x31x512_S8192x512_d1 h_S_) : (⟨S8192x31x512, .f32⟩ : BufTy).Contents (Elt F) → (⟨S_, .f32⟩ : BufTy).Contents (Elt F) → (⟨S8192x512, .f32⟩ : BufTy).Contents (Elt F)),
    StableHlo.nullary main_cst_5 (constant S_ .f32 0x41F80000#32),
    StableHlo.unary main_cst_5 main_v22 (broadcastInDim S8192x512 ![] bcast_S_S8192x512 : (⟨S_, .f32⟩ : BufTy).Contents (Elt F) → (⟨S8192x512, .f32⟩ : BufTy).Contents (Elt F)),
    StableHlo.binary main_v21 main_v22 main_v23 (Host.divf : (⟨S8192x512, .f32⟩ : BufTy).Contents (Elt F) → (⟨S8192x512, .f32⟩ : BufTy).Contents (Elt F) → (⟨S8192x512, .f32⟩ : BufTy).Contents (Elt F)),
    StableHlo.nullary main_cst_6 (constant S_ .f32 0x00000000#32),
    StableHlo.unary main_cst_6 main_v24 (broadcastInDim S8192x512 ![] bcast_S_S8192x512 : (⟨S_, .f32⟩ : BufTy).Contents (Elt F) → (⟨S8192x512, .f32⟩ : BufTy).Contents (Elt F)),
    StableHlo.binary main_v24 main_v23 main_v25 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.binary main_v25 main_arg1 main_v26 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary main_call1.cst (constant S_ .f32 0x00000000#32),
    StableHlo.TRef.unary main_call1.cst main_call1.v0 (broadcastInDim S8192x1024 ![] bcast_S_S8192x1024),
    StableHlo.TRef.binary (StableHlo.TRef.of main_v26 : StableHlo.TRef sig ⟨S8192x1024, .f32⟩) main_call1.v0 main_call1.v1 maximumf,
    StableHlo.binary main_v16 main_v19 main_v28 ((fun a b => concatenate S8192x1536 1 [⟨S8192x512, a⟩, ⟨S8192x1024, b⟩] concatenates_S8192x512_S8192x1024_S8192x1536_d1) : (⟨S8192x512, .f32⟩ : BufTy).Contents (Elt F) → (⟨S8192x1024, .f32⟩ : BufTy).Contents (Elt F) → (⟨S8192x1536, .f32⟩ : BufTy).Contents (Elt F)),
    StableHlo.nullary main_cst_7 (constant S_ .f32 0x00000000#32),
    StableHlo.binary main_v28 main_cst_7 main_v29 ((fun x v => Host.reduceAdd x v reducesTo_S8192x1536_S1536_d0 h_S_) : (⟨S8192x1536, .f32⟩ : BufTy).Contents (Elt F) → (⟨S_, .f32⟩ : BufTy).Contents (Elt F) → (⟨S1536, .f32⟩ : BufTy).Contents (Elt F)),
    StableHlo.nullary main_cst_8 (constant S_ .f32 0x46000000#32),
    StableHlo.unary main_cst_8 main_v30 (broadcastInDim S1536 ![] bcast_S_S1536 : (⟨S_, .f32⟩ : BufTy).Contents (Elt F) → (⟨S1536, .f32⟩ : BufTy).Contents (Elt F)),
    StableHlo.binary main_v29 main_v30 main_v31 (Host.divf : (⟨S1536, .f32⟩ : BufTy).Contents (Elt F) → (⟨S1536, .f32⟩ : BufTy).Contents (Elt F) → (⟨S1536, .f32⟩ : BufTy).Contents (Elt F)),
    StableHlo.nullary main_c_9 (constantI S_ 32 0#32),
    StableHlo.TRef.nullary main_call2.cst (constant S_ .f32 0x00000000#32),
    StableHlo.TRef.binary (StableHlo.TRef.of main_v28 : StableHlo.TRef sig ⟨S8192x1536, .f32⟩) main_call2.cst main_call2.v0 (fun x v => Host.reduceAdd x v reducesTo_S8192x1536_S1536_d0 h_S_),
    StableHlo.TRef.unary main_call2.v0 main_call2.v1 (broadcastInDim S1x1536 ![1] bcast_S1536_S1x1536_1),
    StableHlo.TRef.nullary main_call2.cst_0 (constant S_ .f32 0x46000000#32),
    StableHlo.TRef.unary main_call2.cst_0 main_call2.v2 (broadcastInDim S1x1536 ![] bcast_S_S1x1536),
    StableHlo.TRef.binary main_call2.v1 main_call2.v2 main_call2.v3 Host.divf,
    StableHlo.TRef.unary main_call2.v3 main_call2.v4 (broadcastInDim S8192x1536 ![0, 1] bcast_S1x1536_S8192x1536_0_1),
    StableHlo.TRef.binary (StableHlo.TRef.of main_v28 : StableHlo.TRef sig ⟨S8192x1536, .f32⟩) main_call2.v4 main_call2.v5 subf,
    StableHlo.TRef.binary main_call2.v5 main_call2.v5 main_call2.v6 mulf,
    StableHlo.TRef.unary (StableHlo.TRef.of main_c_9 : StableHlo.TRef sig ⟨S_, .i32⟩) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x1536_S1536_d0 h_S_),
    StableHlo.TRef.unary main_call2.v8 main_call2.v10 (broadcastInDim S1536 ![] bcast_S_S1536),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1536 ![] bcast_S_S1536),
    StableHlo.TRef.ternary main_call2.v12 main_call2.v11 main_call2.call0.v1 main_call2.call0.v2 (fun p a b => select (broadcastInDim S1536 ![] bcast_S_S1536 p) a b),
    StableHlo.unary main_v31 main_v33 (broadcastInDim S1x1536 ![1] bcast_S1536_S1x1536_1 : (⟨S1536, .f32⟩ : BufTy).Contents (Elt F) → (⟨S1x1536, .f32⟩ : BufTy).Contents (Elt F)),
    StableHlo.unary main_v33 main_v34 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v28 main_v34 main_v35 (subf : (⟨S8192x1536, .f32⟩ : BufTy).Contents (Elt F) → (⟨S8192x1536, .f32⟩ : BufTy).Contents (Elt F) → (⟨S8192x1536, .f32⟩ : BufTy).Contents (Elt F)),
    StableHlo.nullary main_cst_10 (constant S_ .f32 0x3727C5AC#32),
    StableHlo.unary main_cst_10 main_v36 (broadcastInDim S1536 ![] bcast_S_S1536 : (⟨S_, .f32⟩ : BufTy).Contents (Elt F) → (⟨S1536, .f32⟩ : BufTy).Contents (Elt F)),
    StableHlo.binary main_v32 main_v36 main_v37 (addf : (⟨S1536, .f32⟩ : BufTy).Contents (Elt F) → (⟨S1536, .f32⟩ : BufTy).Contents (Elt F) → (⟨S1536, .f32⟩ : BufTy).Contents (Elt F)),
    StableHlo.unary main_v37 main_v38 (Host.rsqrt : (⟨S1536, .f32⟩ : BufTy).Contents (Elt F) → (⟨S1536, .f32⟩ : BufTy).Contents (Elt F)),
    StableHlo.unary main_v38 main_v39 (broadcastInDim S1x1536 ![1] bcast_S1536_S1x1536_1 : (⟨S1536, .f32⟩ : BufTy).Contents (Elt F) → (⟨S1x1536, .f32⟩ : BufTy).Contents (Elt F)),
    StableHlo.unary main_v39 main_v40 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v35 main_v40 main_v41 (mulf : (⟨S8192x1536, .f32⟩ : BufTy).Contents (Elt F) → (⟨S8192x1536, .f32⟩ : BufTy).Contents (Elt F) → (⟨S8192x1536, .f32⟩ : BufTy).Contents (Elt F)),
    StableHlo.unary main_arg3 main_v42 (broadcastInDim S1x1536 ![1] bcast_S1536_S1x1536_1 : (⟨S1536, .f32⟩ : BufTy).Contents (Elt F) → (⟨S1x1536, .f32⟩ : BufTy).Contents (Elt F)),
    StableHlo.unary main_v42 main_v43 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v41 main_v43 main_v44 (mulf : (⟨S8192x1536, .f32⟩ : BufTy).Contents (Elt F) → (⟨S8192x1536, .f32⟩ : BufTy).Contents (Elt F) → (⟨S8192x1536, .f32⟩ : BufTy).Contents (Elt F)),
    StableHlo.unary main_arg4 main_v45 (broadcastInDim S1x1536 ![1] bcast_S1536_S1x1536_1 : (⟨S1536, .f32⟩ : BufTy).Contents (Elt F) → (⟨S1x1536, .f32⟩ : BufTy).Contents (Elt F)),
    StableHlo.unary main_v45 main_v46 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v44 main_v46 main_v47 (addf : (⟨S8192x1536, .f32⟩ : BufTy).Contents (Elt F) → (⟨S8192x1536, .f32⟩ : BufTy).Contents (Elt F) → (⟨S8192x1536, .f32⟩ : BufTy).Contents (Elt F)),
    StableHlo.binary main_v47 main_arg2 main_v48 ((fun l r => Host.dotGeneral dot_S8192x1536_S1536x1536_S8192x1536_1_0_0_1_n_n none l r) : (⟨S8192x1536, .f32⟩ : BufTy).Contents (Elt F) → (⟨S1536x1536, .f32⟩ : BufTy).Contents (Elt F) → (⟨S8192x1536, .f32⟩ : BufTy).Contents (Elt F)),
    StableHlo.TRef.nullary main_call3.cst (constant S_ .f32 0x00000000#32),
    StableHlo.TRef.unary main_call3.cst main_call3.v0 (broadcastInDim S8192x1536 ![] bcast_S_S8192x1536),
    StableHlo.TRef.binary (StableHlo.TRef.of main_v48 : StableHlo.TRef sig ⟨S8192x1536, .f32⟩) main_call3.v0 main_call3.v1 maximumf ]

-- ninety binds re-associated: the rewriting under the chain recurses once per statement
set_option maxRecDepth 8192 in
set_option maxHeartbeats 4000000 in
/-- The program is that straight line: the outlined functions unfolded at their calls, both sides are one chain
    of operation steps once sequencing is re-associated. -/
theorem main_eq (c : Dev nD) : main (F := F) c = seq ops := by
  simp only [main, main_part0, main_part1, fn_relu.body, fn_var.body, fn_where.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

/-! ## The returned buffers, read off the fold -/

set_option maxRecDepth 16384 in
set_option maxHeartbeats 2000000 in
/-- The neighbour mean. The fold read off operation by operation; what is left differs from the stage definitions by their
    unfolding and by the identity casts around the outlined functions' operations. -/
theorem t_v16 (V : Valuation τ sig (Elt F)) : after ops V (Proc.devRef .tc main_v16) = Terms.agg (Terms.neighF (V (Proc.devRef .tc main_arg0)) (V (Proc.devRef .tc main_arg6))) := by
  after_results_simp
  rfl

set_option maxRecDepth 16384 in
set_option maxHeartbeats 2000000 in
/-- The first generator layer's output, rectified. The fold read off operation by operation; what is left differs from the stage definitions by their
    unfolding and by the identity casts around the outlined functions' operations. -/
theorem t_v19 (V : Valuation τ sig (Elt F)) : after ops V (Proc.devRef .tc main_v19) = Terms.relu (Terms.raw (Terms.selfF (V (Proc.devRef .tc main_arg0)) (V (Proc.devRef .tc main_arg5))) (Terms.neighF (V (Proc.devRef .tc main_arg0)) (V (Proc.devRef .tc main_arg6))) (V (Proc.devRef .tc main_arg1))) := by
  after_results_simp
  rfl

set_option maxRecDepth 16384 in
set_option maxHeartbeats 2000000 in
/-- The first generator layer's output before the rectifier. The fold read off operation by operation; what is left differs from the stage definitions by their
    unfolding and by the identity casts around the outlined functions' operations. -/
theorem t_v18 (V : Valuation τ sig (Elt F)) : after ops V (Proc.devRef .tc main_v18) = Terms.raw (Terms.selfF (V (Proc.devRef .tc main_arg0)) (V (Proc.devRef .tc main_arg5))) (Terms.neighF (V (Proc.devRef .tc main_arg0)) (V (Proc.devRef .tc main_arg6))) (V (Proc.devRef .tc main_arg1)) := by
  after_results_simp
  rfl

set_option maxRecDepth 16384 in
set_option maxHeartbeats 2000000 in
/-- The environment branch's layer output, rectified. The fold read off operation by operation; what is left differs from the stage definitions by their
    unfolding and by the identity casts around the outlined functions' operations. -/
theorem t_v27 (V : Valuation τ sig (Elt F)) : after ops V (Proc.devRef .tc main_v27) = Terms.relu (Terms.envRaw (Terms.neighF (V (Proc.devRef .tc main_arg0)) (V (Proc.devRef .tc main_arg6))) (V (Proc.devRef .tc main_arg1))) := by
  after_results_simp
  rfl

set_option maxRecDepth 16384 in
set_option maxHeartbeats 2000000 in
/-- The environment branch's layer output before the rectifier. The fold read off operation by operation; what is left differs from the stage definitions by their
    unfolding and by the identity casts around the outlined functions' operations. -/
theorem t_v26 (V : Valuation τ sig (Elt F)) : after ops V (Proc.devRef .tc main_v26) = Terms.envRaw (Terms.neighF (V (Proc.devRef .tc main_arg0)) (V (Proc.devRef .tc main_arg6))) (V (Proc.devRef .tc main_arg1)) := by
  after_results_simp
  rfl

set_option maxRecDepth 16384 in
set_option maxHeartbeats 2000000 in
/-- No operation writes this argument. -/
theorem t_arg0 (V : Valuation τ sig (Elt F)) : after ops V (Proc.devRef .tc main_arg0) = V (Proc.devRef .tc main_arg0) := by
  after_results_simp

set_option maxRecDepth 16384 in
set_option maxHeartbeats 2000000 in
/-- No operation writes this argument. -/
theorem t_arg1 (V : Valuation τ sig (Elt F)) : after ops V (Proc.devRef .tc main_arg1) = V (Proc.devRef .tc main_arg1) := by
  after_results_simp

set_option maxRecDepth 16384 in
set_option maxHeartbeats 2000000 in
/-- No operation writes this argument. -/
theorem t_arg2 (V : Valuation τ sig (Elt F)) : after ops V (Proc.devRef .tc main_arg2) = V (Proc.devRef .tc main_arg2) := by
  after_results_simp

set_option maxRecDepth 16384 in
set_option maxHeartbeats 2000000 in
/-- No operation writes this argument. -/
theorem t_arg3 (V : Valuation τ sig (Elt F)) : after ops V (Proc.devRef .tc main_arg3) = V (Proc.devRef .tc main_arg3) := by
  after_results_simp

set_option maxRecDepth 16384 in
set_option maxHeartbeats 2000000 in
/-- No operation writes this argument. -/
theorem t_arg4 (V : Valuation τ sig (Elt F)) : after ops V (Proc.devRef .tc main_arg4) = V (Proc.devRef .tc main_arg4) := by
  after_results_simp

set_option maxRecDepth 16384 in
set_option maxHeartbeats 2000000 in
/-- No operation writes this argument. -/
theorem t_arg5 (V : Valuation τ sig (Elt F)) : after ops V (Proc.devRef .tc main_arg5) = V (Proc.devRef .tc main_arg5) := by
  after_results_simp

set_option maxRecDepth 16384 in
set_option maxHeartbeats 2000000 in
/-- No operation writes this argument. -/
theorem t_arg6 (V : Valuation τ sig (Elt F)) : after ops V (Proc.devRef .tc main_arg6) = V (Proc.devRef .tc main_arg6) := by
  after_results_simp

/-! ## The last layer's output, in two parts

Its term is deep (the feature matrix is read by the column sums, the deviations and the variance), so the line is cut
after the second generator layer: the second part is read from ANY contents, over the two buffers the first part
leaves it, and the first part's two results are the lemmas' above restated for the first part alone. -/
/-- The first 41 operations: the two gathers of table rows, the neighbour means, the two generator layers. -/
abbrev opsA : List (HloOp τ sig (Elt F)) :=
  [ StableHlo.nullary main_c (constantI S_ 32 0#32),
    StableHlo.unary main_c main_v0 (broadcastInDim S8192 ![] bcast_S_S8192 : (⟨S_, .i32⟩ : BufTy).Contents (Elt F) → (⟨S8192, .i32⟩ : BufTy).Contents (Elt F)),
    StableHlo.binary main_arg5 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 100000#32),
    StableHlo.unary main_c_0 main_v2 (broadcastInDim S8192 ![] bcast_S_S8192 : (⟨S_, .i32⟩ : BufTy).Contents (Elt F) → (⟨S8192, .i32⟩ : BufTy).Contents (Elt F)),
    StableHlo.binary main_arg5 main_v2 main_v3 (addi : (⟨S8192, .i32⟩ : BufTy).Contents (Elt F) → (⟨S8192, .i32⟩ : BufTy).Contents (Elt F) → (⟨S8192, .i32⟩ : BufTy).Contents (Elt F)),
    StableHlo.ternary main_v1 main_v3 main_arg5 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v4 main_v5 (broadcastInDim S8192x1 ![0] bcast_S8192_S8192x1_0 : (⟨S8192, .i32⟩ : BufTy).Contents (Elt F) → (⟨S8192x1, .i32⟩ : BufTy).Contents (Elt F)),
    StableHlo.binary main_arg0 main_v5 main_v6 ((fun x i => Host.gather gather_S100000x512_S8192x1_S8192x512_1_0_n_n_0_1_1512 x i) : (⟨S100000x512, .f32⟩ : BufTy).Contents (Elt F) → (⟨S8192x1, .i32⟩ : BufTy).Contents (Elt F) → (⟨S8192x512, .f32⟩ : BufTy).Contents (Elt F)),
    StableHlo.nullary main_c_1 (constantI S_ 32 0#32),
    StableHlo.unary main_c_1 main_v7 (broadcastInDim S8192x32 ![] bcast_S_S8192x32 : (⟨S_, .i32⟩ : BufTy).Contents (Elt F) → (⟨S8192x32, .i32⟩ : BufTy).Contents (Elt F)),
    StableHlo.binary main_arg6 main_v7 main_v8 (cmpi .slt : (⟨S8192x32, .i32⟩ : BufTy).Contents (Elt F) → (⟨S8192x32, .i32⟩ : BufTy).Contents (Elt F) → (⟨S8192x32, .i1⟩ : BufTy).Contents (Elt F)),
    StableHlo.nullary main_c_2 (constantI S_ 32 100000#32),
    StableHlo.unary main_c_2 main_v9 (broadcastInDim S8192x32 ![] bcast_S_S8192x32 : (⟨S_, .i32⟩ : BufTy).Contents (Elt F) → (⟨S8192x32, .i32⟩ : BufTy).Contents (Elt F)),
    StableHlo.binary main_arg6 main_v9 main_v10 (addi : (⟨S8192x32, .i32⟩ : BufTy).Contents (Elt F) → (⟨S8192x32, .i32⟩ : BufTy).Contents (Elt F) → (⟨S8192x32, .i32⟩ : BufTy).Contents (Elt F)),
    StableHlo.ternary main_v8 main_v10 main_arg6 main_v11 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    StableHlo.unary main_v11 main_v12 (broadcastInDim S8192x32x1 ![0, 1] bcast_S8192x32_S8192x32x1_0_1 : (⟨S8192x32, .i32⟩ : BufTy).Contents (Elt F) → (⟨S8192x32x1, .i32⟩ : BufTy).Contents (Elt F)),
    StableHlo.binary main_arg0 main_v12 main_v13 ((fun x i => Host.gather gather_S100000x512_S8192x32x1_S8192x32x512_2_0_n_n_0_2_1512 x i) : (⟨S100000x512, .f32⟩ : BufTy).Contents (Elt F) → (⟨S8192x32x1, .i32⟩ : BufTy).Contents (Elt F) → (⟨S8192x32x512, .f32⟩ : BufTy).Contents (Elt F)),
    StableHlo.nullary main_cst (constant S_ .f32 0x00000000#32),
    StableHlo.binary main_v13 main_cst main_v14 ((fun x v => Host.reduceAdd x v reducesTo_S8192x32x512_S8192x512_d1 h_S_) : (⟨S8192x32x512, .f32⟩ : BufTy).Contents (Elt F) → (⟨S_, .f32⟩ : BufTy).Contents (Elt F) → (⟨S8192x512, .f32⟩ : BufTy).Contents (Elt F)),
    StableHlo.nullary main_cst_3 (constant S_ .f32 0x42000000#32),
    StableHlo.unary main_cst_3 main_v15 (broadcastInDim S8192x512 ![] bcast_S_S8192x512 : (⟨S_, .f32⟩ : BufTy).Contents (Elt F) → (⟨S8192x512, .f32⟩ : BufTy).Contents (Elt F)),
    StableHlo.binary main_v14 main_v15 main_v16 (Host.divf : (⟨S8192x512, .f32⟩ : BufTy).Contents (Elt F) → (⟨S8192x512, .f32⟩ : BufTy).Contents (Elt F) → (⟨S8192x512, .f32⟩ : BufTy).Contents (Elt F)),
    StableHlo.binary main_v6 main_v16 main_v17 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.binary main_v17 main_arg1 main_v18 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary main_call0.cst (constant S_ .f32 0x00000000#32),
    StableHlo.TRef.unary main_call0.cst main_call0.v0 (broadcastInDim S8192x1024 ![] bcast_S_S8192x1024),
    StableHlo.TRef.binary (StableHlo.TRef.of main_v18 : StableHlo.TRef sig ⟨S8192x1024, .f32⟩) main_call0.v0 main_call0.v1 maximumf,
    StableHlo.unary main_v13 main_v20 ((extractStridedSlice S8192x31x512 ![0, 1, 0] · slices_S8192x32x512_S8192x31x512_0_1_0) : (⟨S8192x32x512, .f32⟩ : BufTy).Contents (Elt F) → (⟨S8192x31x512, .f32⟩ : BufTy).Contents (Elt F)),
    StableHlo.nullary main_cst_4 (constant S_ .f32 0x00000000#32),
    StableHlo.binary main_v20 main_cst_4 main_v21 ((fun x v => Host.reduceAdd x v reducesTo_S8192x31x512_S8192x512_d1 h_S_) : (⟨S8192x31x512, .f32⟩ : BufTy).Contents (Elt F) → (⟨S_, .f32⟩ : BufTy).Contents (Elt F) → (⟨S8192x512, .f32⟩ : BufTy).Contents (Elt F)),
    StableHlo.nullary main_cst_5 (constant S_ .f32 0x41F80000#32),
    StableHlo.unary main_cst_5 main_v22 (broadcastInDim S8192x512 ![] bcast_S_S8192x512 : (⟨S_, .f32⟩ : BufTy).Contents (Elt F) → (⟨S8192x512, .f32⟩ : BufTy).Contents (Elt F)),
    StableHlo.binary main_v21 main_v22 main_v23 (Host.divf : (⟨S8192x512, .f32⟩ : BufTy).Contents (Elt F) → (⟨S8192x512, .f32⟩ : BufTy).Contents (Elt F) → (⟨S8192x512, .f32⟩ : BufTy).Contents (Elt F)),
    StableHlo.nullary main_cst_6 (constant S_ .f32 0x00000000#32),
    StableHlo.unary main_cst_6 main_v24 (broadcastInDim S8192x512 ![] bcast_S_S8192x512 : (⟨S_, .f32⟩ : BufTy).Contents (Elt F) → (⟨S8192x512, .f32⟩ : BufTy).Contents (Elt F)),
    StableHlo.binary main_v24 main_v23 main_v25 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    StableHlo.binary main_v25 main_arg1 main_v26 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.TRef.nullary main_call1.cst (constant S_ .f32 0x00000000#32),
    StableHlo.TRef.unary main_call1.cst main_call1.v0 (broadcastInDim S8192x1024 ![] bcast_S_S8192x1024),
    StableHlo.TRef.binary (StableHlo.TRef.of main_v26 : StableHlo.TRef sig ⟨S8192x1024, .f32⟩) main_call1.v0 main_call1.v1 maximumf ]
/-- The last 49 operations: the feature matrix, its batch statistics, the normalisation and the last layer. -/
abbrev opsB : List (HloOp τ sig (Elt F)) :=
  [ StableHlo.binary main_v16 main_v19 main_v28 ((fun a b => concatenate S8192x1536 1 [⟨S8192x512, a⟩, ⟨S8192x1024, b⟩] concatenates_S8192x512_S8192x1024_S8192x1536_d1) : (⟨S8192x512, .f32⟩ : BufTy).Contents (Elt F) → (⟨S8192x1024, .f32⟩ : BufTy).Contents (Elt F) → (⟨S8192x1536, .f32⟩ : BufTy).Contents (Elt F)),
    StableHlo.nullary main_cst_7 (constant S_ .f32 0x00000000#32),
    StableHlo.binary main_v28 main_cst_7 main_v29 ((fun x v => Host.reduceAdd x v reducesTo_S8192x1536_S1536_d0 h_S_) : (⟨S8192x1536, .f32⟩ : BufTy).Contents (Elt F) → (⟨S_, .f32⟩ : BufTy).Contents (Elt F) → (⟨S1536, .f32⟩ : BufTy).Contents (Elt F)),
    StableHlo.nullary main_cst_8 (constant S_ .f32 0x46000000#32),
    StableHlo.unary main_cst_8 main_v30 (broadcastInDim S1536 ![] bcast_S_S1536 : (⟨S_, .f32⟩ : BufTy).Contents (Elt F) → (⟨S1536, .f32⟩ : BufTy).Contents (Elt F)),
    StableHlo.binary main_v29 main_v30 main_v31 (Host.divf : (⟨S1536, .f32⟩ : BufTy).Contents (Elt F) → (⟨S1536, .f32⟩ : BufTy).Contents (Elt F) → (⟨S1536, .f32⟩ : BufTy).Contents (Elt F)),
    StableHlo.nullary main_c_9 (constantI S_ 32 0#32),
    StableHlo.TRef.nullary main_call2.cst (constant S_ .f32 0x00000000#32),
    StableHlo.TRef.binary (StableHlo.TRef.of main_v28 : StableHlo.TRef sig ⟨S8192x1536, .f32⟩) main_call2.cst main_call2.v0 (fun x v => Host.reduceAdd x v reducesTo_S8192x1536_S1536_d0 h_S_),
    StableHlo.TRef.unary main_call2.v0 main_call2.v1 (broadcastInDim S1x1536 ![1] bcast_S1536_S1x1536_1),
    StableHlo.TRef.nullary main_call2.cst_0 (constant S_ .f32 0x46000000#32),
    StableHlo.TRef.unary main_call2.cst_0 main_call2.v2 (broadcastInDim S1x1536 ![] bcast_S_S1x1536),
    StableHlo.TRef.binary main_call2.v1 main_call2.v2 main_call2.v3 Host.divf,
    StableHlo.TRef.unary main_call2.v3 main_call2.v4 (broadcastInDim S8192x1536 ![0, 1] bcast_S1x1536_S8192x1536_0_1),
    StableHlo.TRef.binary (StableHlo.TRef.of main_v28 : StableHlo.TRef sig ⟨S8192x1536, .f32⟩) main_call2.v4 main_call2.v5 subf,
    StableHlo.TRef.binary main_call2.v5 main_call2.v5 main_call2.v6 mulf,
    StableHlo.TRef.unary (StableHlo.TRef.of main_c_9 : StableHlo.TRef sig ⟨S_, .i32⟩) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x1536_S1536_d0 h_S_),
    StableHlo.TRef.unary main_call2.v8 main_call2.v10 (broadcastInDim S1536 ![] bcast_S_S1536),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1536 ![] bcast_S_S1536),
    StableHlo.TRef.ternary main_call2.v12 main_call2.v11 main_call2.call0.v1 main_call2.call0.v2 (fun p a b => select (broadcastInDim S1536 ![] bcast_S_S1536 p) a b),
    StableHlo.unary main_v31 main_v33 (broadcastInDim S1x1536 ![1] bcast_S1536_S1x1536_1 : (⟨S1536, .f32⟩ : BufTy).Contents (Elt F) → (⟨S1x1536, .f32⟩ : BufTy).Contents (Elt F)),
    StableHlo.unary main_v33 main_v34 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v28 main_v34 main_v35 (subf : (⟨S8192x1536, .f32⟩ : BufTy).Contents (Elt F) → (⟨S8192x1536, .f32⟩ : BufTy).Contents (Elt F) → (⟨S8192x1536, .f32⟩ : BufTy).Contents (Elt F)),
    StableHlo.nullary main_cst_10 (constant S_ .f32 0x3727C5AC#32),
    StableHlo.unary main_cst_10 main_v36 (broadcastInDim S1536 ![] bcast_S_S1536 : (⟨S_, .f32⟩ : BufTy).Contents (Elt F) → (⟨S1536, .f32⟩ : BufTy).Contents (Elt F)),
    StableHlo.binary main_v32 main_v36 main_v37 (addf : (⟨S1536, .f32⟩ : BufTy).Contents (Elt F) → (⟨S1536, .f32⟩ : BufTy).Contents (Elt F) → (⟨S1536, .f32⟩ : BufTy).Contents (Elt F)),
    StableHlo.unary main_v37 main_v38 (Host.rsqrt : (⟨S1536, .f32⟩ : BufTy).Contents (Elt F) → (⟨S1536, .f32⟩ : BufTy).Contents (Elt F)),
    StableHlo.unary main_v38 main_v39 (broadcastInDim S1x1536 ![1] bcast_S1536_S1x1536_1 : (⟨S1536, .f32⟩ : BufTy).Contents (Elt F) → (⟨S1x1536, .f32⟩ : BufTy).Contents (Elt F)),
    StableHlo.unary main_v39 main_v40 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v35 main_v40 main_v41 (mulf : (⟨S8192x1536, .f32⟩ : BufTy).Contents (Elt F) → (⟨S8192x1536, .f32⟩ : BufTy).Contents (Elt F) → (⟨S8192x1536, .f32⟩ : BufTy).Contents (Elt F)),
    StableHlo.unary main_arg3 main_v42 (broadcastInDim S1x1536 ![1] bcast_S1536_S1x1536_1 : (⟨S1536, .f32⟩ : BufTy).Contents (Elt F) → (⟨S1x1536, .f32⟩ : BufTy).Contents (Elt F)),
    StableHlo.unary main_v42 main_v43 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v41 main_v43 main_v44 (mulf : (⟨S8192x1536, .f32⟩ : BufTy).Contents (Elt F) → (⟨S8192x1536, .f32⟩ : BufTy).Contents (Elt F) → (⟨S8192x1536, .f32⟩ : BufTy).Contents (Elt F)),
    StableHlo.unary main_arg4 main_v45 (broadcastInDim S1x1536 ![1] bcast_S1536_S1x1536_1 : (⟨S1536, .f32⟩ : BufTy).Contents (Elt F) → (⟨S1x1536, .f32⟩ : BufTy).Contents (Elt F)),
    StableHlo.unary main_v45 main_v46 (broadcastInDim S8192x1536 ![0, 1] bcast_S1x1536_S8192x1536_0_1 : (⟨S1x1536, .f32⟩ : BufTy).Contents (Elt F) → (⟨S8192x1536, .f32⟩ : BufTy).Contents (Elt F)),
    StableHlo.binary main_v44 main_v46 main_v47 (addf : (⟨S8192x1536, .f32⟩ : BufTy).Contents (Elt F) → (⟨S8192x1536, .f32⟩ : BufTy).Contents (Elt F) → (⟨S8192x1536, .f32⟩ : BufTy).Contents (Elt F)),
    StableHlo.binary main_v47 main_arg2 main_v48 ((fun l r => Host.dotGeneral dot_S8192x1536_S1536x1536_S8192x1536_1_0_0_1_n_n none l r) : (⟨S8192x1536, .f32⟩ : BufTy).Contents (Elt F) → (⟨S1536x1536, .f32⟩ : BufTy).Contents (Elt F) → (⟨S8192x1536, .f32⟩ : BufTy).Contents (Elt F)),
    StableHlo.TRef.nullary main_call3.cst (constant S_ .f32 0x00000000#32),
    StableHlo.TRef.unary main_call3.cst main_call3.v0 (broadcastInDim S8192x1536 ![] bcast_S_S8192x1536),
    StableHlo.TRef.binary (StableHlo.TRef.of main_v48 : StableHlo.TRef sig ⟨S8192x1536, .f32⟩) main_call3.v0 main_call3.v1 maximumf ]

/-- The contents after the whole line are those after its second part run from those after its first. -/
theorem ops_split (V : Valuation τ sig (Elt F)) : after ops V = after opsB (after opsA V) := rfl

set_option maxRecDepth 16384 in
set_option maxHeartbeats 2000000 in
theorem tA_v16 (V : Valuation τ sig (Elt F)) : after opsA V (Proc.devRef .tc main_v16) = Terms.agg (Terms.neighF (V (Proc.devRef .tc main_arg0)) (V (Proc.devRef .tc main_arg6))) := by
  after_results_simp
  rfl

set_option maxRecDepth 16384 in
set_option maxHeartbeats 2000000 in
theorem tA_v19 (V : Valuation τ sig (Elt F)) : after opsA V (Proc.devRef .tc main_v19) = Terms.relu (Terms.raw (Terms.selfF (V (Proc.devRef .tc main_arg0)) (V (Proc.devRef .tc main_arg5))) (Terms.neighF (V (Proc.devRef .tc main_arg0)) (V (Proc.devRef .tc main_arg6))) (V (Proc.devRef .tc main_arg1))) := by
  after_results_simp
  rfl

set_option maxRecDepth 16384 in
set_option maxHeartbeats 2000000 in
theorem tA_arg2 (V : Valuation τ sig (Elt F)) : after opsA V (Proc.devRef .tc main_arg2) = V (Proc.devRef .tc main_arg2) := by
  after_results_simp

set_option maxRecDepth 16384 in
set_option maxHeartbeats 2000000 in
theorem tA_arg3 (V : Valuation τ sig (Elt F)) : after opsA V (Proc.devRef .tc main_arg3) = V (Proc.devRef .tc main_arg3) := by
  after_results_simp

set_option maxRecDepth 16384 in
set_option maxHeartbeats 2000000 in
theorem tA_arg4 (V : Valuation τ sig (Elt F)) : after opsA V (Proc.devRef .tc main_arg4) = V (Proc.devRef .tc main_arg4) := by
  after_results_simp

set_option maxRecDepth 16384 in
set_option maxHeartbeats 4000000 in
/-- The last layer's output from any contents, over the two buffers the first part leaves it: the neighbour mean and
    the first generator layer's output. -/
theorem tB_v49 (W : Valuation τ sig (Elt F)) : after opsB W (Proc.devRef .tc main_v49) = Terms.out (Terms.feats (W (Proc.devRef .tc main_v16)) (W (Proc.devRef .tc main_v19))) (W (Proc.devRef .tc main_arg3)) (W (Proc.devRef .tc main_arg4)) (W (Proc.devRef .tc main_arg2)) := by
  after_results_simp
  rfl

theorem t_v49 (V : Valuation τ sig (Elt F)) : after ops V (Proc.devRef .tc main_v49) = Terms.out (Terms.feats (Terms.agg (Terms.neighF (V (Proc.devRef .tc main_arg0)) (V (Proc.devRef .tc main_arg6)))) (Terms.relu (Terms.raw (Terms.selfF (V (Proc.devRef .tc main_arg0)) (V (Proc.devRef .tc main_arg5))) (Terms.neighF (V (Proc.devRef .tc main_arg0)) (V (Proc.devRef .tc main_arg6))) (V (Proc.devRef .tc main_arg1))))) (V (Proc.devRef .tc main_arg3)) (V (Proc.devRef .tc main_arg4)) (V (Proc.devRef .tc main_arg2)) := by
  rw [ops_split V, tB_v49, tA_v16, tA_v19, tA_arg2, tA_arg3, tA_arg4]

set_option maxRecDepth 16384 in
set_option maxHeartbeats 4000000 in
/-- On every device, for any float values, from any memory with zero counters: every weakly fair execution of the
    program terminates with each returned buffer at the stage definitions' composed term of the argument arrays,
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = Terms.agg (Terms.neighF (m ((c.tc : Thread nD τ).loc main_arg0)) (m ((c.tc : Thread nD τ).loc main_arg6)))
      ∧ r.2.mem ((c.tc : Thread nD τ).loc main_v49) = Terms.out (Terms.feats (Terms.agg (Terms.neighF (m ((c.tc : Thread nD τ).loc main_arg0)) (m ((c.tc : Thread nD τ).loc main_arg6)))) (Terms.relu (Terms.raw (Terms.selfF (m ((c.tc : Thread nD τ).loc main_arg0)) (m ((c.tc : Thread nD τ).loc main_arg5))) (Terms.neighF (m ((c.tc : Thread nD τ).loc main_arg0)) (m ((c.tc : Thread nD τ).loc main_arg6))) (m ((c.tc : Thread nD τ).loc main_arg1))))) (m ((c.tc : Thread nD τ).loc main_arg3)) (m ((c.tc : Thread nD τ).loc main_arg4)) (m ((c.tc : Thread nD τ).loc main_arg2))
      ∧ r.2.mem ((c.tc : Thread nD τ).loc main_v19) = Terms.relu (Terms.raw (Terms.selfF (m ((c.tc : Thread nD τ).loc main_arg0)) (m ((c.tc : Thread nD τ).loc main_arg5))) (Terms.neighF (m ((c.tc : Thread nD τ).loc main_arg0)) (m ((c.tc : Thread nD τ).loc main_arg6))) (m ((c.tc : Thread nD τ).loc main_arg1)))
      ∧ r.2.mem ((c.tc : Thread nD τ).loc main_v18) = Terms.raw (Terms.selfF (m ((c.tc : Thread nD τ).loc main_arg0)) (m ((c.tc : Thread nD τ).loc main_arg5))) (Terms.neighF (m ((c.tc : Thread nD τ).loc main_arg0)) (m ((c.tc : Thread nD τ).loc main_arg6))) (m ((c.tc : Thread nD τ).loc main_arg1))
      ∧ r.2.mem ((c.tc : Thread nD τ).loc main_v27) = Terms.relu (Terms.envRaw (Terms.neighF (m ((c.tc : Thread nD τ).loc main_arg0)) (m ((c.tc : Thread nD τ).loc main_arg6))) (m ((c.tc : Thread nD τ).loc main_arg1)))
      ∧ r.2.mem ((c.tc : Thread nD τ).loc main_v26) = Terms.envRaw (Terms.neighF (m ((c.tc : Thread nD τ).loc main_arg0)) (m ((c.tc : Thread nD τ).loc main_arg6))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v16).trans (t_v16 (launchContents m c)),
      (h c main_v49).trans (t_v49 (launchContents m c)),
      (h c main_v19).trans (t_v19 (launchContents m c)),
      (h c main_v18).trans (t_v18 (launchContents m c)),
      (h c main_v27).trans (t_v27 (launchContents m c)),
      (h c main_v26).trans (t_v26 (launchContents m c)),
      (h c main_arg0).trans (t_arg0 (launchContents m c)),
      (h c main_arg1).trans (t_arg1 (launchContents m c)),
      (h c main_arg2).trans (t_arg2 (launchContents m c)),
      (h c main_arg3).trans (t_arg3 (launchContents m c)),
      (h c main_arg4).trans (t_arg4 (launchContents m c)),
      (h c main_arg5).trans (t_arg5 (launchContents m c)),
      (h c main_arg6).trans (t_arg6 (launchContents m c))⟩)
    (run_seq scopedRefs_eq scopedSems_eq defs main (fun _ => ops) main_eq (fun _ => ops_sub) m ρ)

end Cert.ReferenceIdeal.RefRun

end
-- ==== Proof.Algebra.lean ====
/-
  The algebra relating the two descriptions of the computation: pure facts about finite sums of extended reals.
  A quotient by a nonzero real constant is the product with its reciprocal; a contraction over 1024 (1536) splits
  into its first 512 and last 512 (1024) terms; removing a real first term from a sum leaves the sum of the rest;
  and for real data the variance as E[x²] − (E x)² equals the mean of the squared deviations.
-/
import proofs.«116837_j75015898792523_2_alg».proof.Proof.Spec
import Idealize.ShloMosaic.PureOps.Ideal
import Mathlib.Data.EReal.Operations
import Mathlib.Algebra.BigOperators.Fin
import Mathlib.Tactic

noncomputable section

open scoped BigOperators

namespace Cert.Spec

open Idealize.ShloMosaic

/-- every entry is a real number -/
def Fin2 {α β : Type} (X : α → β → EReal) : Prop := ∀ a b, ∃ x : ℝ, X a b = (x : EReal)
def Fin3 {α β γ : Type} (X : α → β → γ → EReal) : Prop := ∀ a b c, ∃ x : ℝ, X a b c = (x : EReal)

/-! ## Splitting a sum into two blocks -/

/-- A sum over 1024 terms is the sum of its first 512 plus the sum of its last 512. -/
theorem sum_split1024 (f : Fin 1024 → EReal) :
    ∑ k : Fin 1024, f k = (∑ k : Fin 512, f (lo k)) + ∑ k : Fin 512, f (hi k) :=
  Fin.sum_univ_add (a := 512) (b := 512) f

/-- A sum over 1536 terms is the sum of its first 512 plus the sum of its last 1024. -/
theorem sum_split1536 (f : Fin 1536 → EReal) :
    ∑ k : Fin 1536, f k = (∑ k : Fin 512, f (lo3 k)) + ∑ k : Fin 1024, f (hi3 k) :=
  Fin.sum_univ_add (a := 512) (b := 1024) f

theorem rCat_lo (X Y : Fin 8192 → Fin 512 → EReal) (b : Fin 8192) (k : Fin 512) : rCat X Y b (lo k) = X b k := by
  have h : (lo k).val < 512 := k.isLt
  rw [rCat, dif_pos h]
  rfl

theorem rCat_hi (X Y : Fin 8192 → Fin 512 → EReal) (b : Fin 8192) (k : Fin 512) : rCat X Y b (hi k) = Y b k := by
  have h : ¬ (hi k).val < 512 := by simp [hi]
  rw [rCat, dif_neg h]
  congr 1
  apply Fin.ext
  simp [hi]

/-! ## The neighbour mean and the generator -/

theorem agg_eq (NF : Fin 8192 → Fin 32 → Fin 512 → EReal) : kAgg NF = rAgg NF := by
  funext b f
  rw [kAgg, rAgg, Ideal.div_coe (by norm_num), zero_add]

theorem raw_eq (SF : Fin 8192 → Fin 512 → EReal) (NF : Fin 8192 → Fin 32 → Fin 512 → EReal)
    (Wg : Fin 1024 → Fin 1024 → EReal) :
    kRaw SF NF (fun k j => Wg (lo k) j) (fun k j => Wg (hi k) j) = rRaw SF NF Wg := by
  funext b j
  rw [rRaw, rDot, sum_split1024, kRaw, agg_eq]
  simp only [rCat_lo, rCat_hi]

theorem gen_eq (SF : Fin 8192 → Fin 512 → EReal) (NF : Fin 8192 → Fin 32 → Fin 512 → EReal)
    (Wg : Fin 1024 → Fin 1024 → EReal) :
    kGen SF NF (fun k j => Wg (lo k) j) (fun k j => Wg (hi k) j) = rGen SF NF Wg := by
  funext b j
  rw [kGen, rGen, raw_eq]

/-! ## The environment branch -/

/-- With real entries, the sum of all 32 neighbour rows minus row 0 is the sum of rows 1 … 31, so the two
    environment means agree. -/
theorem env_eq (NF : Fin 8192 → Fin 32 → Fin 512 → EReal) (hNF : Fin3 NF) : kEnv NF = rEnv NF := by
  funext b f
  obtain ⟨x, hx⟩ := hNF b 0 f
  have hs : ∀ k : Fin 31, succ31 k = Fin.succ k := fun k => Fin.ext rfl
  rw [kEnv, rEnv, Ideal.div_coe (by norm_num), zero_add, Fin.sum_univ_succ, hx, EReal.add_sub_cancel_left]
  simp only [hs]

theorem envRaw_eq (NF : Fin 8192 → Fin 32 → Fin 512 → EReal) (Wg : Fin 1024 → Fin 1024 → EReal)
    (hNF : Fin3 NF) : kEnvRaw NF (fun k j => Wg (hi k) j) = rEnvRaw NF Wg := by
  funext b j
  rw [rEnvRaw, rDot, sum_split1024, kEnvRaw, env_eq NF hNF]
  simp only [rCat_lo, rCat_hi, zero_mul, Finset.sum_const_zero, zero_add]

theorem envGen_eq (NF : Fin 8192 → Fin 32 → Fin 512 → EReal) (Wg : Fin 1024 → Fin 1024 → EReal)
    (hNF : Fin3 NF) : kEnvGen NF (fun k j => Wg (hi k) j) = rEnvGen NF Wg := by
  funext b j
  rw [kEnvGen, rEnvGen, envRaw_eq NF Wg hNF]

/-! ## Real entries -/

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- An extended real that is a real number. -/
def IsR (x : EReal) : Prop := ∃ r : ℝ, x = (r : EReal)

theorem IsR.zero : IsR 0 := ⟨0, EReal.coe_zero.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  rcases le_total x y with h | h
  · rw [max_eq_right h]; exact hy
  · rw [max_eq_left h]; exact hx

theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl (fun i _ => hg i)⟩

theorem fin2_kAgg (NF : Fin 8192 → Fin 32 → Fin 512 → EReal) (hNF : Fin3 NF) : Fin2 (kAgg NF) := by
  intro b f
  exact IsR.mul (IsR.sum _ _ (fun k => hNF b k f)) ⟨_, rfl⟩

theorem fin2_kGen (SF : Fin 8192 → Fin 512 → EReal) (NF : Fin 8192 → Fin 32 → Fin 512 → EReal)
    (Wt Wb : Fin 512 → Fin 1024 → EReal) (hSF : Fin2 SF) (hNF : Fin3 NF) (hWt : Fin2 Wt) (hWb : Fin2 Wb) :
    Fin2 (kGen SF NF Wt Wb) := by
  intro b j
  refine IsR.max (IsR.add (IsR.sum _ _ (fun k => IsR.mul (hSF b k) (hWt k j))) (IsR.sum _ _ (fun k => ?_))) IsR.zero
  exact IsR.mul (fin2_kAgg NF hNF b k) (hWb k j)

theorem fin2_rFeats (A : Fin 8192 → Fin 512 → EReal) (G : Fin 8192 → Fin 1024 → EReal) (hA : Fin2 A) (hG : Fin2 G) :
    Fin2 (rFeats A G) := by
  intro b c
  by_cases h : c.val < 512
  · simp only [rFeats, dif_pos h]; exact hA _ _
  · simp only [rFeats, dif_neg h]; exact hG _ _

/-! ## The column statistics -/

/-- The 32 tiles of 256 rows enumerate the 8192 rows once each. -/
theorem sum_rows {M : Type} [AddCommMonoid M] (f : Fin 8192 → M) :
    ∑ t : Fin 32, ∑ r : Fin 256, f (rowOf t r) = ∑ b : Fin 8192, f b := by
  rw [← Equiv.sum_comp (finProdFinEquiv : Fin 32 × Fin 256 ≃ Fin 8192) f, Fintype.sum_prod_type]
  refine Finset.sum_congr rfl (fun t _ => Finset.sum_congr rfl (fun r _ => ?_))
  congr 1
  apply Fin.ext
  show 256 * t.val + r.val = r.val + 256 * t.val
  omega

theorem kPartSum_eq (A : Fin 8192 → Fin 512 → EReal) (G : Fin 8192 → Fin 1024 → EReal) (t : Fin 32) (c : Fin 1536) :
    kPartSum A G t c = ∑ r : Fin 256, rFeats A G (rowOf t r) c := by
  by_cases h : c.val < 512
  · simp only [kPartSum, rFeats, dif_pos h]
  · simp only [kPartSum, rFeats, dif_neg h]

theorem kPartSq_eq (A : Fin 8192 → Fin 512 → EReal) (G : Fin 8192 → Fin 1024 → EReal) (t : Fin 32) (c : Fin 1536) :
    kPartSq A G t c = ∑ r : Fin 256, rFeats A G (rowOf t r) c * rFeats A G (rowOf t r) c := by
  by_cases h : c.val < 512
  · simp only [kPartSq, rFeats, dif_pos h]
  · simp only [kPartSq, rFeats, dif_neg h]

theorem rMu_eq (X : Fin 8192 → Fin 1536 → EReal) (c : Fin 1536) :
    rMu X c = (∑ b : Fin 8192, X b c) * ((1 / 8192 : ℝ) : EReal) := by
  rw [rMu, Ideal.div_coe (by norm_num), zero_add]

theorem rVar_eq (X : Fin 8192 → Fin 1536 → EReal) (c : Fin 1536) :
    rVar X c = (∑ b : Fin 8192, (X b c - rMu X c) * (X b c - rMu X c)) * ((1 / 8192 : ℝ) : EReal) := by
  rw [rVar, Ideal.div_coe (by norm_num), zero_add]

/-- The mean from the per-tile partial sums is the mean over all rows (no finiteness needed). -/
theorem kMu_eq (A : Fin 8192 → Fin 512 → EReal) (G : Fin 8192 → Fin 1024 → EReal) :
    kMu (kPartSum A G) = rMu (rFeats A G) := by
  funext c
  rw [kMu, rMu_eq, zero_add]
  simp only [kPartSum_eq]
  rw [sum_rows (fun b => rFeats A G b c)]

/-- For real numbers: E[x²] − (E x)² is the mean of the squared deviations from the mean. -/
theorem var_identity {ι : Type} [Fintype ι] (x : ι → ℝ) (N : ℝ) (hN : (Fintype.card ι : ℝ) = N) (hN0 : N ≠ 0) :
    (∑ b, x b * x b) * (1 / N) - ((∑ b, x b) * (1 / N)) * ((∑ b, x b) * (1 / N))
      = (∑ b, (x b - (∑ b, x b) * (1 / N)) * (x b - (∑ b, x b) * (1 / N))) * (1 / N) := by
  generalize hS : ∑ b, x b = S
  generalize hm : S * (1 / N) = m
  have h1 : ∀ b, (x b - m) * (x b - m) = x b * x b - 2 * m * x b + m * m := fun b => by ring
  have h2 : ∑ b, (x b - m) * (x b - m) = (∑ b, x b * x b) - 2 * m * S + N * (m * m) := by
    simp only [h1]
    rw [Finset.sum_add_distrib, Finset.sum_sub_distrib, ← Finset.mul_sum, Finset.sum_const, Finset.card_univ,
      nsmul_eq_mul, hN, hS]
  rw [h2, ← hm]
  field_simp
  ring

theorem var_core (X : Fin 8192 → Fin 1536 → EReal) (hX : Fin2 X) (c : Fin 1536) :
    (∑ b : Fin 8192, X b c * X b c) * ((1 / 8192 : ℝ) : EReal) - rMu X c * rMu X c = rVar X c := by
  choose x hx using hX
  rw [rVar_eq, rMu_eq]
  have key := congrArg (fun r : ℝ => (r : EReal))
    (var_identity (fun b : Fin 8192 => x b c) 8192 (by simp) (by norm_num))
  simp only [EReal.coe_mul, EReal.coe_sub, coe_sum] at key
  simp only [hx]
  exact key

/-- With real features the two variances agree. -/
theorem kVar_eq (A : Fin 8192 → Fin 512 → EReal) (G : Fin 8192 → Fin 1024 → EReal) (hX : Fin2 (rFeats A G)) :
    kVar (kPartSum A G) (kPartSq A G) = rVar (rFeats A G) := by
  funext c
  rw [kVar, kMu_eq, zero_add]
  simp only [kPartSq_eq]
  rw [sum_rows (fun b => rFeats A G b c * rFeats A G b c)]
  exact var_core (rFeats A G) hX c

/-! ## The normalised features and the last layer -/

theorem rFeats_lo3 (A : Fin 8192 → Fin 512 → EReal) (G : Fin 8192 → Fin 1024 → EReal) (b : Fin 8192) (k : Fin 512) :
    rFeats A G b (lo3 k) = A b k := by
  have h : (lo3 k).val < 512 := k.isLt
  rw [rFeats, dif_pos h]
  rfl

theorem rFeats_hi3 (A : Fin 8192 → Fin 512 → EReal) (G : Fin 8192 → Fin 1024 → EReal) (b : Fin 8192) (k : Fin 1024) :
    rFeats A G b (hi3 k) = G b k := by
  have h : ¬ (hi3 k).val < 512 := by simp [hi3]
  rw [rFeats, dif_neg h]
  congr 1
  apply Fin.ext
  simp [hi3]

theorem kNormA_eq (A : Fin 8192 → Fin 512 → EReal) (G : Fin 8192 → Fin 1024 → EReal) (gam bet : Fin 1536 → EReal)
    (b : Fin 8192) (k : Fin 512) :
    kNormA A (rMu (rFeats A G)) (rVar (rFeats A G)) gam bet b k = rNorm (rFeats A G) gam bet b (lo3 k) := by
  rw [kNormA, rNorm, rFeats_lo3]

theorem kNormG_eq (A : Fin 8192 → Fin 512 → EReal) (G : Fin 8192 → Fin 1024 → EReal) (gam bet : Fin 1536 → EReal)
    (b : Fin 8192) (k : Fin 1024) :
    kNormG G (rMu (rFeats A G)) (rVar (rFeats A G)) gam bet b k = rNorm (rFeats A G) gam bet b (hi3 k) := by
  rw [kNormG, rNorm, rFeats_hi3]

/-- With real features [A | G] the two last layers agree. -/
theorem out_core (A : Fin 8192 → Fin 512 → EReal) (G : Fin 8192 → Fin 1024 → EReal) (hX : Fin2 (rFeats A G))
    (gam bet : Fin 1536 → EReal) (W1 : Fin 1536 → Fin 1536 → EReal) :
    kOut A G (kMu (kPartSum A G)) (kVar (kPartSum A G) (kPartSq A G)) gam bet W1
      = rOut (rFeats A G) gam bet W1 := by
  funext b n
  rw [kMu_eq, kVar_eq A G hX, kOut, rOut, sum_split1536]
  simp only [kNormA_eq, kNormG_eq]

theorem out_eq (SF : Fin 8192 → Fin 512 → EReal) (NF : Fin 8192 → Fin 32 → Fin 512 → EReal)
    (Wg : Fin 1024 → Fin 1024 → EReal) (gam bet : Fin 1536 → EReal) (W1 : Fin 1536 → Fin 1536 → EReal)
    (hSF : Fin2 SF) (hNF : Fin3 NF) (hWg : Fin2 Wg) :
    kOut (kAgg NF) (kGen SF NF (fun k j => Wg (lo k) j) (fun k j => Wg (hi k) j))
      (kMu (kPartSum (kAgg NF) (kGen SF NF (fun k j => Wg (lo k) j) (fun k j => Wg (hi k) j))))
      (kVar (kPartSum (kAgg NF) (kGen SF NF (fun k j => Wg (lo k) j) (fun k j => Wg (hi k) j)))
            (kPartSq (kAgg NF) (kGen SF NF (fun k j => Wg (lo k) j) (fun k j => Wg (hi k) j))))
      gam bet W1
    = rOut (rFeats (rAgg NF) (rGen SF NF Wg)) gam bet W1 := by
  have hA : Fin2 (kAgg NF) := fin2_kAgg NF hNF
  have hG : Fin2 (kGen SF NF (fun k j => Wg (lo k) j) (fun k j => Wg (hi k) j)) :=
    fin2_kGen SF NF _ _ hSF hNF (fun k j => hWg (lo k) j) (fun k j => hWg (hi k) j)
  rw [out_core _ _ (fin2_rFeats _ _ hA hG), agg_eq, gen_eq]

end Cert.Spec

end
-- ==== Proof.Finite.lean ====
/-
  From the precondition "every float input is finite" to real numbers: the printed predicate is a conjunction of
  five `all (|x| < +∞)` tests; the first two say that every entry of the feature table and of the generator
  weights is a real number (neither infinity), which is what the algebra between the two programs uses.
-/
import proofs.«116837_j75015898792523_2_alg».proof.Pre_finite_inputs
import Idealize.ShloMosaic.Lib.ReduceAll
import Idealize.ShloMosaic.Lib.ValueIdx
import Idealize.ShloMosaic.PureOps.Ideal.Laws

noncomputable section

namespace Cert.Pre_finite_inputs.Real

open Idealize.ShloMosaic Idealize.ShloMosaic.ValueIdx Cert.Pre_finite_inputs

variable [Facts]
open Facts

instance : Subsingleton S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition every entry of the feature table and of the generator weights is a real number. -/
theorem reals_of_pre (a0 : FVec Ideal S100000x512 .f32) (a1 : FVec Ideal S1024x1024 .f32) (a2 : FVec Ideal S1536x1536 .f32)
    (a3 a4 : FVec Ideal S1536 .f32) (a5 : IVec S8192 32) (a6 : IVec S8192x32 32)
    (h : fn (F := Ideal) a0 a1 a2 a3 a4 a5 a6 = fun _ => 1#1) :
    (∀ i, ∃ r : ℝ, a0 i = (r : EReal)) ∧ (∀ i, ∃ r : ℝ, a1 i = (r : EReal)) := by
  have h0 := congrFun h ix0
  dsimp only [fn, fn_part1] at h0
  obtain ⟨h0123, -⟩ := IntOp.andi_eq_one.1 h0
  obtain ⟨h012, -⟩ := IntOp.andi_eq_one.1 h0123
  obtain ⟨h01, -⟩ := IntOp.andi_eq_one.1 h012
  obtain ⟨hA, hB⟩ := IntOp.andi_eq_one.1 h01
  refine ⟨fun i => real_of_abs_lt _ ?_, fun i => real_of_abs_lt _ ?_⟩
  · exact Host.reduce_andi_all _ _ _ _ _ hA i
  · exact Host.reduce_andi_all _ _ _ _ _ hB i

end Cert.Pre_finite_inputs.Real

end
-- ==== Proof.lean ====
/-
  The certificate of a two-kernel graph-aggregation layer against its jnp reference, over the extended reals.

  Both programs gather the batch's own table rows and its 32 neighbour rows with the same host operations. The
  first kernel, per tile of 256 batch rows, makes the neighbour mean (the sum times 1/32; the reference divides by
  32), the environment mean ((sum − column 0)·(1/31) with 1/31 NAMED; the reference sums columns 1 … 31 and
  divides by 31 — equal because the gathered entries are real numbers), the generator's product split over the
  two 512-row halves of the weights (the reference contracts 1024 columns of [self | mean] at once; the
  environment branch's first half is zeros), their relus, and per-tile column sums of the features and of their
  squares. Host operations add the 32 partial sums, scale by 2^-13 and form the variance as E[x²] − (E x)²; the
  reference takes the mean of the squared deviations: equal over the reals, all entries being real under the
  precondition. The second kernel normalises the two feature halves and contracts them against the two row blocks
  of the last weights (the reference contracts 1536 columns at once), then relu.

  Spec.lean states both sides' mathematics; Algebra.lean proves them equal; K0Pay / K0Arr / K0Stat / K1Arr read the
  kernels' blocks and assemble the arrays; KHost reads the host operations around the regions; KRun / KOut give the
  kernel program's run with its result arrays named; RefTerms / RefRun / RefRead do the same for the reference;
  Finite.lean turns the precondition into "every table and weight entry is real".
-/
import proofs.«116837_j75015898792523_2_alg».proof.Defs
import proofs.«116837_j75015898792523_2_alg».proof.Proof.Gen.Kernel
import proofs.«116837_j75015898792523_2_alg».proof.Proof.Gen.Kernel.Skeleton
import proofs.«116837_j75015898792523_2_alg».proof.Proof.Gen.Kernel.Launch
import proofs.«116837_j75015898792523_2_alg».proof.Proof.Gen.Kernel.Points
import proofs.«116837_j75015898792523_2_alg».proof.Proof.Gen.Kernel.Frame
import proofs.«116837_j75015898792523_2_alg».proof.Proof.Gen.KernelIdeal
import proofs.«116837_j75015898792523_2_alg».proof.Proof.Gen.KernelIdeal.Skeleton
import proofs.«116837_j75015898792523_2_alg».proof.Proof.Gen.KernelIdeal.Launch
import proofs.«116837_j75015898792523_2_alg».proof.Proof.Gen.KernelIdeal.Points
import proofs.«116837_j75015898792523_2_alg».proof.Proof.Gen.KernelIdeal.Frame
import proofs.«116837_j75015898792523_2_alg».proof.Proof.Gen.ReferenceIdeal
import proofs.«116837_j75015898792523_2_alg».proof.Proof.Gen.Pre_finite_inputs
import proofs.«116837_j75015898792523_2_alg».proof.Proof.KSide
import proofs.«116837_j75015898792523_2_alg».proof.Proof.KSideOut
import proofs.«116837_j75015898792523_2_alg».proof.Proof.RSide
import proofs.«116837_j75015898792523_2_alg».proof.Proof.RefRun
import proofs.«116837_j75015898792523_2_alg».proof.Proof.Algebra
import proofs.«116837_j75015898792523_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

/-! ## The frames and the named constant -/

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.RefRun.run (F := Ideal) m ρ)

/-- The one rewrite of the ideal pass: the literal 0.0322580636 of the environment mean reads as 1/31. -/
theorem preserves : Cert.preserves_Kernel_KernelIdeal :=
  IdealRules.named_const.statement Cert.KernelIdeal.κ "inv_31" .f32 0x3D042108#32 ((1 / 31 : ℝ) : EReal) rfl

/-! ## The two programs' gathers are one function -/

section Bridge
open Cert.KernelIdeal Cert.KernelIdeal.Gen

variable (m : (ℓ : Loc nD τ sig) → Buf (Elt Ideal) ℓ) (c : Dev nD)

/-- The reference's gather of the batch's own rows, at the kernel program's arguments, is the kernel program's. -/
theorem sf_bridge : cur2 (Cert.ReferenceIdeal.Terms.selfF (F := Ideal) (m ((c : Thread nD τ).loc main_arg0)) (m ((c : Thread nD τ).loc main_arg5)))
    = Cert.KernelIdeal.KSide.SF m c := rfl
theorem nf_bridge : cur3 (Cert.ReferenceIdeal.Terms.neighF (F := Ideal) (m ((c : Thread nD τ).loc main_arg0)) (m ((c : Thread nD τ).loc main_arg6)))
    = Cert.KernelIdeal.KSide.NF m c := rfl

/-- A gathered entry is an entry of the table, so real when the table's entries are. -/
theorem sf_real (hT : ∀ i, ∃ r : ℝ, (m ((c : Thread nD τ).loc main_arg0) : S100000x512.Idx → EReal) i = (r : EReal)) : Fin2 (Cert.KernelIdeal.KSide.SF m c) :=
  fun _ _ => hT _
theorem nf_real (hT : ∀ i, ∃ r : ℝ, (m ((c : Thread nD τ).loc main_arg0) : S100000x512.Idx → EReal) i = (r : EReal)) : Fin3 (Cert.KernelIdeal.KSide.NF m c) :=
  fun _ _ _ => hT _
theorem wg_real (hW : ∀ i, ∃ r : ℝ, (m ((c : Thread nD τ).loc main_arg1) : S1024x1024.Idx → EReal) i = (r : EReal)) : Fin2 (Cert.KernelIdeal.KSide.Wg m c) :=
  fun _ _ => hW _

end Bridge

/-! ## The value claim -/

theorem algebraic : Cert.algebraic_KernelIdeal_ReferenceIdeal := by
  intro m ρ m' ρ' hpre hagree
  refine ⟨fun c => arr2 (rAgg (Cert.KernelIdeal.KSide.NF m c)),
    fun c => arr2 (rOut (rFeats (rAgg (Cert.KernelIdeal.KSide.NF m c)) (rGen (Cert.KernelIdeal.KSide.SF m c) (Cert.KernelIdeal.KSide.NF m c) (Cert.KernelIdeal.KSide.Wg m c)))
      (Cert.KernelIdeal.KSide.gam m c) (Cert.KernelIdeal.KSide.bet m c) (Cert.KernelIdeal.KSide.W1 m c)),
    fun c => arr2 (rGen (Cert.KernelIdeal.KSide.SF m c) (Cert.KernelIdeal.KSide.NF m c) (Cert.KernelIdeal.KSide.Wg m c)),
    fun c => arr2 (rRaw (Cert.KernelIdeal.KSide.SF m c) (Cert.KernelIdeal.KSide.NF m c) (Cert.KernelIdeal.KSide.Wg m c)),
    fun c => arr2 (rEnvGen (Cert.KernelIdeal.KSide.NF m c) (Cert.KernelIdeal.KSide.Wg m c)),
    fun c => arr2 (rEnvRaw (Cert.KernelIdeal.KSide.NF m c) (Cert.KernelIdeal.KSide.Wg m c)), ?_, ?_⟩
  · -- the kernel program: each array is the k-side mathematics, equal to the r-side by the algebra
    refine (θ_run Cert.KernelIdeal.defs _ _).mono (fun r h c => ?_) (Cert.KernelIdeal.KRun.run_values (F := Ideal) m ρ)
    obtain ⟨hT, hW⟩ := Cert.Pre_finite_inputs.Real.reals_of_pre _ _ _ _ _ _ _ (hpre c)
    have hSF := sf_real m c hT
    have hNF := nf_real m c hT
    have hWg := wg_real m c hW
    obtain ⟨h0, h1, h2, h3, h4, h5, hargs⟩ := h c
    exact ⟨h0.trans ((Cert.KernelIdeal.KSide.agg_val m ρ c).trans (congrArg arr2 (agg_eq _))),
      h1.trans ((Cert.KernelIdeal.KSide.out_val m ρ c).trans (congrArg arr2 (out_eq _ _ _ _ _ _ hSF hNF hWg))),
      h2.trans ((Cert.KernelIdeal.KSide.gen_val m ρ c).trans (congrArg arr2 (gen_eq _ _ _))),
      h3.trans ((Cert.KernelIdeal.KSide.raw_val m ρ c).trans (congrArg arr2 (raw_eq _ _ _))),
      h4.trans ((Cert.KernelIdeal.KSide.envGen_val m ρ c).trans (congrArg arr2 (envGen_eq _ _ hNF))),
      h5.trans ((Cert.KernelIdeal.KSide.envRaw_val m ρ c).trans (congrArg arr2 (envRaw_eq _ _ hNF))), hargs⟩
  · -- the reference: each stage read at an index, at arguments that agree with the kernel program's
    refine (θ_run Cert.ReferenceIdeal.defs _ _).mono (fun r h c => ?_) (Cert.ReferenceIdeal.RefRun.run (F := Ideal) m' ρ')
    obtain ⟨a0, a1, a2, a3, a4, a5, a6⟩ := hagree c
    obtain ⟨h0, h1, h2, h3, h4, h5, hargs⟩ := h c
    simp only [a0, a1, a2, a3, a4, a5, a6] at h0 h1 h2 h3 h4 h5
    refine ⟨h0.trans ?_, h1.trans ?_, h2.trans ?_, h3.trans ?_, h4.trans ?_, h5.trans ?_, hargs⟩
    · rw [Cert.ReferenceIdeal.RefRead.agg_read, nf_bridge m c]
    · rw [Cert.ReferenceIdeal.RSide.out_val, nf_bridge m c, sf_bridge m c]; rfl
    · rw [Cert.ReferenceIdeal.RSide.gen_val, nf_bridge m c, sf_bridge m c]; rfl
    · rw [Cert.ReferenceIdeal.RefRead.raw_read, nf_bridge m c, sf_bridge m c]; rfl
    · rw [Cert.ReferenceIdeal.RSide.envGen_val, nf_bridge m c]; rfl
    · rw [Cert.ReferenceIdeal.RefRead.envRaw_read, nf_bridge m c]; rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
